-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S1x8192 : Shape := ⟨2, ![1, 8192]⟩
abbrev S64x128 : Shape := ⟨2, ![64, 128]⟩
abbrev S64x1 : Shape := ⟨2, ![64, 1]⟩
abbrev S64x8192 : Shape := ⟨2, ![64, 8192]⟩
abbrev S64 : Shape := ⟨1, ![64]⟩

abbrev nBuf : Space → Nat
  | .hbm => 26
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x128, .bf16⟩
  | .hbm, ⟨13, _⟩ => ⟨S128x8192, .f32⟩
  | .hbm, ⟨14, _⟩ => ⟨S128x8192, .bf16⟩
  | .hbm, ⟨15, _⟩ => ⟨S8192x1, .i32⟩
  | .hbm, ⟨16, _⟩ => ⟨S1x8192, .i32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S64x128, .bf16⟩
  | .local _ .vmem, ⟨1, _⟩ => ⟨S64x128, .bf16⟩
  | .local _ .vmem, ⟨2, _⟩ => ⟨S128x8192, .bf16⟩
  | .local _ .vmem, ⟨3, _⟩ => ⟨S64x1, .i32⟩
  | .local _ .vmem, ⟨4, _⟩ => ⟨S64x1, .i32⟩
  | .local _ .vmem, ⟨5, _⟩ => ⟨S1x8192, .i32⟩
  | .local _ .vmem, ⟨6, _⟩ => ⟨S64x1, .f32⟩
  | .local _ .vmem, ⟨7, _⟩ => ⟨S64x1, .f32⟩
  | .local _ .vmem, ⟨8, _⟩ => ⟨S64x1, .f32⟩
  | .local _ .vmem, ⟨9, _⟩ => ⟨S64x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  transposes_S8192x128_S128x8192_1_0 : S8192x128.Transposes [1, 0] S128x8192
  shapeCasts_S8192_S8192x1 : S8192.ShapeCasts S8192x1
  shapeCasts_S8192_S1x8192 : S8192.ShapeCasts S1x8192
  iota_S64x1_d0_w32 : S64x1.Iotas .tc 32 [0]
  iota_S1x8192_d1_w32 : S1x8192.Iotas .tc 32 [1]
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S64x1_S64x8192 : S64x1.Broadcasts S64x8192
  broadcasts_S1x8192_S64x8192 : S1x8192.Broadcasts S64x8192
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  reduces_S64x8192_S64 : S64x8192.Reduces [1] S64
  shapeCasts_S64_S64x1 : S64.ShapeCasts S64x1
  natLt_1_32 : 1 < 32
  reducesTo_S8192x1_S_d0_1 : S8192x1.ReducesTo [0, 1] S_
  dot_S64x128_S128x8192_S64x8192_1_0_0_1_n_n_wf : DotDims.WF S64x128 S128x8192 S64x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S8192x128.size a
  hwx0_0 : ∀ i : grid0.Coords, EltTy.bits .bf16 = 32 ∨ (Rect.block (s := S8192x128) S64x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S128x8192.size a
  hwx0_1 : ∀ i : grid0.Coords, EltTy.bits .bf16 = 32 ∨ (Rect.block (s := S128x8192) S128x8192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S8192x1.size a
  hwx0_2 : ∀ i : grid0.Coords, EltTy.bits .i32 = 32 ∨ (Rect.block (s := S8192x1) S64x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S8192x1.size a
  hwx0_4 : ∀ i : grid0.Coords, EltTy.bits .f32 = 32 ∨ (Rect.block (s := S8192x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S8192x1.size a
  hwx0_5 : ∀ i : grid0.Coords, EltTy.bits .f32 = 32 ∨ (Rect.block (s := S8192x1) S64x1.size (cc0_transform_5 i) (hinb0_5 i)).WholeWords (EltTy.packing .f32)

variable [Facts₀]

def dot_S64x128_S128x8192_S64x8192_1_0_0_1_n_n : DotDims S64x128 S128x8192 S64x8192 where
  lhsContracting := [1]
  rhsContracting := [0]
  lhsNonContracting := [0]
  rhsNonContracting := [1]
  lhsBatch := []
  rhsBatch := []
  wf := dot_S64x128_S128x8192_S64x8192_1_0_0_1_n_n_wf

abbrev win0_0 : Pipeline.Window sig grid0 :=
  Pipeline.Window.ofSpec (Memref.whole main_v5) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S64x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S64x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 142
  | .vmem => 0
  | .smem => 0
  | _ => 0

abbrev hbmTy0_0 (i : Nat) : BufTy := match i % 128 with
  | 0 => ⟨S8192x128, .f32⟩
  | 1 => ⟨S8192, .i32⟩
  | 2 => ⟨S8192x128, .f32⟩
  | 3 => ⟨S_, .f32⟩
  | 4 => ⟨S8192, .f32⟩
  | 5 => ⟨S8192x1, .f32⟩
  | 6 => ⟨S8192x1, .f32⟩
  | 7 => ⟨S_, .f32⟩
  | 8 => ⟨S8192x1, .f32⟩
  | 9 => ⟨S8192x1, .f32⟩
  | 10 => ⟨S8192x128, .f32⟩
  | 11 => ⟨S8192x128, .f32⟩
  | 12 => ⟨S128x8192, .f32⟩
  | 13 => ⟨S8192x8192, .f32⟩
  | 14 => ⟨S8192x1, .i32⟩
  | 15 => ⟨S1x8192, .i32⟩
  | 16 => ⟨S8192x8192, .i32⟩
  | 17 => ⟨S8192x8192, .i32⟩
  | 18 => ⟨S8192x8192, .i1⟩
  | 19 => ⟨S8192x8192, .i32⟩
  | 20 => ⟨S8192x8192, .i32⟩
  | 21 => ⟨S_, .i32⟩
  | 22 => ⟨S8192x8192, .i32⟩
  | 23 => ⟨S8192x8192, .i32⟩
  | 24 => ⟨S8192x8192, .i1⟩
  | 25 => ⟨S8192x8192, .i1⟩
  | 26 => ⟨S8192x8192, .i1⟩
  | 27 => ⟨S8192x8192, .i1⟩
  | 28 => ⟨S_, .f32⟩
  | 29 => ⟨S8192x8192, .f32⟩
  | 30 => ⟨S8192x8192, .f32⟩
  | 31 => ⟨S_, .f32⟩
  | 32 => ⟨S8192x8192, .f32⟩
  | 33 => ⟨S8192x8192, .f32⟩
  | 34 => ⟨S_, .f32⟩
  | 35 => ⟨S8192x8192, .f32⟩
  | 36 => ⟨S8192x8192, .f32⟩
  | 37 => ⟨S_, .f32⟩
  | 38 => ⟨S8192x8192, .f32⟩
  | 39 => ⟨S8192x8192, .f32⟩
  | 40 => ⟨S_, .f32⟩
  | 41 => ⟨S8192x8192, .f32⟩
  | 42 => ⟨S8192x8192, .f32⟩
  | 43 => ⟨S_, .f32⟩
  | 44 => ⟨S8192x8192, .f32⟩
  | 45 => ⟨S8192x8192, .f32⟩
  | 46 => ⟨S_, .f32⟩
  | 47 => ⟨S8192x8192, .f32⟩
  | 48 => ⟨S8192x8192, .f32⟩
  | 49 => ⟨S8192x8192, .f32⟩
  | 50 => ⟨S_, .f32⟩
  | 51 => ⟨S8192x8192, .f32⟩
  | 52 => ⟨S8192x8192, .f32⟩
  | 53 => ⟨S_, .f32⟩
  | 54 => ⟨S8192x8192, .f32⟩
  | 55 => ⟨S8192x8192, .f32⟩
  | 56 => ⟨S8192x8192, .f32⟩
  | 57 => ⟨S8192x8192, .i32⟩
  | 58 => ⟨S_, .i32⟩
  | 59 => ⟨S8192, .i32⟩
  | 60 => ⟨S8192x8192, .i32⟩
  | 61 => ⟨S_, .i32⟩
  | 62 => ⟨S8192, .i32⟩
  | 63 => ⟨S_, .i32⟩
  | 64 => ⟨S8192, .i32⟩
  | 65 => ⟨S8192, .i1⟩
  | 66 => ⟨S_, .i32⟩
  | 67 => ⟨S8192, .i32⟩
  | 68 => ⟨S8192, .i1⟩
  | 69 => ⟨S8192, .i1⟩
  | 70 => ⟨S_, .f32⟩
  | 71 => ⟨S_, .f32⟩
  | 72 => ⟨S8192x8192, .f32⟩
  | 73 => ⟨S8192x8192, .f32⟩
  | 74 => ⟨S_, .f32⟩
  | 75 => ⟨S8192, .f32⟩
  | 76 => ⟨S8192x1, .f32⟩
  | 77 => ⟨S8192, .f32⟩
  | 78 => ⟨S8192x8192, .f32⟩
  | 79 => ⟨S8192x8192, .f32⟩
  | 80 => ⟨S8192x8192, .f32⟩
  | 81 => ⟨S_, .f32⟩
  | 82 => ⟨S8192, .f32⟩
  | 83 => ⟨S8192, .f32⟩
  | 84 => ⟨S8192, .f32⟩
  | 85 => ⟨S_, .f32⟩
  | 86 => ⟨S_, .f32⟩
  | 87 => ⟨S8192x8192, .f32⟩
  | 88 => ⟨S8192x8192, .f32⟩
  | 89 => ⟨S_, .f32⟩
  | 90 => ⟨S8192, .f32⟩
  | 91 => ⟨S8192x1, .f32⟩
  | 92 => ⟨S8192, .f32⟩
  | 93 => ⟨S8192x8192, .f32⟩
  | 94 => ⟨S8192x8192, .f32⟩
  | 95 => ⟨S8192x8192, .f32⟩
  | 96 => ⟨S_, .f32⟩
  | 97 => ⟨S8192, .f32⟩
  | 98 => ⟨S8192, .f32⟩
  | 99 => ⟨S8192, .f32⟩
  | 100 => ⟨S8192, .f32⟩
  | 101 => ⟨S8192, .f32⟩
  | 102 => ⟨S_, .f32⟩
  | 103 => ⟨S_, .f32⟩
  | 104 => ⟨S8192, .f32⟩
  | 105 => ⟨S8192, .f32⟩
  | 106 => ⟨S8192, .f32⟩
  | 107 => ⟨S8192, .f32⟩
  | 108 => ⟨S_, .f32⟩
  | 109 => ⟨S_, .f32⟩
  | 110 => ⟨S8192, .f32⟩
  | 111 => ⟨S8192, .f32⟩
  | 112 => ⟨S8192, .f32⟩
  | 113 => ⟨S8192, .f32⟩
  | 114 => ⟨S8192, .f32⟩
  | 115 => ⟨S_, .f32⟩
  | 116 => ⟨S8192, .f32⟩
  | 117 => ⟨S8192, .f32⟩
  | 118 => ⟨S8192, .f32⟩
  | 119 => ⟨S8192, .f32⟩
  | 120 => ⟨S8192, .i1⟩
  | 121 => ⟨S8192, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .f32⟩
  | _ => ⟨S8192x128, .f32⟩

abbrev hbmTy0_1 (i : Nat) : BufTy := match i % 128 with
  | 0 => ⟨S8192, .f32⟩
  | 1 => ⟨S_, .f32⟩
  | 2 => ⟨S_, .f32⟩
  | 3 => ⟨S8192, .f32⟩
  | 4 => ⟨S8192, .f32⟩
  | 5 => ⟨S_, .f32⟩
  | 6 => ⟨S_, .f32⟩
  | 7 => ⟨S8192, .i32⟩
  | 8 => ⟨S_, .i32⟩
  | 9 => ⟨S_, .i32⟩
  | 10 => ⟨S_, .f32⟩
  | 11 => ⟨S_, .f32⟩
  | 12 => ⟨S_, .f32⟩
  | 13 => ⟨S_, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_call1_cst : Ref sig .tc := ⟨.hbm, 31, rfl⟩
abbrev main_call1_v0 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_call2_cst : Ref sig .tc := ⟨.hbm, 37, rfl⟩
abbrev main_call2_v0 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_c_9 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_call3_v0 : Ref sig .tc := ⟨.hbm, 71, rfl⟩
abbrev main_call3_v1 : Ref sig .tc := ⟨.hbm, 72, rfl⟩
abbrev main_v47 : Ref sig .tc := ⟨.hbm, 73, rfl⟩
abbrev main_cst_12 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_14 : Ref sig .tc := ⟨.hbm, 85, rfl⟩
abbrev main_call4_v0 : Ref sig .tc := ⟨.hbm, 86, rfl⟩
abbrev main_call4_v1 : Ref sig .tc := ⟨.hbm, 87, rfl⟩
abbrev main_v57 : Ref sig .tc := ⟨.hbm, 88, rfl⟩
abbrev main_cst_15 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_16 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_17 : Ref sig .tc := ⟨.hbm, 102, rfl⟩
abbrev main_call5_v0 : Ref sig .tc := ⟨.hbm, 103, rfl⟩
abbrev main_call5_v1 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_18 : Ref sig .tc := ⟨.hbm, 108, rfl⟩
abbrev main_call6_v0 : Ref sig .tc := ⟨.hbm, 109, rfl⟩
abbrev main_call6_v1 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_call7_cst : Ref sig .tc := ⟨.hbm, 115, rfl⟩
abbrev main_call7_v0 : Ref sig .tc := ⟨.hbm, 116, rfl⟩
abbrev main_call7_v1 : Ref sig .tc := ⟨.hbm, 117, rfl⟩
abbrev main_call7_v2 : Ref sig .tc := ⟨.hbm, 118, rfl⟩
abbrev main_call7_v3 : Ref sig .tc := ⟨.hbm, 119, rfl⟩
abbrev main_call7_v4 : Ref sig .tc := ⟨.hbm, 120, rfl⟩
abbrev main_call7_v5 : Ref sig .tc := ⟨.hbm, 121, rfl⟩
abbrev main_call7_v6 : Ref sig .tc := ⟨.hbm, 122, rfl⟩
abbrev main_call7_v7 : Ref sig .tc := ⟨.hbm, 123, rfl⟩
abbrev main_call7_v8 : Ref sig .tc := ⟨.hbm, 124, rfl⟩
abbrev main_call7_v9 : Ref sig .tc := ⟨.hbm, 125, rfl⟩
abbrev main_call7_v10 : Ref sig .tc := ⟨.hbm, 126, rfl⟩
abbrev main_call7_v11 : Ref sig .tc := ⟨.hbm, 127, rfl⟩
abbrev main_v76 : Ref sig .tc := ⟨.hbm, 128, rfl⟩
abbrev main_cst_19 : Ref sig .tc := ⟨.hbm, 129, rfl⟩
abbrev main_call8_v0 : Ref sig .tc := ⟨.hbm, 130, rfl⟩
abbrev main_call8_v1 : Ref sig .tc := ⟨.hbm, 131, rfl⟩
abbrev main_v77 : Ref sig .tc := ⟨.hbm, 132, rfl⟩
abbrev main_cst_20 : Ref sig .tc := ⟨.hbm, 133, rfl⟩
abbrev main_v78 : Ref sig .tc := ⟨.hbm, 134, rfl⟩
abbrev main_v79 : Ref sig .tc := ⟨.hbm, 135, rfl⟩
abbrev main_c_21 : Ref sig .tc := ⟨.hbm, 136, rfl⟩
abbrev main_v80 : Ref sig .tc := ⟨.hbm, 137, rfl⟩
abbrev main_v81 : Ref sig .tc := ⟨.hbm, 138, rfl⟩
abbrev main_cst_22 : Ref sig .tc := ⟨.hbm, 139, rfl⟩
abbrev main_v82 : Ref sig .tc := ⟨.hbm, 140, rfl⟩
abbrev main_v83 : Ref sig .tc := ⟨.hbm, 141, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  natLt_1_32 : 1 < 32
  reducesTo_S8192x8192_S8192_d1 : S8192x8192.ReducesTo [1] S8192
  bcast_S_S8192 : S_.BroadcastsInDim S8192 (![] : Fin 0 → Fin S8192.rank)
  shapeCasts_S8192x1_S8192 : S8192x1.ShapeCasts S8192
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.RefRun.lean ====
/-
  The reference program's run, read back stage by stage.

  @main of the reference is a straight line of 140 host operations (the functions jax outlined — the norm, relu, where,
  softplus — listed at their call sites), so every weakly fair execution terminates with each buffer at the fold of
  the operations' results over the launch contents (`StableHlo.run_seq`). That fold is opened in EIGHT consecutive
  stages of 12 to 29 operations, each over ARBITRARY contents `W` that hold, at the few buffers the stage reads, the
  stage functions (`Read.val_<buffer>`) of the two arguments: similarities; masks; the two terms; counts and validity;
  the two log-sum-exps; the logarithms of the counts; the softplus, the sums and the quotient. Each stage leaves what
  it computes, again as stage functions of the arguments, and keeps what later stages read, so the composition ends
  with the result buffer at `Read.val_main_v83` of the two arguments and the arguments unchanged (`run`).
-/
import proofs.«151346_j80951543595535_1_alg».proof.Proof.Gen.ReferenceIdeal
import proofs.«151346_j80951543595535_1_alg».proof.Proof.RefRead
import Idealize.ShloMosaic.Lib.StableHlo.Run

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## The operations, in eight stages -/

/-- Operations 1 … 12 of @main. -/
abbrev C1 : List (HloOp τ sig (Elt F)) :=
  [ TRef.binary (TRef.of (T := ⟨S8192x128, .f32⟩) main_arg0) (TRef.of (T := ⟨S8192x128, .f32⟩) main_arg0) (TRef.of (T := ⟨S8192x128, .f32⟩) main_call0_v0) mulf,
    TRef.nullary (TRef.of (T := ⟨S_, .f32⟩) main_call0_cst) (constant S_ .f32 0x00000000#32),
    TRef.binary (TRef.of (T := ⟨S8192x128, .f32⟩) main_call0_v0) (TRef.of (T := ⟨S_, .f32⟩) main_call0_cst) (TRef.of (T := ⟨S8192, .f32⟩) main_call0_v1) (fun x v => Host.reduceAdd x v reducesTo_S8192x128_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v0) Host.sqrt,
    nullary main_cst (constant S_ .f32 0x2B8CBCCC#32),
    unary main_cst main_v1 (broadcastInDim S8192x1 ![] bcast_S_S8192x1 : (⟨S_, .f32⟩ : BufTy).Contents (Elt F) → (⟨S8192x1, .f32⟩ : BufTy).Contents (Elt F)),
    binary main_v0 main_v1 main_v2 (maximumf : (⟨S8192x1, .f32⟩ : BufTy).Contents (Elt F) → (⟨S8192x1, .f32⟩ : BufTy).Contents (Elt F) → (⟨S8192x1, .f32⟩ : BufTy).Contents (Elt F)),
    unary main_v2 main_v3 (broadcastInDim S8192x128 ![0, 1] bcast_S8192x1_S8192x128_0_1 : (⟨S8192x1, .f32⟩ : BufTy).Contents (Elt F) → (⟨S8192x128, .f32⟩ : BufTy).Contents (Elt F)),
    binary main_arg0 main_v3 main_v4 (Host.divf : (⟨S8192x128, .f32⟩ : BufTy).Contents (Elt F) → (⟨S8192x128, .f32⟩ : BufTy).Contents (Elt F) → (⟨S8192x128, .f32⟩ : BufTy).Contents (Elt F)),
    unary main_v4 main_v5 ((transpose S128x8192 [1, 0] · transposes_S8192x128_S128x8192_1_0) : (⟨S8192x128, .f32⟩ : BufTy).Contents (Elt F) → (⟨S128x8192, .f32⟩ : BufTy).Contents (Elt F)),
    binary main_v4 main_v5 main_v6 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)) ]

/-- Operations 13 … 26 of @main. -/
abbrev C2 : List (HloOp τ sig (Elt F)) :=
  [ unary main_arg1 main_v7 (broadcastInDim S8192x1 ![0] bcast_S8192_S8192x1_0 : (⟨S8192, .i32⟩ : BufTy).Contents (Elt F) → (⟨S8192x1, .i32⟩ : BufTy).Contents (Elt F)),
    unary main_arg1 main_v8 (broadcastInDim S1x8192 ![1] bcast_S8192_S1x8192_1 : (⟨S8192, .i32⟩ : BufTy).Contents (Elt F) → (⟨S1x8192, .i32⟩ : BufTy).Contents (Elt F)),
    unary main_v7 main_v9 (broadcastInDim S8192x8192 ![0, 1] bcast_S8192x1_S8192x8192_0_1 : (⟨S8192x1, .i32⟩ : BufTy).Contents (Elt F) → (⟨S8192x8192, .i32⟩ : BufTy).Contents (Elt F)),
    unary main_v8 main_v10 (broadcastInDim S8192x8192 ![0, 1] bcast_S1x8192_S8192x8192_0_1 : (⟨S1x8192, .i32⟩ : BufTy).Contents (Elt F) → (⟨S8192x8192, .i32⟩ : BufTy).Contents (Elt F)),
    binary main_v9 main_v10 main_v11 (cmpi .eq : (⟨S8192x8192, .i32⟩ : BufTy).Contents (Elt F) → (⟨S8192x8192, .i32⟩ : BufTy).Contents (Elt F) → (⟨S8192x8192, .i1⟩ : BufTy).Contents (Elt F)),
    nullary main_v12 (iotaInDim S8192x8192 32 0),
    nullary main_v13 (iotaInDim S8192x8192 32 1),
    nullary main_c (constantI S_ 32 0#32),
    unary main_c main_v14 (broadcastInDim S8192x8192 ![] bcast_S_S8192x8192 : (⟨S_, .i32⟩ : BufTy).Contents (Elt F) → (⟨S8192x8192, .i32⟩ : BufTy).Contents (Elt F)),
    binary main_v12 main_v14 main_v15 (addi : (⟨S8192x8192, .i32⟩ : BufTy).Contents (Elt F) → (⟨S8192x8192, .i32⟩ : BufTy).Contents (Elt F) → (⟨S8192x8192, .i32⟩ : BufTy).Contents (Elt F)),
    binary main_v15 main_v13 main_v16 (cmpi .eq : (⟨S8192x8192, .i32⟩ : BufTy).Contents (Elt F) → (⟨S8192x8192, .i32⟩ : BufTy).Contents (Elt F) → (⟨S8192x8192, .i1⟩ : BufTy).Contents (Elt F)),
    unary main_v16 main_v17 (noti : (⟨S8192x8192, .i1⟩ : BufTy).Contents (Elt F) → (⟨S8192x8192, .i1⟩ : BufTy).Contents (Elt F)),
    binary main_v11 main_v17 main_v18 (andi : (⟨S8192x8192, .i1⟩ : BufTy).Contents (Elt F) → (⟨S8192x8192, .i1⟩ : BufTy).Contents (Elt F) → (⟨S8192x8192, .i1⟩ : BufTy).Contents (Elt F)),
    unary main_v11 main_v19 (noti : (⟨S8192x8192, .i1⟩ : BufTy).Contents (Elt F) → (⟨S8192x8192, .i1⟩ : BufTy).Contents (Elt F)) ]

/-- Operations 27 … 55 of @main. -/
abbrev C3 : List (HloOp τ sig (Elt F)) :=
  [ nullary main_cst_0 (constant S_ .f32 0x3FB33333#32),
    unary main_cst_0 main_v20 (broadcastInDim S8192x8192 ![] bcast_S_S8192x8192 : (⟨S_, .f32⟩ : BufTy).Contents (Elt F) → (⟨S8192x8192, .f32⟩ : BufTy).Contents (Elt F)),
    binary main_v20 main_v6 main_v21 (subf : (⟨S8192x8192, .f32⟩ : BufTy).Contents (Elt F) → (⟨S8192x8192, .f32⟩ : BufTy).Contents (Elt F) → (⟨S8192x8192, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x8192, .f32⟩) main_call1_v0) (broadcastInDim S8192x8192 ![] bcast_S_S8192x8192),
    TRef.binary (TRef.of (T := ⟨S8192x8192, .f32⟩) main_v21) (TRef.of (T := ⟨S8192x8192, .f32⟩) main_call1_v0) (TRef.of (T := ⟨S8192x8192, .f32⟩) main_v22) maximumf,
    nullary main_cst_1 (constant S_ .f32 0x3ECCCCCD#32),
    unary main_cst_1 main_v23 (broadcastInDim S8192x8192 ![] bcast_S_S8192x8192 : (⟨S_, .f32⟩ : BufTy).Contents (Elt F) → (⟨S8192x8192, .f32⟩ : BufTy).Contents (Elt F)),
    binary main_v6 main_v23 main_v24 (addf : (⟨S8192x8192, .f32⟩ : BufTy).Contents (Elt F) → (⟨S8192x8192, .f32⟩ : BufTy).Contents (Elt F) → (⟨S8192x8192, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8192x8192, .f32⟩) main_call2_v0) (broadcastInDim S8192x8192 ![] bcast_S_S8192x8192),
    TRef.binary (TRef.of (T := ⟨S8192x8192, .f32⟩) main_v24) (TRef.of (T := ⟨S8192x8192, .f32⟩) main_call2_v0) (TRef.of (T := ⟨S8192x8192, .f32⟩) main_v25) maximumf,
    nullary main_cst_2 (constant S_ .f32 0xC2A00000#32),
    unary main_cst_2 main_v26 (broadcastInDim S8192x8192 ![] bcast_S_S8192x8192 : (⟨S_, .f32⟩ : BufTy).Contents (Elt F) → (⟨S8192x8192, .f32⟩ : BufTy).Contents (Elt F)),
    binary main_v26 main_v22 main_v27 (mulf : (⟨S8192x8192, .f32⟩ : BufTy).Contents (Elt F) → (⟨S8192x8192, .f32⟩ : BufTy).Contents (Elt F) → (⟨S8192x8192, .f32⟩ : BufTy).Contents (Elt F)),
    nullary main_cst_3 (constant S_ .f32 0x3F800000#32),
    unary main_cst_3 main_v28 (broadcastInDim S8192x8192 ![] bcast_S_S8192x8192 : (⟨S_, .f32⟩ : BufTy).Contents (Elt F) → (⟨S8192x8192, .f32⟩ : BufTy).Contents (Elt F)),
    binary main_v6 main_v28 main_v29 (subf : (⟨S8192x8192, .f32⟩ : BufTy).Contents (Elt F) → (⟨S8192x8192, .f32⟩ : BufTy).Contents (Elt F) → (⟨S8192x8192, .f32⟩ : BufTy).Contents (Elt F)),
    nullary main_cst_4 (constant S_ .f32 0x3ECCCCCD#32),
    unary main_cst_4 main_v30 (broadcastInDim S8192x8192 ![] bcast_S_S8192x8192 : (⟨S_, .f32⟩ : BufTy).Contents (Elt F) → (⟨S8192x8192, .f32⟩ : BufTy).Contents (Elt F)),
    binary main_v29 main_v30 main_v31 (addf : (⟨S8192x8192, .f32⟩ : BufTy).Contents (Elt F) → (⟨S8192x8192, .f32⟩ : BufTy).Contents (Elt F) → (⟨S8192x8192, .f32⟩ : BufTy).Contents (Elt F)),
    binary main_v27 main_v31 main_v32 (mulf : (⟨S8192x8192, .f32⟩ : BufTy).Contents (Elt F) → (⟨S8192x8192, .f32⟩ : BufTy).Contents (Elt F) → (⟨S8192x8192, .f32⟩ : BufTy).Contents (Elt F)),
    nullary main_cst_5 (constant S_ .f32 0x42A00000#32),
    unary main_cst_5 main_v33 (broadcastInDim S8192x8192 ![] bcast_S_S8192x8192 : (⟨S_, .f32⟩ : BufTy).Contents (Elt F) → (⟨S8192x8192, .f32⟩ : BufTy).Contents (Elt F)),
    binary main_v33 main_v25 main_v34 (mulf : (⟨S8192x8192, .f32⟩ : BufTy).Contents (Elt F) → (⟨S8192x8192, .f32⟩ : BufTy).Contents (Elt F) → (⟨S8192x8192, .f32⟩ : BufTy).Contents (Elt F)),
    nullary main_cst_6 (constant S_ .f32 0x3ECCCCCD#32),
    unary main_cst_6 main_v35 (broadcastInDim S8192x8192 ![] bcast_S_S8192x8192 : (⟨S_, .f32⟩ : BufTy).Contents (Elt F) → (⟨S8192x8192, .f32⟩ : BufTy).Contents (Elt F)),
    binary main_v6 main_v35 main_v36 (subf : (⟨S8192x8192, .f32⟩ : BufTy).Contents (Elt F) → (⟨S8192x8192, .f32⟩ : BufTy).Contents (Elt F) → (⟨S8192x8192, .f32⟩ : BufTy).Contents (Elt F)),
    binary main_v34 main_v36 main_v37 (mulf : (⟨S8192x8192, .f32⟩ : BufTy).Contents (Elt F) → (⟨S8192x8192, .f32⟩ : BufTy).Contents (Elt F) → (⟨S8192x8192, .f32⟩ : BufTy).Contents (Elt F)) ]

/-- Operations 56 … 68 of @main. -/
abbrev C4 : List (HloOp τ sig (Elt F)) :=
  [ unary main_v18 main_v38 ((extui 32 · natLt_1_32) : (⟨S8192x8192, .i1⟩ : BufTy).Contents (Elt F) → (⟨S8192x8192, .i32⟩ : BufTy).Contents (Elt F)),
    nullary main_c_7 (constantI S_ 32 0#32),
    binary main_v38 main_c_7 main_v39 ((fun x v => Host.reduce IntOp.addi x v reducesTo_S8192x8192_S8192_d1 h_S_) : (⟨S8192x8192, .i32⟩ : BufTy).Contents (Elt F) → (⟨S_, .i32⟩ : BufTy).Contents (Elt F) → (⟨S8192, .i32⟩ : BufTy).Contents (Elt F)),
    unary main_v19 main_v40 ((extui 32 · natLt_1_32) : (⟨S8192x8192, .i1⟩ : BufTy).Contents (Elt F) → (⟨S8192x8192, .i32⟩ : BufTy).Contents (Elt F)),
    nullary main_c_8 (constantI S_ 32 0#32),
    binary main_v40 main_c_8 main_v41 ((fun x v => Host.reduce IntOp.addi x v reducesTo_S8192x8192_S8192_d1 h_S_) : (⟨S8192x8192, .i32⟩ : BufTy).Contents (Elt F) → (⟨S_, .i32⟩ : BufTy).Contents (Elt F) → (⟨S8192, .i32⟩ : BufTy).Contents (Elt F)),
    nullary main_c_9 (constantI S_ 32 0#32),
    unary main_c_9 main_v42 (broadcastInDim S8192 ![] bcast_S_S8192 : (⟨S_, .i32⟩ : BufTy).Contents (Elt F) → (⟨S8192, .i32⟩ : BufTy).Contents (Elt F)),
    binary main_v39 main_v42 main_v43 (cmpi .sgt : (⟨S8192, .i32⟩ : BufTy).Contents (Elt F) → (⟨S8192, .i32⟩ : BufTy).Contents (Elt F) → (⟨S8192, .i1⟩ : BufTy).Contents (Elt F)),
    nullary main_c_10 (constantI S_ 32 0#32),
    unary main_c_10 main_v44 (broadcastInDim S8192 ![] bcast_S_S8192 : (⟨S_, .i32⟩ : BufTy).Contents (Elt F) → (⟨S8192, .i32⟩ : BufTy).Contents (Elt F)),
    binary main_v41 main_v44 main_v45 (cmpi .sgt : (⟨S8192, .i32⟩ : BufTy).Contents (Elt F) → (⟨S8192, .i32⟩ : BufTy).Contents (Elt F) → (⟨S8192, .i1⟩ : BufTy).Contents (Elt F)),
    binary main_v43 main_v45 main_v46 (andi : (⟨S8192, .i1⟩ : BufTy).Contents (Elt F) → (⟨S8192, .i1⟩ : BufTy).Contents (Elt F) → (⟨S8192, .i1⟩ : BufTy).Contents (Elt F)) ]

/-- Operations 69 … 83 of @main. -/
abbrev C5 : List (HloOp τ sig (Elt F)) :=
  [ nullary main_cst_11 (constant S_ .f32 0xF149F2CA#32),
    TRef.unary (TRef.of (T := ⟨S_, .f32⟩) main_cst_11) (TRef.of (T := ⟨S_, .f32⟩) main_call3_v0) id,
    TRef.unary (TRef.of (T := ⟨S_, .f32⟩) main_call3_v0) (TRef.of (T := ⟨S8192x8192, .f32⟩) main_call3_v1) (broadcastInDim S8192x8192 ![] bcast_S_S8192x8192),
    TRef.ternary (TRef.of (T := ⟨S8192x8192, .i1⟩) main_v18) (TRef.of (T := ⟨S8192x8192, .f32⟩) main_v32) (TRef.of (T := ⟨S8192x8192, .f32⟩) main_call3_v1) (TRef.of (T := ⟨S8192x8192, .f32⟩) main_v47) select,
    nullary main_cst_12 (constant S_ .f32 0xFF800000#32),
    binary main_v47 main_cst_12 main_v48 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v48 main_v49 (broadcastInDim S8192x1 ![0] bcast_S8192_S8192x1_0 : (⟨S8192, .f32⟩ : BufTy).Contents (Elt F) → (⟨S8192x1, .f32⟩ : BufTy).Contents (Elt F)),
    reshape main_v49 main_v50 rfl shapeCasts_S8192x1_S8192,
    unary main_v49 main_v51 (broadcastInDim S8192x8192 ![0, 1] bcast_S8192x1_S8192x8192_0_1 : (⟨S8192x1, .f32⟩ : BufTy).Contents (Elt F) → (⟨S8192x8192, .f32⟩ : BufTy).Contents (Elt F)),
    binary main_v47 main_v51 main_v52 (subf : (⟨S8192x8192, .f32⟩ : BufTy).Contents (Elt F) → (⟨S8192x8192, .f32⟩ : BufTy).Contents (Elt F) → (⟨S8192x8192, .f32⟩ : BufTy).Contents (Elt F)),
    unary main_v52 main_v53 (Host.exp : (⟨S8192x8192, .f32⟩ : BufTy).Contents (Elt F) → (⟨S8192x8192, .f32⟩ : BufTy).Contents (Elt F)),
    nullary main_cst_13 (constant S_ .f32 0x00000000#32),
    binary main_v53 main_cst_13 main_v54 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v54 main_v55 (Host.log : (⟨S8192, .f32⟩ : BufTy).Contents (Elt F) → (⟨S8192, .f32⟩ : BufTy).Contents (Elt F)),
    binary main_v50 main_v55 main_v56 (addf : (⟨S8192, .f32⟩ : BufTy).Contents (Elt F) → (⟨S8192, .f32⟩ : BufTy).Contents (Elt F) → (⟨S8192, .f32⟩ : BufTy).Contents (Elt F)) ]

/-- Operations 84 … 98 of @main. -/
abbrev C6 : List (HloOp τ sig (Elt F)) :=
  [ nullary main_cst_14 (constant S_ .f32 0xF149F2CA#32),
    TRef.unary (TRef.of (T := ⟨S_, .f32⟩) main_cst_14) (TRef.of (T := ⟨S_, .f32⟩) main_call4_v0) id,
    TRef.unary (TRef.of (T := ⟨S_, .f32⟩) main_call4_v0) (TRef.of (T := ⟨S8192x8192, .f32⟩) main_call4_v1) (broadcastInDim S8192x8192 ![] bcast_S_S8192x8192),
    TRef.ternary (TRef.of (T := ⟨S8192x8192, .i1⟩) main_v19) (TRef.of (T := ⟨S8192x8192, .f32⟩) main_v37) (TRef.of (T := ⟨S8192x8192, .f32⟩) main_call4_v1) (TRef.of (T := ⟨S8192x8192, .f32⟩) main_v57) select,
    nullary main_cst_15 (constant S_ .f32 0xFF800000#32),
    binary main_v57 main_cst_15 main_v58 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v58 main_v59 (broadcastInDim S8192x1 ![0] bcast_S8192_S8192x1_0 : (⟨S8192, .f32⟩ : BufTy).Contents (Elt F) → (⟨S8192x1, .f32⟩ : BufTy).Contents (Elt F)),
    reshape main_v59 main_v60 rfl shapeCasts_S8192x1_S8192,
    unary main_v59 main_v61 (broadcastInDim S8192x8192 ![0, 1] bcast_S8192x1_S8192x8192_0_1 : (⟨S8192x1, .f32⟩ : BufTy).Contents (Elt F) → (⟨S8192x8192, .f32⟩ : BufTy).Contents (Elt F)),
    binary main_v57 main_v61 main_v62 (subf : (⟨S8192x8192, .f32⟩ : BufTy).Contents (Elt F) → (⟨S8192x8192, .f32⟩ : BufTy).Contents (Elt F) → (⟨S8192x8192, .f32⟩ : BufTy).Contents (Elt F)),
    unary main_v62 main_v63 (Host.exp : (⟨S8192x8192, .f32⟩ : BufTy).Contents (Elt F) → (⟨S8192x8192, .f32⟩ : BufTy).Contents (Elt F)),
    nullary main_cst_16 (constant S_ .f32 0x00000000#32),
    binary main_v63 main_cst_16 main_v64 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v64 main_v65 (Host.log : (⟨S8192, .f32⟩ : BufTy).Contents (Elt F) → (⟨S8192, .f32⟩ : BufTy).Contents (Elt F)),
    binary main_v60 main_v65 main_v66 (addf : (⟨S8192, .f32⟩ : BufTy).Contents (Elt F) → (⟨S8192, .f32⟩ : BufTy).Contents (Elt F) → (⟨S8192, .f32⟩ : BufTy).Contents (Elt F)) ]

/-- Operations 99 … 113 of @main. -/
abbrev C7 : List (HloOp τ sig (Elt F)) :=
  [ unary main_v39 main_v67 (sitofp .f32 : (⟨S8192, .i32⟩ : BufTy).Contents (Elt F) → (⟨S8192, .f32⟩ : BufTy).Contents (Elt F)),
    unary main_v67 main_v68 (Host.log : (⟨S8192, .f32⟩ : BufTy).Contents (Elt F) → (⟨S8192, .f32⟩ : BufTy).Contents (Elt F)),
    nullary main_cst_17 (constant S_ .f32 0x00000000#32),
    TRef.unary (TRef.of (T := ⟨S_, .f32⟩) main_cst_17) (TRef.of (T := ⟨S_, .f32⟩) main_call5_v0) id,
    TRef.unary (TRef.of (T := ⟨S_, .f32⟩) main_call5_v0) (TRef.of (T := ⟨S8192, .f32⟩) main_call5_v1) (broadcastInDim S8192 ![] bcast_S_S8192),
    TRef.ternary (TRef.of (T := ⟨S8192, .i1⟩) main_v46) (TRef.of (T := ⟨S8192, .f32⟩) main_v68) (TRef.of (T := ⟨S8192, .f32⟩) main_call5_v1) (TRef.of (T := ⟨S8192, .f32⟩) main_v69) select,
    unary main_v41 main_v70 (sitofp .f32 : (⟨S8192, .i32⟩ : BufTy).Contents (Elt F) → (⟨S8192, .f32⟩ : BufTy).Contents (Elt F)),
    unary main_v70 main_v71 (Host.log : (⟨S8192, .f32⟩ : BufTy).Contents (Elt F) → (⟨S8192, .f32⟩ : BufTy).Contents (Elt F)),
    nullary main_cst_18 (constant S_ .f32 0x00000000#32),
    TRef.unary (TRef.of (T := ⟨S_, .f32⟩) main_cst_18) (TRef.of (T := ⟨S_, .f32⟩) main_call6_v0) id,
    TRef.unary (TRef.of (T := ⟨S_, .f32⟩) main_call6_v0) (TRef.of (T := ⟨S8192, .f32⟩) main_call6_v1) (broadcastInDim S8192 ![] bcast_S_S8192),
    TRef.ternary (TRef.of (T := ⟨S8192, .i1⟩) main_v46) (TRef.of (T := ⟨S8192, .f32⟩) main_v71) (TRef.of (T := ⟨S8192, .f32⟩) main_call6_v1) (TRef.of (T := ⟨S8192, .f32⟩) main_v72) select,
    binary main_v56 main_v72 main_v73 (addf : (⟨S8192, .f32⟩ : BufTy).Contents (Elt F) → (⟨S8192, .f32⟩ : BufTy).Contents (Elt F) → (⟨S8192, .f32⟩ : BufTy).Contents (Elt F)),
    binary main_v73 main_v66 main_v74 (addf : (⟨S8192, .f32⟩ : BufTy).Contents (Elt F) → (⟨S8192, .f32⟩ : BufTy).Contents (Elt F) → (⟨S8192, .f32⟩ : BufTy).Contents (Elt F)),
    binary main_v74 main_v69 main_v75 (addf : (⟨S8192, .f32⟩ : BufTy).Contents (Elt F) → (⟨S8192, .f32⟩ : BufTy).Contents (Elt F) → (⟨S8192, .f32⟩ : BufTy).Contents (Elt F)) ]

/-- Operations 114 … 140 of @main. -/
abbrev C8 : List (HloOp τ sig (Elt F)) :=
  [ TRef.nullary (TRef.of (T := ⟨S_, .f32⟩) main_call7_cst) (constant S_ .f32 0x00000000#32),
    TRef.unary (TRef.of (T := ⟨S_, .f32⟩) main_call7_cst) (TRef.of (T := ⟨S8192, .f32⟩) main_call7_v0) (broadcastInDim S8192 ![] bcast_S_S8192),
    TRef.binary (TRef.of (T := ⟨S8192, .f32⟩) main_v75) (TRef.of (T := ⟨S8192, .f32⟩) main_call7_v0) (TRef.of (T := ⟨S8192, .f32⟩) main_call7_v1) maximumf,
    TRef.unary (TRef.of (T := ⟨S_, .f32⟩) main_call7_cst) (TRef.of (T := ⟨S8192, .f32⟩) main_call7_v2) (broadcastInDim S8192 ![] bcast_S_S8192),
    TRef.binary (TRef.of (T := ⟨S8192, .f32⟩) main_v75) (TRef.of (T := ⟨S8192, .f32⟩) main_call7_v2) (TRef.of (T := ⟨S8192, .f32⟩) main_call7_v3) subf,
    TRef.binary (TRef.of (T := ⟨S8192, .f32⟩) main_call7_v3) (TRef.of (T := ⟨S8192, .f32⟩) main_call7_v3) (TRef.of (T := ⟨S8192, .i1⟩) main_call7_v4) (cmpf .une),
    TRef.unary (TRef.of (T := ⟨S_, .f32⟩) main_call7_cst) (TRef.of (T := ⟨S8192, .f32⟩) main_call7_v5) (broadcastInDim S8192 ![] bcast_S_S8192),
    TRef.binary (TRef.of (T := ⟨S8192, .f32⟩) main_v75) (TRef.of (T := ⟨S8192, .f32⟩) main_call7_v5) (TRef.of (T := ⟨S8192, .f32⟩) main_call7_v6) addf,
    TRef.unary (TRef.of (T := ⟨S8192, .f32⟩) main_call7_v3) (TRef.of (T := ⟨S8192, .f32⟩) main_call7_v7) Host.absf,
    TRef.unary (TRef.of (T := ⟨S8192, .f32⟩) main_call7_v7) (TRef.of (T := ⟨S8192, .f32⟩) main_call7_v8) Host.negf,
    TRef.unary (TRef.of (T := ⟨S8192, .f32⟩) main_call7_v8) (TRef.of (T := ⟨S8192, .f32⟩) main_call7_v9) Host.exp,
    TRef.unary (TRef.of (T := ⟨S8192, .f32⟩) main_call7_v9) (TRef.of (T := ⟨S8192, .f32⟩) main_call7_v10) Host.log1p,
    TRef.binary (TRef.of (T := ⟨S8192, .f32⟩) main_call7_v1) (TRef.of (T := ⟨S8192, .f32⟩) main_call7_v10) (TRef.of (T := ⟨S8192, .f32⟩) main_call7_v11) addf,
    TRef.ternary (TRef.of (T := ⟨S8192, .i1⟩) main_call7_v4) (TRef.of (T := ⟨S8192, .f32⟩) main_call7_v6) (TRef.of (T := ⟨S8192, .f32⟩) main_call7_v11) (TRef.of (T := ⟨S8192, .f32⟩) main_v76) select,
    nullary main_cst_19 (constant S_ .f32 0x00000000#32),
    TRef.unary (TRef.of (T := ⟨S_, .f32⟩) main_cst_19) (TRef.of (T := ⟨S_, .f32⟩) main_call8_v0) id,
    TRef.unary (TRef.of (T := ⟨S_, .f32⟩) main_call8_v0) (TRef.of (T := ⟨S8192, .f32⟩) main_call8_v1) (broadcastInDim S8192 ![] bcast_S_S8192),
    TRef.ternary (TRef.of (T := ⟨S8192, .i1⟩) main_v46) (TRef.of (T := ⟨S8192, .f32⟩) main_v76) (TRef.of (T := ⟨S8192, .f32⟩) main_call8_v1) (TRef.of (T := ⟨S8192, .f32⟩) main_v77) select,
    nullary main_cst_20 (constant S_ .f32 0x00000000#32),
    binary main_v77 main_cst_20 main_v78 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v46 main_v79 ((extui 32 · natLt_1_32) : (⟨S8192, .i1⟩ : BufTy).Contents (Elt F) → (⟨S8192, .i32⟩ : BufTy).Contents (Elt F)),
    nullary main_c_21 (constantI S_ 32 0#32),
    binary main_v79 main_c_21 main_v80 ((fun x v => Host.reduce IntOp.addi x v reducesTo_S8192_S_d0 h_S_) : (⟨S8192, .i32⟩ : BufTy).Contents (Elt F) → (⟨S_, .i32⟩ : BufTy).Contents (Elt F) → (⟨S_, .i32⟩ : BufTy).Contents (Elt F)),
    unary main_v80 main_v81 (sitofp .f32 : (⟨S_, .i32⟩ : BufTy).Contents (Elt F) → (⟨S_, .f32⟩ : BufTy).Contents (Elt F)),
    nullary main_cst_22 (constant S_ .f32 0x3F800000#32),
    binary main_v81 main_cst_22 main_v82 (maximumf : (⟨S_, .f32⟩ : BufTy).Contents (Elt F) → (⟨S_, .f32⟩ : BufTy).Contents (Elt F) → (⟨S_, .f32⟩ : BufTy).Contents (Elt F)),
    binary main_v78 main_v82 main_v83 (Host.divf : (⟨S_, .f32⟩ : BufTy).Contents (Elt F) → (⟨S_, .f32⟩ : BufTy).Contents (Elt F) → (⟨S_, .f32⟩ : BufTy).Contents (Elt F)) ]

/-- @main's 140 operations, in order (a called function's operations stand in its call's place). -/
abbrev ops : List (HloOp τ sig (Elt F)) :=
  [ TRef.binary (TRef.of (T := ⟨S8192x128, .f32⟩) main_arg0) (TRef.of (T := ⟨S8192x128, .f32⟩) main_arg0) (TRef.of (T := ⟨S8192x128, .f32⟩) main_call0_v0) mulf,
    TRef.nullary (TRef.of (T := ⟨S_, .f32⟩) main_call0_cst) (constant S_ .f32 0x00000000#32),
    TRef.binary (TRef.of (T := ⟨S8192x128, .f32⟩) main_call0_v0) (TRef.of (T := ⟨S_, .f32⟩) main_call0_cst) (TRef.of (T := ⟨S8192, .f32⟩) main_call0_v1) (fun x v => Host.reduceAdd x v reducesTo_S8192x128_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v0) Host.sqrt,
    nullary main_cst (constant S_ .f32 0x2B8CBCCC#32),
    unary main_cst main_v1 (broadcastInDim S8192x1 ![] bcast_S_S8192x1 : (⟨S_, .f32⟩ : BufTy).Contents (Elt F) → (⟨S8192x1, .f32⟩ : BufTy).Contents (Elt F)),
    binary main_v0 main_v1 main_v2 (maximumf : (⟨S8192x1, .f32⟩ : BufTy).Contents (Elt F) → (⟨S8192x1, .f32⟩ : BufTy).Contents (Elt F) → (⟨S8192x1, .f32⟩ : BufTy).Contents (Elt F)),
    unary main_v2 main_v3 (broadcastInDim S8192x128 ![0, 1] bcast_S8192x1_S8192x128_0_1 : (⟨S8192x1, .f32⟩ : BufTy).Contents (Elt F) → (⟨S8192x128, .f32⟩ : BufTy).Contents (Elt F)),
    binary main_arg0 main_v3 main_v4 (Host.divf : (⟨S8192x128, .f32⟩ : BufTy).Contents (Elt F) → (⟨S8192x128, .f32⟩ : BufTy).Contents (Elt F) → (⟨S8192x128, .f32⟩ : BufTy).Contents (Elt F)),
    unary main_v4 main_v5 ((transpose S128x8192 [1, 0] · transposes_S8192x128_S128x8192_1_0) : (⟨S8192x128, .f32⟩ : BufTy).Contents (Elt F) → (⟨S128x8192, .f32⟩ : BufTy).Contents (Elt F)),
    binary main_v4 main_v5 main_v6 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    unary main_arg1 main_v7 (broadcastInDim S8192x1 ![0] bcast_S8192_S8192x1_0 : (⟨S8192, .i32⟩ : BufTy).Contents (Elt F) → (⟨S8192x1, .i32⟩ : BufTy).Contents (Elt F)),
    unary main_arg1 main_v8 (broadcastInDim S1x8192 ![1] bcast_S8192_S1x8192_1 : (⟨S8192, .i32⟩ : BufTy).Contents (Elt F) → (⟨S1x8192, .i32⟩ : BufTy).Contents (Elt F)),
    unary main_v7 main_v9 (broadcastInDim S8192x8192 ![0, 1] bcast_S8192x1_S8192x8192_0_1 : (⟨S8192x1, .i32⟩ : BufTy).Contents (Elt F) → (⟨S8192x8192, .i32⟩ : BufTy).Contents (Elt F)),
    unary main_v8 main_v10 (broadcastInDim S8192x8192 ![0, 1] bcast_S1x8192_S8192x8192_0_1 : (⟨S1x8192, .i32⟩ : BufTy).Contents (Elt F) → (⟨S8192x8192, .i32⟩ : BufTy).Contents (Elt F)),
    binary main_v9 main_v10 main_v11 (cmpi .eq : (⟨S8192x8192, .i32⟩ : BufTy).Contents (Elt F) → (⟨S8192x8192, .i32⟩ : BufTy).Contents (Elt F) → (⟨S8192x8192, .i1⟩ : BufTy).Contents (Elt F)),
    nullary main_v12 (iotaInDim S8192x8192 32 0),
    nullary main_v13 (iotaInDim S8192x8192 32 1),
    nullary main_c (constantI S_ 32 0#32),
    unary main_c main_v14 (broadcastInDim S8192x8192 ![] bcast_S_S8192x8192 : (⟨S_, .i32⟩ : BufTy).Contents (Elt F) → (⟨S8192x8192, .i32⟩ : BufTy).Contents (Elt F)),
    binary main_v12 main_v14 main_v15 (addi : (⟨S8192x8192, .i32⟩ : BufTy).Contents (Elt F) → (⟨S8192x8192, .i32⟩ : BufTy).Contents (Elt F) → (⟨S8192x8192, .i32⟩ : BufTy).Contents (Elt F)),
    binary main_v15 main_v13 main_v16 (cmpi .eq : (⟨S8192x8192, .i32⟩ : BufTy).Contents (Elt F) → (⟨S8192x8192, .i32⟩ : BufTy).Contents (Elt F) → (⟨S8192x8192, .i1⟩ : BufTy).Contents (Elt F)),
    unary main_v16 main_v17 (noti : (⟨S8192x8192, .i1⟩ : BufTy).Contents (Elt F) → (⟨S8192x8192, .i1⟩ : BufTy).Contents (Elt F)),
    binary main_v11 main_v17 main_v18 (andi : (⟨S8192x8192, .i1⟩ : BufTy).Contents (Elt F) → (⟨S8192x8192, .i1⟩ : BufTy).Contents (Elt F) → (⟨S8192x8192, .i1⟩ : BufTy).Contents (Elt F)),
    unary main_v11 main_v19 (noti : (⟨S8192x8192, .i1⟩ : BufTy).Contents (Elt F) → (⟨S8192x8192, .i1⟩ : BufTy).Contents (Elt F)),
    nullary main_cst_0 (constant S_ .f32 0x3FB33333#32),
    unary main_cst_0 main_v20 (broadcastInDim S8192x8192 ![] bcast_S_S8192x8192 : (⟨S_, .f32⟩ : BufTy).Contents (Elt F) → (⟨S8192x8192, .f32⟩ : BufTy).Contents (Elt F)),
    binary main_v20 main_v6 main_v21 (subf : (⟨S8192x8192, .f32⟩ : BufTy).Contents (Elt F) → (⟨S8192x8192, .f32⟩ : BufTy).Contents (Elt F) → (⟨S8192x8192, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x8192, .f32⟩) main_call1_v0) (broadcastInDim S8192x8192 ![] bcast_S_S8192x8192),
    TRef.binary (TRef.of (T := ⟨S8192x8192, .f32⟩) main_v21) (TRef.of (T := ⟨S8192x8192, .f32⟩) main_call1_v0) (TRef.of (T := ⟨S8192x8192, .f32⟩) main_v22) maximumf,
    nullary main_cst_1 (constant S_ .f32 0x3ECCCCCD#32),
    unary main_cst_1 main_v23 (broadcastInDim S8192x8192 ![] bcast_S_S8192x8192 : (⟨S_, .f32⟩ : BufTy).Contents (Elt F) → (⟨S8192x8192, .f32⟩ : BufTy).Contents (Elt F)),
    binary main_v6 main_v23 main_v24 (addf : (⟨S8192x8192, .f32⟩ : BufTy).Contents (Elt F) → (⟨S8192x8192, .f32⟩ : BufTy).Contents (Elt F) → (⟨S8192x8192, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8192x8192, .f32⟩) main_call2_v0) (broadcastInDim S8192x8192 ![] bcast_S_S8192x8192),
    TRef.binary (TRef.of (T := ⟨S8192x8192, .f32⟩) main_v24) (TRef.of (T := ⟨S8192x8192, .f32⟩) main_call2_v0) (TRef.of (T := ⟨S8192x8192, .f32⟩) main_v25) maximumf,
    nullary main_cst_2 (constant S_ .f32 0xC2A00000#32),
    unary main_cst_2 main_v26 (broadcastInDim S8192x8192 ![] bcast_S_S8192x8192 : (⟨S_, .f32⟩ : BufTy).Contents (Elt F) → (⟨S8192x8192, .f32⟩ : BufTy).Contents (Elt F)),
    binary main_v26 main_v22 main_v27 (mulf : (⟨S8192x8192, .f32⟩ : BufTy).Contents (Elt F) → (⟨S8192x8192, .f32⟩ : BufTy).Contents (Elt F) → (⟨S8192x8192, .f32⟩ : BufTy).Contents (Elt F)),
    nullary main_cst_3 (constant S_ .f32 0x3F800000#32),
    unary main_cst_3 main_v28 (broadcastInDim S8192x8192 ![] bcast_S_S8192x8192 : (⟨S_, .f32⟩ : BufTy).Contents (Elt F) → (⟨S8192x8192, .f32⟩ : BufTy).Contents (Elt F)),
    binary main_v6 main_v28 main_v29 (subf : (⟨S8192x8192, .f32⟩ : BufTy).Contents (Elt F) → (⟨S8192x8192, .f32⟩ : BufTy).Contents (Elt F) → (⟨S8192x8192, .f32⟩ : BufTy).Contents (Elt F)),
    nullary main_cst_4 (constant S_ .f32 0x3ECCCCCD#32),
    unary main_cst_4 main_v30 (broadcastInDim S8192x8192 ![] bcast_S_S8192x8192 : (⟨S_, .f32⟩ : BufTy).Contents (Elt F) → (⟨S8192x8192, .f32⟩ : BufTy).Contents (Elt F)),
    binary main_v29 main_v30 main_v31 (addf : (⟨S8192x8192, .f32⟩ : BufTy).Contents (Elt F) → (⟨S8192x8192, .f32⟩ : BufTy).Contents (Elt F) → (⟨S8192x8192, .f32⟩ : BufTy).Contents (Elt F)),
    binary main_v27 main_v31 main_v32 (mulf : (⟨S8192x8192, .f32⟩ : BufTy).Contents (Elt F) → (⟨S8192x8192, .f32⟩ : BufTy).Contents (Elt F) → (⟨S8192x8192, .f32⟩ : BufTy).Contents (Elt F)),
    nullary main_cst_5 (constant S_ .f32 0x42A00000#32),
    unary main_cst_5 main_v33 (broadcastInDim S8192x8192 ![] bcast_S_S8192x8192 : (⟨S_, .f32⟩ : BufTy).Contents (Elt F) → (⟨S8192x8192, .f32⟩ : BufTy).Contents (Elt F)),
    binary main_v33 main_v25 main_v34 (mulf : (⟨S8192x8192, .f32⟩ : BufTy).Contents (Elt F) → (⟨S8192x8192, .f32⟩ : BufTy).Contents (Elt F) → (⟨S8192x8192, .f32⟩ : BufTy).Contents (Elt F)),
    nullary main_cst_6 (constant S_ .f32 0x3ECCCCCD#32),
    unary main_cst_6 main_v35 (broadcastInDim S8192x8192 ![] bcast_S_S8192x8192 : (⟨S_, .f32⟩ : BufTy).Contents (Elt F) → (⟨S8192x8192, .f32⟩ : BufTy).Contents (Elt F)),
    binary main_v6 main_v35 main_v36 (subf : (⟨S8192x8192, .f32⟩ : BufTy).Contents (Elt F) → (⟨S8192x8192, .f32⟩ : BufTy).Contents (Elt F) → (⟨S8192x8192, .f32⟩ : BufTy).Contents (Elt F)),
    binary main_v34 main_v36 main_v37 (mulf : (⟨S8192x8192, .f32⟩ : BufTy).Contents (Elt F) → (⟨S8192x8192, .f32⟩ : BufTy).Contents (Elt F) → (⟨S8192x8192, .f32⟩ : BufTy).Contents (Elt F)),
    unary main_v18 main_v38 ((extui 32 · natLt_1_32) : (⟨S8192x8192, .i1⟩ : BufTy).Contents (Elt F) → (⟨S8192x8192, .i32⟩ : BufTy).Contents (Elt F)),
    nullary main_c_7 (constantI S_ 32 0#32),
    binary main_v38 main_c_7 main_v39 ((fun x v => Host.reduce IntOp.addi x v reducesTo_S8192x8192_S8192_d1 h_S_) : (⟨S8192x8192, .i32⟩ : BufTy).Contents (Elt F) → (⟨S_, .i32⟩ : BufTy).Contents (Elt F) → (⟨S8192, .i32⟩ : BufTy).Contents (Elt F)),
    unary main_v19 main_v40 ((extui 32 · natLt_1_32) : (⟨S8192x8192, .i1⟩ : BufTy).Contents (Elt F) → (⟨S8192x8192, .i32⟩ : BufTy).Contents (Elt F)),
    nullary main_c_8 (constantI S_ 32 0#32),
    binary main_v40 main_c_8 main_v41 ((fun x v => Host.reduce IntOp.addi x v reducesTo_S8192x8192_S8192_d1 h_S_) : (⟨S8192x8192, .i32⟩ : BufTy).Contents (Elt F) → (⟨S_, .i32⟩ : BufTy).Contents (Elt F) → (⟨S8192, .i32⟩ : BufTy).Contents (Elt F)),
    nullary main_c_9 (constantI S_ 32 0#32),
    unary main_c_9 main_v42 (broadcastInDim S8192 ![] bcast_S_S8192 : (⟨S_, .i32⟩ : BufTy).Contents (Elt F) → (⟨S8192, .i32⟩ : BufTy).Contents (Elt F)),
    binary main_v39 main_v42 main_v43 (cmpi .sgt : (⟨S8192, .i32⟩ : BufTy).Contents (Elt F) → (⟨S8192, .i32⟩ : BufTy).Contents (Elt F) → (⟨S8192, .i1⟩ : BufTy).Contents (Elt F)),
    nullary main_c_10 (constantI S_ 32 0#32),
    unary main_c_10 main_v44 (broadcastInDim S8192 ![] bcast_S_S8192 : (⟨S_, .i32⟩ : BufTy).Contents (Elt F) → (⟨S8192, .i32⟩ : BufTy).Contents (Elt F)),
    binary main_v41 main_v44 main_v45 (cmpi .sgt : (⟨S8192, .i32⟩ : BufTy).Contents (Elt F) → (⟨S8192, .i32⟩ : BufTy).Contents (Elt F) → (⟨S8192, .i1⟩ : BufTy).Contents (Elt F)),
    binary main_v43 main_v45 main_v46 (andi : (⟨S8192, .i1⟩ : BufTy).Contents (Elt F) → (⟨S8192, .i1⟩ : BufTy).Contents (Elt F) → (⟨S8192, .i1⟩ : BufTy).Contents (Elt F)),
    nullary main_cst_11 (constant S_ .f32 0xF149F2CA#32),
    TRef.unary (TRef.of (T := ⟨S_, .f32⟩) main_cst_11) (TRef.of (T := ⟨S_, .f32⟩) main_call3_v0) id,
    TRef.unary (TRef.of (T := ⟨S_, .f32⟩) main_call3_v0) (TRef.of (T := ⟨S8192x8192, .f32⟩) main_call3_v1) (broadcastInDim S8192x8192 ![] bcast_S_S8192x8192),
    TRef.ternary (TRef.of (T := ⟨S8192x8192, .i1⟩) main_v18) (TRef.of (T := ⟨S8192x8192, .f32⟩) main_v32) (TRef.of (T := ⟨S8192x8192, .f32⟩) main_call3_v1) (TRef.of (T := ⟨S8192x8192, .f32⟩) main_v47) select,
    nullary main_cst_12 (constant S_ .f32 0xFF800000#32),
    binary main_v47 main_cst_12 main_v48 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v48 main_v49 (broadcastInDim S8192x1 ![0] bcast_S8192_S8192x1_0 : (⟨S8192, .f32⟩ : BufTy).Contents (Elt F) → (⟨S8192x1, .f32⟩ : BufTy).Contents (Elt F)),
    reshape main_v49 main_v50 rfl shapeCasts_S8192x1_S8192,
    unary main_v49 main_v51 (broadcastInDim S8192x8192 ![0, 1] bcast_S8192x1_S8192x8192_0_1 : (⟨S8192x1, .f32⟩ : BufTy).Contents (Elt F) → (⟨S8192x8192, .f32⟩ : BufTy).Contents (Elt F)),
    binary main_v47 main_v51 main_v52 (subf : (⟨S8192x8192, .f32⟩ : BufTy).Contents (Elt F) → (⟨S8192x8192, .f32⟩ : BufTy).Contents (Elt F) → (⟨S8192x8192, .f32⟩ : BufTy).Contents (Elt F)),
    unary main_v52 main_v53 (Host.exp : (⟨S8192x8192, .f32⟩ : BufTy).Contents (Elt F) → (⟨S8192x8192, .f32⟩ : BufTy).Contents (Elt F)),
    nullary main_cst_13 (constant S_ .f32 0x00000000#32),
    binary main_v53 main_cst_13 main_v54 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v54 main_v55 (Host.log : (⟨S8192, .f32⟩ : BufTy).Contents (Elt F) → (⟨S8192, .f32⟩ : BufTy).Contents (Elt F)),
    binary main_v50 main_v55 main_v56 (addf : (⟨S8192, .f32⟩ : BufTy).Contents (Elt F) → (⟨S8192, .f32⟩ : BufTy).Contents (Elt F) → (⟨S8192, .f32⟩ : BufTy).Contents (Elt F)),
    nullary main_cst_14 (constant S_ .f32 0xF149F2CA#32),
    TRef.unary (TRef.of (T := ⟨S_, .f32⟩) main_cst_14) (TRef.of (T := ⟨S_, .f32⟩) main_call4_v0) id,
    TRef.unary (TRef.of (T := ⟨S_, .f32⟩) main_call4_v0) (TRef.of (T := ⟨S8192x8192, .f32⟩) main_call4_v1) (broadcastInDim S8192x8192 ![] bcast_S_S8192x8192),
    TRef.ternary (TRef.of (T := ⟨S8192x8192, .i1⟩) main_v19) (TRef.of (T := ⟨S8192x8192, .f32⟩) main_v37) (TRef.of (T := ⟨S8192x8192, .f32⟩) main_call4_v1) (TRef.of (T := ⟨S8192x8192, .f32⟩) main_v57) select,
    nullary main_cst_15 (constant S_ .f32 0xFF800000#32),
    binary main_v57 main_cst_15 main_v58 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v58 main_v59 (broadcastInDim S8192x1 ![0] bcast_S8192_S8192x1_0 : (⟨S8192, .f32⟩ : BufTy).Contents (Elt F) → (⟨S8192x1, .f32⟩ : BufTy).Contents (Elt F)),
    reshape main_v59 main_v60 rfl shapeCasts_S8192x1_S8192,
    unary main_v59 main_v61 (broadcastInDim S8192x8192 ![0, 1] bcast_S8192x1_S8192x8192_0_1 : (⟨S8192x1, .f32⟩ : BufTy).Contents (Elt F) → (⟨S8192x8192, .f32⟩ : BufTy).Contents (Elt F)),
    binary main_v57 main_v61 main_v62 (subf : (⟨S8192x8192, .f32⟩ : BufTy).Contents (Elt F) → (⟨S8192x8192, .f32⟩ : BufTy).Contents (Elt F) → (⟨S8192x8192, .f32⟩ : BufTy).Contents (Elt F)),
    unary main_v62 main_v63 (Host.exp : (⟨S8192x8192, .f32⟩ : BufTy).Contents (Elt F) → (⟨S8192x8192, .f32⟩ : BufTy).Contents (Elt F)),
    nullary main_cst_16 (constant S_ .f32 0x00000000#32),
    binary main_v63 main_cst_16 main_v64 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v64 main_v65 (Host.log : (⟨S8192, .f32⟩ : BufTy).Contents (Elt F) → (⟨S8192, .f32⟩ : BufTy).Contents (Elt F)),
    binary main_v60 main_v65 main_v66 (addf : (⟨S8192, .f32⟩ : BufTy).Contents (Elt F) → (⟨S8192, .f32⟩ : BufTy).Contents (Elt F) → (⟨S8192, .f32⟩ : BufTy).Contents (Elt F)),
    unary main_v39 main_v67 (sitofp .f32 : (⟨S8192, .i32⟩ : BufTy).Contents (Elt F) → (⟨S8192, .f32⟩ : BufTy).Contents (Elt F)),
    unary main_v67 main_v68 (Host.log : (⟨S8192, .f32⟩ : BufTy).Contents (Elt F) → (⟨S8192, .f32⟩ : BufTy).Contents (Elt F)),
    nullary main_cst_17 (constant S_ .f32 0x00000000#32),
    TRef.unary (TRef.of (T := ⟨S_, .f32⟩) main_cst_17) (TRef.of (T := ⟨S_, .f32⟩) main_call5_v0) id,
    TRef.unary (TRef.of (T := ⟨S_, .f32⟩) main_call5_v0) (TRef.of (T := ⟨S8192, .f32⟩) main_call5_v1) (broadcastInDim S8192 ![] bcast_S_S8192),
    TRef.ternary (TRef.of (T := ⟨S8192, .i1⟩) main_v46) (TRef.of (T := ⟨S8192, .f32⟩) main_v68) (TRef.of (T := ⟨S8192, .f32⟩) main_call5_v1) (TRef.of (T := ⟨S8192, .f32⟩) main_v69) select,
    unary main_v41 main_v70 (sitofp .f32 : (⟨S8192, .i32⟩ : BufTy).Contents (Elt F) → (⟨S8192, .f32⟩ : BufTy).Contents (Elt F)),
    unary main_v70 main_v71 (Host.log : (⟨S8192, .f32⟩ : BufTy).Contents (Elt F) → (⟨S8192, .f32⟩ : BufTy).Contents (Elt F)),
    nullary main_cst_18 (constant S_ .f32 0x00000000#32),
    TRef.unary (TRef.of (T := ⟨S_, .f32⟩) main_cst_18) (TRef.of (T := ⟨S_, .f32⟩) main_call6_v0) id,
    TRef.unary (TRef.of (T := ⟨S_, .f32⟩) main_call6_v0) (TRef.of (T := ⟨S8192, .f32⟩) main_call6_v1) (broadcastInDim S8192 ![] bcast_S_S8192),
    TRef.ternary (TRef.of (T := ⟨S8192, .i1⟩) main_v46) (TRef.of (T := ⟨S8192, .f32⟩) main_v71) (TRef.of (T := ⟨S8192, .f32⟩) main_call6_v1) (TRef.of (T := ⟨S8192, .f32⟩) main_v72) select,
    binary main_v56 main_v72 main_v73 (addf : (⟨S8192, .f32⟩ : BufTy).Contents (Elt F) → (⟨S8192, .f32⟩ : BufTy).Contents (Elt F) → (⟨S8192, .f32⟩ : BufTy).Contents (Elt F)),
    binary main_v73 main_v66 main_v74 (addf : (⟨S8192, .f32⟩ : BufTy).Contents (Elt F) → (⟨S8192, .f32⟩ : BufTy).Contents (Elt F) → (⟨S8192, .f32⟩ : BufTy).Contents (Elt F)),
    binary main_v74 main_v69 main_v75 (addf : (⟨S8192, .f32⟩ : BufTy).Contents (Elt F) → (⟨S8192, .f32⟩ : BufTy).Contents (Elt F) → (⟨S8192, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S8192, .f32⟩) main_call7_v0) (broadcastInDim S8192 ![] bcast_S_S8192),
    TRef.binary (TRef.of (T := ⟨S8192, .f32⟩) main_v75) (TRef.of (T := ⟨S8192, .f32⟩) main_call7_v0) (TRef.of (T := ⟨S8192, .f32⟩) main_call7_v1) maximumf,
    TRef.unary (TRef.of (T := ⟨S_, .f32⟩) main_call7_cst) (TRef.of (T := ⟨S8192, .f32⟩) main_call7_v2) (broadcastInDim S8192 ![] bcast_S_S8192),
    TRef.binary (TRef.of (T := ⟨S8192, .f32⟩) main_v75) (TRef.of (T := ⟨S8192, .f32⟩) main_call7_v2) (TRef.of (T := ⟨S8192, .f32⟩) main_call7_v3) subf,
    TRef.binary (TRef.of (T := ⟨S8192, .f32⟩) main_call7_v3) (TRef.of (T := ⟨S8192, .f32⟩) main_call7_v3) (TRef.of (T := ⟨S8192, .i1⟩) main_call7_v4) (cmpf .une),
    TRef.unary (TRef.of (T := ⟨S_, .f32⟩) main_call7_cst) (TRef.of (T := ⟨S8192, .f32⟩) main_call7_v5) (broadcastInDim S8192 ![] bcast_S_S8192),
    TRef.binary (TRef.of (T := ⟨S8192, .f32⟩) main_v75) (TRef.of (T := ⟨S8192, .f32⟩) main_call7_v5) (TRef.of (T := ⟨S8192, .f32⟩) main_call7_v6) addf,
    TRef.unary (TRef.of (T := ⟨S8192, .f32⟩) main_call7_v3) (TRef.of (T := ⟨S8192, .f32⟩) main_call7_v7) Host.absf,
    TRef.unary (TRef.of (T := ⟨S8192, .f32⟩) main_call7_v7) (TRef.of (T := ⟨S8192, .f32⟩) main_call7_v8) Host.negf,
    TRef.unary (TRef.of (T := ⟨S8192, .f32⟩) main_call7_v8) (TRef.of (T := ⟨S8192, .f32⟩) main_call7_v9) Host.exp,
    TRef.unary (TRef.of (T := ⟨S8192, .f32⟩) main_call7_v9) (TRef.of (T := ⟨S8192, .f32⟩) main_call7_v10) Host.log1p,
    TRef.binary (TRef.of (T := ⟨S8192, .f32⟩) main_call7_v1) (TRef.of (T := ⟨S8192, .f32⟩) main_call7_v10) (TRef.of (T := ⟨S8192, .f32⟩) main_call7_v11) addf,
    TRef.ternary (TRef.of (T := ⟨S8192, .i1⟩) main_call7_v4) (TRef.of (T := ⟨S8192, .f32⟩) main_call7_v6) (TRef.of (T := ⟨S8192, .f32⟩) main_call7_v11) (TRef.of (T := ⟨S8192, .f32⟩) main_v76) select,
    nullary main_cst_19 (constant S_ .f32 0x00000000#32),
    TRef.unary (TRef.of (T := ⟨S_, .f32⟩) main_cst_19) (TRef.of (T := ⟨S_, .f32⟩) main_call8_v0) id,
    TRef.unary (TRef.of (T := ⟨S_, .f32⟩) main_call8_v0) (TRef.of (T := ⟨S8192, .f32⟩) main_call8_v1) (broadcastInDim S8192 ![] bcast_S_S8192),
    TRef.ternary (TRef.of (T := ⟨S8192, .i1⟩) main_v46) (TRef.of (T := ⟨S8192, .f32⟩) main_v76) (TRef.of (T := ⟨S8192, .f32⟩) main_call8_v1) (TRef.of (T := ⟨S8192, .f32⟩) main_v77) select,
    nullary main_cst_20 (constant S_ .f32 0x00000000#32),
    binary main_v77 main_cst_20 main_v78 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v46 main_v79 ((extui 32 · natLt_1_32) : (⟨S8192, .i1⟩ : BufTy).Contents (Elt F) → (⟨S8192, .i32⟩ : BufTy).Contents (Elt F)),
    nullary main_c_21 (constantI S_ 32 0#32),
    binary main_v79 main_c_21 main_v80 ((fun x v => Host.reduce IntOp.addi x v reducesTo_S8192_S_d0 h_S_) : (⟨S8192, .i32⟩ : BufTy).Contents (Elt F) → (⟨S_, .i32⟩ : BufTy).Contents (Elt F) → (⟨S_, .i32⟩ : BufTy).Contents (Elt F)),
    unary main_v80 main_v81 (sitofp .f32 : (⟨S_, .i32⟩ : BufTy).Contents (Elt F) → (⟨S_, .f32⟩ : BufTy).Contents (Elt F)),
    nullary main_cst_22 (constant S_ .f32 0x3F800000#32),
    binary main_v81 main_cst_22 main_v82 (maximumf : (⟨S_, .f32⟩ : BufTy).Contents (Elt F) → (⟨S_, .f32⟩ : BufTy).Contents (Elt F) → (⟨S_, .f32⟩ : BufTy).Contents (Elt F)),
    binary main_v78 main_v82 main_v83 (Host.divf : (⟨S_, .f32⟩ : BufTy).Contents (Elt F) → (⟨S_, .f32⟩ : BufTy).Contents (Elt F) → (⟨S_, .f32⟩ : BufTy).Contents (Elt F)) ]

/-- They are the eight stages in a row. -/
theorem ops_eq : (ops (F := F)) = C1 ++ (C2 ++ (C3 ++ (C4 ++ (C5 ++ (C6 ++ (C7 ++ C8)))))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- The contents after two lists of operations in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## Each stage over arbitrary contents -/

/-- One buffer after one stage: the operations' results one by one, then what the stage read by hypothesis. -/
local macro "close_stage" : tactic =>
  `(tactic| (after_results; simp only [*]; try rfl))

/-- The similarity matrix: the normalisation and the product of the normalised array with its transpose. From contents `W` holding what the stage reads, it leaves what it computes and keeps what later stages read. -/
theorem stage1 (W : Valuation τ sig (Elt F)) (x0 : (⟨S8192x128, .f32⟩ : BufTy).Contents (Elt F)) (x1 : (⟨S8192, .i32⟩ : BufTy).Contents (Elt F))
     (h0 : W (Proc.devRef .tc main_arg0) = x0) (h1 : W (Proc.devRef .tc main_arg1) = x1) :
    after (C1 (F := F)) W (Proc.devRef .tc main_v6) = val_main_v6 (F := F) x0
    ∧ after (C1 (F := F)) W (Proc.devRef .tc main_arg0) = x0
    ∧ after (C1 (F := F)) W (Proc.devRef .tc main_arg1) = x1 := by
  refine ⟨?_, ?_, ?_⟩ <;> close_stage

/-- The two masks, from the labels and the row and column numbers. From contents `W` holding what the stage reads, it leaves what it computes and keeps what later stages read. -/
theorem stage2 (W : Valuation τ sig (Elt F)) (x0 : (⟨S8192x128, .f32⟩ : BufTy).Contents (Elt F)) (x1 : (⟨S8192, .i32⟩ : BufTy).Contents (Elt F))
    (h6 : W (Proc.devRef .tc main_v6) = val_main_v6 (F := F) x0) (h0 : W (Proc.devRef .tc main_arg0) = x0) (h1 : W (Proc.devRef .tc main_arg1) = x1) :
    after (C2 (F := F)) W (Proc.devRef .tc main_v18) = val_main_v18 (F := F) x1
    ∧ after (C2 (F := F)) W (Proc.devRef .tc main_v19) = val_main_v19 (F := F) x1
    ∧ after (C2 (F := F)) W (Proc.devRef .tc main_v6) = val_main_v6 (F := F) x0
    ∧ after (C2 (F := F)) W (Proc.devRef .tc main_arg0) = x0
    ∧ after (C2 (F := F)) W (Proc.devRef .tc main_arg1) = x1 := by
  refine ⟨?_, ?_, ?_, ?_, ?_⟩ <;> close_stage

/-- The positive and the negative terms of every similarity. From contents `W` holding what the stage reads, it leaves what it computes and keeps what later stages read. -/
theorem stage3 (W : Valuation τ sig (Elt F)) (x0 : (⟨S8192x128, .f32⟩ : BufTy).Contents (Elt F)) (x1 : (⟨S8192, .i32⟩ : BufTy).Contents (Elt F))
    (h6 : W (Proc.devRef .tc main_v6) = val_main_v6 (F := F) x0) (h18 : W (Proc.devRef .tc main_v18) = val_main_v18 (F := F) x1) (h19 : W (Proc.devRef .tc main_v19) = val_main_v19 (F := F) x1) (h0 : W (Proc.devRef .tc main_arg0) = x0) (h1 : W (Proc.devRef .tc main_arg1) = x1) :
    after (C3 (F := F)) W (Proc.devRef .tc main_v32) = val_main_v32 (F := F) x0
    ∧ after (C3 (F := F)) W (Proc.devRef .tc main_v37) = val_main_v37 (F := F) x0
    ∧ after (C3 (F := F)) W (Proc.devRef .tc main_v18) = val_main_v18 (F := F) x1
    ∧ after (C3 (F := F)) W (Proc.devRef .tc main_v19) = val_main_v19 (F := F) x1
    ∧ after (C3 (F := F)) W (Proc.devRef .tc main_arg0) = x0
    ∧ after (C3 (F := F)) W (Proc.devRef .tc main_arg1) = x1 := by
  refine ⟨?_, ?_, ?_, ?_, ?_, ?_⟩ <;> close_stage

/-- The integer counts of each row's positives and negatives, and the rows' validity. From contents `W` holding what the stage reads, it leaves what it computes and keeps what later stages read. -/
theorem stage4 (W : Valuation τ sig (Elt F)) (x0 : (⟨S8192x128, .f32⟩ : BufTy).Contents (Elt F)) (x1 : (⟨S8192, .i32⟩ : BufTy).Contents (Elt F))
    (h18 : W (Proc.devRef .tc main_v18) = val_main_v18 (F := F) x1) (h19 : W (Proc.devRef .tc main_v19) = val_main_v19 (F := F) x1) (h32 : W (Proc.devRef .tc main_v32) = val_main_v32 (F := F) x0) (h37 : W (Proc.devRef .tc main_v37) = val_main_v37 (F := F) x0) (h0 : W (Proc.devRef .tc main_arg0) = x0) (h1 : W (Proc.devRef .tc main_arg1) = x1) :
    after (C4 (F := F)) W (Proc.devRef .tc main_v39) = val_main_v39 (F := F) x1
    ∧ after (C4 (F := F)) W (Proc.devRef .tc main_v41) = val_main_v41 (F := F) x1
    ∧ after (C4 (F := F)) W (Proc.devRef .tc main_v46) = val_main_v46 (F := F) x1
    ∧ after (C4 (F := F)) W (Proc.devRef .tc main_v18) = val_main_v18 (F := F) x1
    ∧ after (C4 (F := F)) W (Proc.devRef .tc main_v19) = val_main_v19 (F := F) x1
    ∧ after (C4 (F := F)) W (Proc.devRef .tc main_v32) = val_main_v32 (F := F) x0
    ∧ after (C4 (F := F)) W (Proc.devRef .tc main_v37) = val_main_v37 (F := F) x0
    ∧ after (C4 (F := F)) W (Proc.devRef .tc main_arg0) = x0
    ∧ after (C4 (F := F)) W (Proc.devRef .tc main_arg1) = x1 := by
  refine ⟨?_, ?_, ?_, ?_, ?_, ?_, ?_, ?_, ?_⟩ <;> close_stage

/-- The positives' masked log-sum-exp of every row. From contents `W` holding what the stage reads, it leaves what it computes and keeps what later stages read. -/
theorem stage5 (W : Valuation τ sig (Elt F)) (x0 : (⟨S8192x128, .f32⟩ : BufTy).Contents (Elt F)) (x1 : (⟨S8192, .i32⟩ : BufTy).Contents (Elt F))
    (h18 : W (Proc.devRef .tc main_v18) = val_main_v18 (F := F) x1) (h19 : W (Proc.devRef .tc main_v19) = val_main_v19 (F := F) x1) (h32 : W (Proc.devRef .tc main_v32) = val_main_v32 (F := F) x0) (h37 : W (Proc.devRef .tc main_v37) = val_main_v37 (F := F) x0) (h39 : W (Proc.devRef .tc main_v39) = val_main_v39 (F := F) x1) (h41 : W (Proc.devRef .tc main_v41) = val_main_v41 (F := F) x1) (h46 : W (Proc.devRef .tc main_v46) = val_main_v46 (F := F) x1) (h0 : W (Proc.devRef .tc main_arg0) = x0) (h1 : W (Proc.devRef .tc main_arg1) = x1) :
    after (C5 (F := F)) W (Proc.devRef .tc main_v56) = val_main_v56 (F := F) x0 x1
    ∧ after (C5 (F := F)) W (Proc.devRef .tc main_v19) = val_main_v19 (F := F) x1
    ∧ after (C5 (F := F)) W (Proc.devRef .tc main_v37) = val_main_v37 (F := F) x0
    ∧ after (C5 (F := F)) W (Proc.devRef .tc main_v39) = val_main_v39 (F := F) x1
    ∧ after (C5 (F := F)) W (Proc.devRef .tc main_v41) = val_main_v41 (F := F) x1
    ∧ after (C5 (F := F)) W (Proc.devRef .tc main_v46) = val_main_v46 (F := F) x1
    ∧ after (C5 (F := F)) W (Proc.devRef .tc main_arg0) = x0
    ∧ after (C5 (F := F)) W (Proc.devRef .tc main_arg1) = x1 := by
  refine ⟨?_, ?_, ?_, ?_, ?_, ?_, ?_, ?_⟩ <;> close_stage

/-- The negatives' masked log-sum-exp of every row. From contents `W` holding what the stage reads, it leaves what it computes and keeps what later stages read. -/
theorem stage6 (W : Valuation τ sig (Elt F)) (x0 : (⟨S8192x128, .f32⟩ : BufTy).Contents (Elt F)) (x1 : (⟨S8192, .i32⟩ : BufTy).Contents (Elt F))
    (h19 : W (Proc.devRef .tc main_v19) = val_main_v19 (F := F) x1) (h37 : W (Proc.devRef .tc main_v37) = val_main_v37 (F := F) x0) (h39 : W (Proc.devRef .tc main_v39) = val_main_v39 (F := F) x1) (h41 : W (Proc.devRef .tc main_v41) = val_main_v41 (F := F) x1) (h46 : W (Proc.devRef .tc main_v46) = val_main_v46 (F := F) x1) (h56 : W (Proc.devRef .tc main_v56) = val_main_v56 (F := F) x0 x1) (h0 : W (Proc.devRef .tc main_arg0) = x0) (h1 : W (Proc.devRef .tc main_arg1) = x1) :
    after (C6 (F := F)) W (Proc.devRef .tc main_v66) = val_main_v66 (F := F) x0 x1
    ∧ after (C6 (F := F)) W (Proc.devRef .tc main_v39) = val_main_v39 (F := F) x1
    ∧ after (C6 (F := F)) W (Proc.devRef .tc main_v41) = val_main_v41 (F := F) x1
    ∧ after (C6 (F := F)) W (Proc.devRef .tc main_v46) = val_main_v46 (F := F) x1
    ∧ after (C6 (F := F)) W (Proc.devRef .tc main_v56) = val_main_v56 (F := F) x0 x1
    ∧ after (C6 (F := F)) W (Proc.devRef .tc main_arg0) = x0
    ∧ after (C6 (F := F)) W (Proc.devRef .tc main_arg1) = x1 := by
  refine ⟨?_, ?_, ?_, ?_, ?_, ?_, ?_⟩ <;> close_stage

/-- The logarithms of the two counts and the sum that enters the softplus. From contents `W` holding what the stage reads, it leaves what it computes and keeps what later stages read. -/
theorem stage7 (W : Valuation τ sig (Elt F)) (x0 : (⟨S8192x128, .f32⟩ : BufTy).Contents (Elt F)) (x1 : (⟨S8192, .i32⟩ : BufTy).Contents (Elt F))
    (h39 : W (Proc.devRef .tc main_v39) = val_main_v39 (F := F) x1) (h41 : W (Proc.devRef .tc main_v41) = val_main_v41 (F := F) x1) (h46 : W (Proc.devRef .tc main_v46) = val_main_v46 (F := F) x1) (h56 : W (Proc.devRef .tc main_v56) = val_main_v56 (F := F) x0 x1) (h66 : W (Proc.devRef .tc main_v66) = val_main_v66 (F := F) x0 x1) (h0 : W (Proc.devRef .tc main_arg0) = x0) (h1 : W (Proc.devRef .tc main_arg1) = x1) :
    after (C7 (F := F)) W (Proc.devRef .tc main_v75) = val_main_v75 (F := F) x0 x1
    ∧ after (C7 (F := F)) W (Proc.devRef .tc main_v46) = val_main_v46 (F := F) x1
    ∧ after (C7 (F := F)) W (Proc.devRef .tc main_arg0) = x0
    ∧ after (C7 (F := F)) W (Proc.devRef .tc main_arg1) = x1 := by
  refine ⟨?_, ?_, ?_, ?_⟩ <;> close_stage

/-- The softplus, the mask by validity, the two sums and the quotient. From contents `W` holding what the stage reads, it leaves what it computes and keeps what later stages read. -/
theorem stage8 (W : Valuation τ sig (Elt F)) (x0 : (⟨S8192x128, .f32⟩ : BufTy).Contents (Elt F)) (x1 : (⟨S8192, .i32⟩ : BufTy).Contents (Elt F))
    (h46 : W (Proc.devRef .tc main_v46) = val_main_v46 (F := F) x1) (h75 : W (Proc.devRef .tc main_v75) = val_main_v75 (F := F) x0 x1) (h0 : W (Proc.devRef .tc main_arg0) = x0) (h1 : W (Proc.devRef .tc main_arg1) = x1) :
    after (C8 (F := F)) W (Proc.devRef .tc main_v83) = val_main_v83 (F := F) x0 x1
    ∧ after (C8 (F := F)) W (Proc.devRef .tc main_arg0) = x0
    ∧ after (C8 (F := F)) W (Proc.devRef .tc main_arg1) = x1 := by
  refine ⟨?_, ?_, ?_⟩ <;> close_stage

/-! ## The composition -/

/-- After all 140 operations, from contents `V` with the arguments `x0`, `x1`: the result buffer holds the last stage
    function of the arguments, and the arguments are kept. -/
theorem after_ops (V : Valuation τ sig (Elt F)) (x0 : (⟨S8192x128, .f32⟩ : BufTy).Contents (Elt F)) (x1 : (⟨S8192, .i32⟩ : BufTy).Contents (Elt F))
    (h0 : V (Proc.devRef .tc main_arg0) = x0) (h1 : V (Proc.devRef .tc main_arg1) = x1) :
    after (ops (F := F)) V (Proc.devRef .tc main_v83) = val_main_v83 (F := F) x0 x1
    ∧ after (ops (F := F)) V (Proc.devRef .tc main_arg0) = x0
    ∧ after (ops (F := F)) V (Proc.devRef .tc main_arg1) = x1 := by
  rw [ops_eq]
  simp only [after_app]
  obtain ⟨s1_v6, s1_arg0, s1_arg1⟩ := stage1 V x0 x1 h0 h1
  generalize after (C1 (F := F)) V = W1 at s1_v6 s1_arg0 s1_arg1 ⊢
  obtain ⟨s2_v18, s2_v19, s2_v6, s2_arg0, s2_arg1⟩ := stage2 W1 x0 x1 s1_v6 s1_arg0 s1_arg1
  generalize after (C2 (F := F)) W1 = W2 at s2_v18 s2_v19 s2_v6 s2_arg0 s2_arg1 ⊢
  obtain ⟨s3_v32, s3_v37, s3_v18, s3_v19, s3_arg0, s3_arg1⟩ := stage3 W2 x0 x1 s2_v6 s2_v18 s2_v19 s2_arg0 s2_arg1
  generalize after (C3 (F := F)) W2 = W3 at s3_v32 s3_v37 s3_v18 s3_v19 s3_arg0 s3_arg1 ⊢
  obtain ⟨s4_v39, s4_v41, s4_v46, s4_v18, s4_v19, s4_v32, s4_v37, s4_arg0, s4_arg1⟩ := stage4 W3 x0 x1 s3_v18 s3_v19 s3_v32 s3_v37 s3_arg0 s3_arg1
  generalize after (C4 (F := F)) W3 = W4 at s4_v39 s4_v41 s4_v46 s4_v18 s4_v19 s4_v32 s4_v37 s4_arg0 s4_arg1 ⊢
  obtain ⟨s5_v56, s5_v19, s5_v37, s5_v39, s5_v41, s5_v46, s5_arg0, s5_arg1⟩ := stage5 W4 x0 x1 s4_v18 s4_v19 s4_v32 s4_v37 s4_v39 s4_v41 s4_v46 s4_arg0 s4_arg1
  generalize after (C5 (F := F)) W4 = W5 at s5_v56 s5_v19 s5_v37 s5_v39 s5_v41 s5_v46 s5_arg0 s5_arg1 ⊢
  obtain ⟨s6_v66, s6_v39, s6_v41, s6_v46, s6_v56, s6_arg0, s6_arg1⟩ := stage6 W5 x0 x1 s5_v19 s5_v37 s5_v39 s5_v41 s5_v46 s5_v56 s5_arg0 s5_arg1
  generalize after (C6 (F := F)) W5 = W6 at s6_v66 s6_v39 s6_v41 s6_v46 s6_v56 s6_arg0 s6_arg1 ⊢
  obtain ⟨s7_v75, s7_v46, s7_arg0, s7_arg1⟩ := stage7 W6 x0 x1 s6_v39 s6_v41 s6_v46 s6_v56 s6_v66 s6_arg0 s6_arg1
  generalize after (C7 (F := F)) W6 = W7 at s7_v75 s7_v46 s7_arg0 s7_arg1 ⊢
  exact stage8 W7 x0 x1 s7_v46 s7_v75 s7_arg0 s7_arg1

/-! ## The run -/

set_option maxRecDepth 8192 in
/-- Each operation's buffers are TensorCore references. -/
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., unary_bufs_sub .., unary_bufs_sub .., unary_bufs_sub .., unary_bufs_sub .., binary_bufs_sub .., nullary_bufs_sub .., nullary_bufs_sub .., nullary_bufs_sub .., unary_bufs_sub .., binary_bufs_sub .., binary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., unary_bufs_sub .., nullary_bufs_sub .., binary_bufs_sub .., unary_bufs_sub .., nullary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., nullary_bufs_sub .., binary_bufs_sub .., unary_bufs_sub .., binary_bufs_sub .., nullary_bufs_sub .., unary_bufs_sub .., unary_bufs_sub .., ternary_bufs_sub .., nullary_bufs_sub .., binary_bufs_sub .., unary_bufs_sub .., reshape_bufs_sub .., unary_bufs_sub .., binary_bufs_sub .., unary_bufs_sub .., nullary_bufs_sub .., binary_bufs_sub .., unary_bufs_sub .., binary_bufs_sub .., unary_bufs_sub .., unary_bufs_sub .., nullary_bufs_sub .., unary_bufs_sub .., unary_bufs_sub .., ternary_bufs_sub .., unary_bufs_sub .., unary_bufs_sub .., nullary_bufs_sub .., unary_bufs_sub .., unary_bufs_sub .., ternary_bufs_sub .., binary_bufs_sub .., binary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., unary_bufs_sub .., ternary_bufs_sub .., nullary_bufs_sub .., binary_bufs_sub .., unary_bufs_sub .., nullary_bufs_sub .., binary_bufs_sub .., unary_bufs_sub .., nullary_bufs_sub .., binary_bufs_sub .., binary_bufs_sub ..⟩

set_option maxRecDepth 8192 in
/-- THE RUN: on every device, for any float values, from any memory with zero counters, every weakly fair execution of
    @main terminates with the result at the last stage function of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83)
        = val_main_v83 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    have a := after_ops (F := F) (launchContents m c) (m ((c.tc : Thread nD τ).loc main_arg0)) (m ((c.tc : Thread nD τ).loc main_arg1)) rfl rfl
    ⟨(h c main_v83).trans a.1, (h c main_arg0).trans a.2.1, (h c main_arg1).trans a.2.2⟩)
    (run_seq scopedRefs_eq scopedSems_eq defs main (fun _ => ops) main_eq (fun _ => ops_sub) m ρ)

end Cert.ReferenceIdeal.RefRun

end
-- ==== Proof.Spec.lean ====
/-
  The circle loss of a batch of 8192 unit-normalised embeddings, as both programs compute it, written once over
  plain functions of the extended reals.

  For rows `r`, `j` the similarity is the inner product `sim r j = ∑ k, e r k * e j k`. Row `j` is a POSITIVE of
  row `r` when the two carry the same label and `j ≠ r` (`posM`), a NEGATIVE when the labels differ (`negM`); the
  masks are one-bit words, as both programs hold them. Each row's loss is

      softplus (LSE over positives of apTerm (sim r j) + log #negatives + LSE over negatives of anTerm (sim r j) + log #positives)

  when the row has at least one positive and one negative, else `0`; a masked-out entry enters its log-sum-exp as
  the finite fill `-1e30`, and the log-sum-exp is taken stably, `m + log (∑ exp (t - m))` with `m` the row maximum.
  The result is the sum of the rows' losses over `max (number of valid rows) 1`.

  The two programs differ only in how they count: one sums the 0/1 indicators as floats and tests `count > 0` on the
  float (the forms suffixed `K`), the other sums them as 32-bit integers, tests the integer and converts it (the forms
  suffixed `R`); one guards the logarithm of a count by `max · 1`, the other does not; a host sum starts from its
  initial value `0`; and `-|y|` is spelt `0 - |y|` by one and as a negation by the other. `Bridge.lean` proves the two
  forms equal.
-/
import Idealize.ShloMosaic.PureOps.Ideal
import Idealize.ShloMosaic.PureOps.Ideal.Laws

noncomputable section

namespace Cert.CircleLoss

open Idealize.ShloMosaic

/-- The extended real an f32 bit pattern denotes. -/
abbrev lit (b : BitVec 32) : EReal := Ideal.ofBits .f32 b

/-! ## Similarities and masks -/

/-- The inner product of rows `r` and `j`. -/
def sim (e : Fin 8192 → Fin 128 → EReal) (r j : Fin 8192) : EReal := ∑ k : Fin 128, e r k * e j k

/-- `j` is a positive of `r`: same label, and not `r` itself (the row and column numbers compared as 32-bit words). -/
def posM (lab : Fin 8192 → BitVec 32) (r j : Fin 8192) : BitVec 1 :=
  IntOp.andi (IntOp.cmpi .eq (lab r) (lab j))
    (IntOp.xori (IntOp.cmpi .eq (BitVec.ofNat 32 r.val) (BitVec.ofNat 32 j.val)) 1#1)

/-- `j` is a negative of `r`: the labels differ. -/
def negM (lab : Fin 8192 → BitVec 32) (r j : Fin 8192) : BitVec 1 :=
  IntOp.xori (IntOp.cmpi .eq (lab r) (lab j)) 1#1

/-! ## One row -/

/-- The positive term of a similarity `s`: `-80 · max (1.4 - s) 0 · ((s - 1) + 0.4)`. -/
def apTerm (s : EReal) : EReal :=
  (lit 0xC2A00000#32 * max (lit 0x3FB33333#32 - s) (lit 0x00000000#32)) * ((s - lit 0x3F800000#32) + lit 0x3ECCCCCD#32)

/-- The negative term: `80 · max (s + 0.4) 0 · (s - 0.4)`. -/
def anTerm (s : EReal) : EReal :=
  (lit 0x42A00000#32 * max (s + lit 0x3ECCCCCD#32) (lit 0x00000000#32)) * (s - lit 0x3ECCCCCD#32)

/-- A row of terms with the masked-out entries replaced by the fill `-1e30`. -/
def masked (m : Fin 8192 → BitVec 1) (f : Fin 8192 → EReal) (j : Fin 8192) : EReal :=
  Scalar.select (m j) (f j) (lit 0xF149F2CA#32)

/-- A row's maximum, folded from `-∞`. -/
def rowMax (f : Fin 8192 → EReal) : EReal := Finset.univ.fold max (lit 0xFF800000#32) f

/-- The stable log-sum-exp of a row, the sum taken bare … -/
def lseK (f : Fin 8192 → EReal) : EReal := rowMax f + Ideal.log (∑ j : Fin 8192, Ideal.exp (f j - rowMax f))
/-- … or from the initial value `0`. -/
def lseR (f : Fin 8192 → EReal) : EReal :=
  rowMax f + Ideal.log (lit 0x00000000#32 + ∑ j : Fin 8192, Ideal.exp (f j - rowMax f))

/-- A one-bit word as the float `0` or `1`: widened to 32 bits and converted. -/
def one01 (b : BitVec 1) : EReal := (((b.setWidth 32).toInt : ℝ) : EReal)

/-- The number of ones of a mask row, counted in floats … -/
def cntK (m : Fin 8192 → BitVec 1) : EReal := ∑ j : Fin 8192, one01 (m j)
/-- … or in 32-bit integers. -/
def cntR (m : Fin 8192 → BitVec 1) : BitVec 32 := Finset.univ.fold IntOp.addi 0#32 (fun j => (m j).setWidth 32)

/-- The row has a positive and a negative: tested on the float counts … -/
def validK (pm nm : Fin 8192 → BitVec 1) : BitVec 1 :=
  IntOp.andi (Ideal.cmp .ogt (cntK pm) (lit 0x00000000#32)) (Ideal.cmp .ogt (cntK nm) (lit 0x00000000#32))
/-- … or on the integer counts. -/
def validR (pm nm : Fin 8192 → BitVec 1) : BitVec 1 :=
  IntOp.andi (IntOp.cmpi .sgt (cntR pm) 0#32) (IntOp.cmpi .sgt (cntR nm) 0#32)

/-- `log (1 + exp x)` as `logaddexp x 0` spells it: `max x 0 + log1p (exp (-|x - 0|))` (behind a guard `x - 0 ≠ x - 0`
    that never fires on the extended reals), with `-|y|` written `0 - |y|` … -/
def softplusK (x : EReal) : EReal :=
  Scalar.select (Ideal.cmp .one (x - lit 0x00000000#32) (x - lit 0x00000000#32)) (x + lit 0x00000000#32)
    (max x (lit 0x00000000#32)
      + Ideal.log1p (Ideal.exp (lit 0x00000000#32 - max (x - lit 0x00000000#32) (-(x - lit 0x00000000#32)))))
/-- … or as a negation. -/
def softplusR (x : EReal) : EReal :=
  Scalar.select (Ideal.cmp .une (x - lit 0x00000000#32) (x - lit 0x00000000#32)) (x + lit 0x00000000#32)
    (max x (lit 0x00000000#32)
      + Ideal.log1p (Ideal.exp (-(max (x - lit 0x00000000#32) (-(x - lit 0x00000000#32))))))

/-- A row's loss from its similarities `s` and its two mask rows, counting in floats and guarding each `log` of a count
    by `max · 1` … -/
def lossK (s : Fin 8192 → EReal) (pm nm : Fin 8192 → BitVec 1) : EReal :=
  Scalar.select (validK pm nm)
    (softplusK (((lseK (masked pm fun j => apTerm (s j))
        + Scalar.select (validK pm nm) (Ideal.log (max (cntK nm) (lit 0x3F800000#32))) (lit 0x00000000#32))
      + lseK (masked nm fun j => anTerm (s j)))
      + Scalar.select (validK pm nm) (Ideal.log (max (cntK pm) (lit 0x3F800000#32))) (lit 0x00000000#32)))
    (lit 0x00000000#32)
/-- … or counting in integers. -/
def lossR (s : Fin 8192 → EReal) (pm nm : Fin 8192 → BitVec 1) : EReal :=
  Scalar.select (validR pm nm)
    (softplusR (((lseR (masked pm fun j => apTerm (s j))
        + Scalar.select (validR pm nm) (Ideal.log ((((cntR nm).toInt : ℝ) : EReal))) (lit 0x00000000#32))
      + lseR (masked nm fun j => anTerm (s j)))
      + Scalar.select (validR pm nm) (Ideal.log ((((cntR pm).toInt : ℝ) : EReal))) (lit 0x00000000#32)))
    (lit 0x00000000#32)

/-! ## The batch -/

/-- The mean loss over the valid rows, everything counted in floats … -/
def resultK (e : Fin 8192 → Fin 128 → EReal) (lab : Fin 8192 → BitVec 32) : EReal :=
  Ideal.div (lit 0x00000000#32 + ∑ r : Fin 8192, lossK (sim e r) (posM lab r) (negM lab r))
    (max (lit 0x00000000#32 + ∑ r : Fin 8192, one01 (validK (posM lab r) (negM lab r))) (lit 0x3F800000#32))
/-- … or the valid rows counted in integers. -/
def resultR (e : Fin 8192 → Fin 128 → EReal) (lab : Fin 8192 → BitVec 32) : EReal :=
  Ideal.div (lit 0x00000000#32 + ∑ r : Fin 8192, lossR (sim e r) (posM lab r) (negM lab r))
    (max ((((Finset.univ.fold IntOp.addi 0#32 (fun r : Fin 8192 => (validR (posM lab r) (negM lab r)).setWidth 32)).toInt : ℝ) : EReal))
      (lit 0x3F800000#32))

end Cert.CircleLoss

end
-- ==== Proof.Bridge.lean ====
/-
  The two ways of counting agree, so the two forms of the circle loss are the same extended real.

  A mask row is a family of one-bit words. Summing its 0/1 indicators as extended reals gives the real number
  `c` of ones; folding them as 32-bit integers gives the word `c`, whose signed value is `c` again because
  `c ≤ 8192 < 2^31`. Hence the float test `count > 0` and the integer test agree, the guard `max · 1` is idle wherever
  the count is positive, a sum started from `0` is the bare sum, and `0 - y = -y`.
-/
import proofs.«151346_j80951543595535_1_alg».proof.Proof.Spec
import Idealize.ShloMosaic.Lib.IndicatorCount

noncomputable section

namespace Cert.CircleLoss

open Idealize.ShloMosaic

/-! ## The two literals -/

/-- The all-zero pattern denotes `0`. -/
theorem lit_zero : lit 0x00000000#32 = 0 := Ideal.ofBits_zero_f32

/-- The pattern `0x3F800000` (sign 0, exponent 127, fraction 0) denotes `2^23 · 2^(127-127-23) = 1`. -/
theorem lit_one : lit 0x3F800000#32 = 1 := by
  simp [lit, Ideal.ofBits, Ideal.ieee, -EReal.coe_mul]; norm_num

/-! ## Log-sum-exp and softplus -/

/-- A sum started from `0` is the bare sum, so the two log-sum-exps coincide. -/
theorem lseK_eq_lseR (f : Fin 8192 → EReal) : lseK f = lseR f := by
  unfold lseK lseR
  rw [lit_zero, zero_add]

/-- `0 - y = -y`, and "ordered and unequal" is "unordered or unequal" on a linear order, so the two softplus
    spellings coincide. -/
theorem softplusK_eq_softplusR (x : EReal) : softplusK x = softplusR x := by
  unfold softplusK softplusR
  rw [lit_zero, zero_sub]
  rfl

/-! ## Counting the ones of a mask -/

/-- The number of ones of a mask row. -/
def ones (m : Fin 8192 → BitVec 1) : ℕ := (Finset.univ.filter fun j => m j = 1#1).card

/-- A row has at most `8192` ones. -/
theorem ones_le (m : Fin 8192 → BitVec 1) : ones m ≤ 8192 := by
  unfold ones
  calc (Finset.univ.filter fun j => m j = 1#1).card ≤ (Finset.univ : Finset (Fin 8192)).card := Finset.card_filter_le _ _
    _ = 8192 := by simp

/-- The one-bit word `0` is the float `0`. -/
theorem one01_zero : one01 0#1 = 0 := by
  simp [one01]

/-- The one-bit word `1` is the float `1`. -/
theorem one01_one : one01 1#1 = 1 := by
  simp [one01]

/-- The sum over a finite set of the 0/1 indicators of one-bit words is the number of ones among them. -/
theorem sum_one01_eq_card {ι : Type} (m : ι → BitVec 1) (S : Finset ι) :
    ∑ j ∈ S, one01 (m j) = (((S.filter fun j => m j = 1#1).card : ℝ) : EReal) := by
  classical
  induction S using Finset.induction_on with
  | empty => simp
  | insert a S ha ih =>
    rw [Finset.sum_insert ha, ih, Finset.filter_insert]
    rcases BitVec.eq_zero_or_eq_one (m a) with h | h
    · have hne : ¬ m a = 1#1 := by rw [h]; decide
      rw [if_neg hne, h, one01_zero, zero_add]
    · rw [if_pos h, Finset.card_insert_of_notMem (fun hm => ha (Finset.mem_filter.1 hm).1), h, one01_one]
      push_cast
      rw [add_comm]

/-- Counted in floats, a mask row's count is its number of ones. -/
theorem cntK_eq (m : Fin 8192 → BitVec 1) : cntK m = ((ones m : ℝ) : EReal) := by
  unfold cntK ones
  exact sum_one01_eq_card m Finset.univ

/-- Counted in 32-bit integers, a mask row's count is the word of its number of ones. -/
theorem cntR_eq (m : Fin 8192 → BitVec 1) : cntR m = BitVec.ofNat 32 (ones m) := by
  unfold cntR ones
  exact IndicatorCount.fold_addi_setWidth_eq_card m Finset.univ

/-- The signed value of that word is the number of ones itself, because `8192 < 2^31`. -/
theorem cntR_toInt (m : Fin 8192 → BitVec 1) : (cntR m).toInt = (ones m : ℤ) := by
  have hle := ones_le m
  rw [cntR_eq, BitVec.toInt_eq_toNat_of_lt, BitVec.toNat_ofNat]
  · have : ones m % 2 ^ 32 = ones m := Nat.mod_eq_of_lt (by omega)
    rw [this]
  · rw [BitVec.toNat_ofNat]
    have : ones m % 2 ^ 32 = ones m := Nat.mod_eq_of_lt (by omega)
    rw [this]; omega

/-- The float count is the integer count converted. -/
theorem cntK_eq_cntR (m : Fin 8192 → BitVec 1) : cntK m = ((((cntR m).toInt : ℝ)) : EReal) := by
  rw [cntK_eq, cntR_toInt, Int.cast_natCast]

/-! ## The validity tests -/

/-- The float test `count > 0` says the row has a one. -/
theorem cmp_cntK (m : Fin 8192 → BitVec 1) :
    Ideal.cmp .ogt (cntK m) (lit 0x00000000#32) = BitVec.ofBool (decide (0 < ones m)) := by
  rw [cntK_eq, lit_zero]
  show BitVec.ofBool (decide ((0 : EReal) < ((ones m : ℝ) : EReal))) = _
  congr 1
  rw [decide_eq_decide, EReal.coe_pos, Nat.cast_pos]

/-- The integer test `count > 0` says the same. -/
theorem cmp_cntR (m : Fin 8192 → BitVec 1) :
    IntOp.cmpi .sgt (cntR m) 0#32 = BitVec.ofBool (decide (0 < ones m)) := by
  have h : (0#32).slt (cntR m) = decide (0 < ones m) := by
    rw [BitVec.slt, cntR_toInt]
    simp
  show BitVec.ofBool ((0#32).slt (cntR m)) = _
  rw [h]

/-- The two validity tests agree. -/
theorem validK_eq_validR (pm nm : Fin 8192 → BitVec 1) : validK pm nm = validR pm nm := by
  unfold validK validR
  rw [cmp_cntK, cmp_cntK, cmp_cntR, cmp_cntR]

/-- A valid row has a positive and a negative. -/
theorem pos_of_validR (pm nm : Fin 8192 → BitVec 1) (h : validR pm nm = 1) : 0 < ones pm ∧ 0 < ones nm := by
  unfold validR at h
  rw [cmp_cntR, cmp_cntR] at h
  by_cases hp : 0 < ones pm <;> by_cases hn : 0 < ones nm <;> simp [hp, hn, IntOp.andi] at h ⊢

/-- Where the count is positive the guard `max · 1` is idle, and the guarded float count is the converted integer count. -/
theorem max_cntK (m : Fin 8192 → BitVec 1) (h : 0 < ones m) :
    max (cntK m) (lit 0x3F800000#32) = ((((cntR m).toInt : ℝ)) : EReal) := by
  rw [← cntK_eq_cntR, lit_one, cntK_eq]
  apply max_eq_left
  have : (1 : ℝ) ≤ (ones m : ℝ) := by exact_mod_cast h
  exact_mod_cast this

/-! ## One row, and the batch -/

/-- A select whose taken branch is the same either way. -/
theorem select_congr {α : Type} (c : BitVec 1) (a a' b : α) (h : c = 1 → a = a') :
    Scalar.select c a b = Scalar.select c a' b := by
  unfold Scalar.select
  by_cases hc : c = 1
  · rw [if_pos hc, if_pos hc, h hc]
  · rw [if_neg hc, if_neg hc]

/-- The two forms of a row's loss are equal. -/
theorem lossK_eq_lossR (s : Fin 8192 → EReal) (pm nm : Fin 8192 → BitVec 1) : lossK s pm nm = lossR s pm nm := by
  unfold lossK lossR
  rw [validK_eq_validR]
  apply select_congr
  intro hv
  obtain ⟨hp, hn⟩ := pos_of_validR pm nm hv
  rw [softplusK_eq_softplusR, lseK_eq_lseR, lseK_eq_lseR, max_cntK nm hn, max_cntK pm hp]

/-- The two forms of the batch result are equal. -/
theorem resultK_eq_resultR (e : Fin 8192 → Fin 128 → EReal) (lab : Fin 8192 → BitVec 32) :
    resultK e lab = resultR e lab := by
  unfold resultK resultR
  have hnum : (∑ r : Fin 8192, lossK (sim e r) (posM lab r) (negM lab r))
      = ∑ r : Fin 8192, lossR (sim e r) (posM lab r) (negM lab r) :=
    Finset.sum_congr rfl (fun r _ => lossK_eq_lossR _ _ _)
  have hden : (lit 0x00000000#32 + ∑ r : Fin 8192, one01 (validK (posM lab r) (negM lab r)))
      = ((((Finset.univ.fold IntOp.addi 0#32
          (fun r : Fin 8192 => (validR (posM lab r) (negM lab r)).setWidth 32)).toInt : ℝ)) : EReal) := by
    rw [lit_zero, zero_add]
    have := cntK_eq_cntR (fun r => validR (posM lab r) (negM lab r))
    simp only [validK_eq_validR]
    exact this
  rw [hnum, hden]

end Cert.CircleLoss

end
-- ==== Proof.KLayout.lean ====
/-
  Layout operations of the kernel's body read at an index, at the literal shapes the body uses: a column vector
  [64] viewed as [64, 1]; a column [64, 1] or a row [1, 8192] spread over a [64, 8192] tile; a lane reduction of
  a [64, 8192] tile (a sum, a maximum) read at a row; the tile product read at an entry.
-/
import Idealize.ShloMosaic.Lib.Pipeline.Value
import Idealize.ShloMosaic.Lib.ValueIdx
import Idealize.ShloMosaic.Lib.ValueLayout
import Idealize.ShloMosaic.PureOps.Ideal.Laws

noncomputable section

namespace Cert.CircleLoss.Layout

open Idealize.ShloMosaic Idealize.ShloMosaic.ValueIdx

variable {α : Type}

/-- A vector [a] viewed as a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column [a, 1] spread over [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a [64, 8192] tile over row `p` with lane `k` inserted is (p, k). -/
theorem lift_row (h : (⟨2, ![64, 8192]⟩ : Shape).Reduces [1] ⟨1, ![64]⟩) (p : Fin 64) (k : Fin 8192) :
    h.lift (ix1 p) k = ix2 p k :=
  funext fun c => Fin.ext (by
    match c with
    | ⟨0, _⟩ => rfl
    | ⟨1, _⟩ => rfl)

/-- A lane sum of a [64, 8192] tile, read at row `p`, is the sum of the row. -/
theorem laneSum_apply (src : FVec Ideal ⟨2, ![64, 8192]⟩ .f32) (h : (⟨2, ![64, 8192]⟩ : Shape).Reduces [1] ⟨1, ![64]⟩)
    (hφ : FKind.Formats .f32) (hacc : (0x00000000#32 : BitVec 32) = 0x00000000#32) (p : Fin 64) :
    multiReduction .add [1] ⟨1, ![64]⟩ src 0x00000000#32 h hφ hacc (ix1 p) = ∑ k : Fin 8192, src (ix2 p k) :=
  (Ideal.multiReduction_add_single src 0x00000000#32 h hφ hacc (ix1 p)).trans
    (Finset.sum_congr rfl fun k _ => congrArg src (lift_row h p k))

/-- A lane maximum of a [64, 8192] tile, read at row `p`, is the fold of `max` over the row from `-∞`. -/
theorem laneMax_apply (src : FVec Ideal ⟨2, ![64, 8192]⟩ .f32) (h : (⟨2, ![64, 8192]⟩ : Shape).Reduces [1] ⟨1, ![64]⟩)
    (hφ : FKind.Formats .f32) (hacc : (0xFF800000#32 : BitVec 32) = 0xFF800000#32) (p : Fin 64) :
    multiReduction .maximumf [1] ⟨1, ![64]⟩ src 0xFF800000#32 h hφ hacc (ix1 p)
      = (Finset.univ : Finset (Fin 8192)).fold max (Ideal.ofBits .f32 0xFF800000#32) (fun k => src (ix2 p k)) :=
  (Ideal.multiReduction_maximumf_single src 0xFF800000#32 h hφ hacc (ix1 p)).trans
    (congrArg ((Finset.univ : Finset (Fin 8192)).fold max (Ideal.ofBits .f32 0xFF800000#32))
      (funext fun k => congrArg src (lift_row h p k)))

end Cert.CircleLoss.Layout

end
-- ==== Proof.KPay.lean ====
/-
  The kernel body's arithmetic, read at one row of a grid point's [64, 8192] tile.

  The body's stored values are pure terms of its four loaded blocks (the generated payloads): a [64, 128] block of
  rows `x0`, the whole transposed table `x1` [128, 8192], the rows' labels `x2` [64, 1] and all labels `x3` [1, 8192].
  Here each payload is read at row `p` of the tile: the tile product at (p, j) is the inner product
  `∑ k, x0 (p, k) * x1 (k, j)`; the masks at (p, j) compare `x2 (p, 0)` with `x3 (0, j)` and the row's number
  `64 · i + p` with `j`; a lane maximum, a lane sum and a count are the fold, the sum and the float count over the row;
  and the two stored columns at (p, 0) are Spec's `lossK` and the 0/1 float of `validK` of that row.
-/
import proofs.«151346_j80951543595535_1_alg».proof.Proof.Gen.KernelIdeal.Skeleton
import proofs.«151346_j80951543595535_1_alg».proof.Proof.Spec
import proofs.«151346_j80951543595535_1_alg».proof.Proof.KLayout

noncomputable section

namespace Cert.KernelIdeal.KPay

open Cert.KernelIdeal Cert.KernelIdeal.Gen Idealize.ShloMosaic Idealize.ShloMosaic.ValueIdx Cert.CircleLoss Cert.CircleLoss.Layout

/-! ## The tile product -/

/-- The tile product's dimension numbers: rows of the left block against columns of the right table. -/
abbrev D := dot_S64x128_S128x8192_S64x8192_1_0_0_1_n_n

theorem lhs0 (i : S64x8192.Idx) (q : D.contr.Idx) : (D.lhsIdx i q 0).val = (i 0).val := by
  unfold DotDims.lhsIdx
  rw [dif_neg (show ¬(0 : Fin S64x128.rank) ∈ D.lhsBatch by decide), dif_pos (show (0 : Fin S64x128.rank) ∈ D.lhsNonContracting by decide)]
  rfl
theorem lhs1 (i : S64x8192.Idx) (q : D.contr.Idx) : (D.lhsIdx i q 1).val = (q ⟨0, by decide⟩).val :=
  D.lhsIdx_val_of_single rfl i q
theorem rhs0 (i : S64x8192.Idx) (q : D.contr.Idx) : (D.rhsIdx i q 0).val = (q ⟨0, by decide⟩).val :=
  D.rhsIdx_val_of_single rfl i q
theorem rhs1 (i : S64x8192.Idx) (q : D.contr.Idx) : (D.rhsIdx i q 1).val = (i 1).val := by
  unfold DotDims.rhsIdx
  rw [dif_neg (show ¬(1 : Fin S128x8192.rank) ∈ D.rhsBatch by decide), dif_pos (show (1 : Fin S128x8192.rank) ∈ D.rhsNonContracting by decide)]
  rfl

/-- Entry (p, j) of the tile product is the inner product of row `p` of the block with column `j` of the table. -/
theorem pay6_apply (x0 : Vec Ideal S64x128 .bf16) (x1 : Vec Ideal S128x8192 .bf16) (p : Fin 64) (j : Fin 8192) :
    k0_pay6 (F := Ideal) x0 x1 (ix2 p j) = ∑ k : Fin 128, x0 (ix2 p k) * x1 (ix2 k j) := by
  unfold k0_pay6
  rw [shapeCast_self, shapeCast_self]
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p j) ((contrEquiv1 D 128 rfl rfl).symm k) = ix2 p k := funext fun a => Fin.ext (by
    match a with
    | ⟨0, _⟩ => exact lhs0 _ _
    | ⟨1, _⟩ => exact (lhs1 _ _).trans hk)
  have er : D.rhsIdx (ix2 p j) ((contrEquiv1 D 128 rfl rfl).symm k) = ix2 k j := funext fun a => Fin.ext (by
    match a with
    | ⟨0, _⟩ => exact (rhs0 _ _).trans hk
    | ⟨1, _⟩ => exact rhs1 _ _)
  rw [el, er]

/-- The positive term of the tile product, entry by entry. -/
theorem pay8_apply (x0 : Vec Ideal S64x128 .bf16) (x1 : Vec Ideal S128x8192 .bf16) (i : S64x8192.Idx) :
    k0_pay8 (F := Ideal) x0 x1 i = apTerm (k0_pay6 (F := Ideal) x0 x1 i) := rfl

/-- The negative term's clamped factor, entry by entry. -/
theorem pay7_apply (x0 : Vec Ideal S64x128 .bf16) (x1 : Vec Ideal S128x8192 .bf16) (i : S64x8192.Idx) :
    k0_pay7 (F := Ideal) x0 x1 i = max (k0_pay6 (F := Ideal) x0 x1 i + lit 0x3ECCCCCD#32) (lit 0x00000000#32) := rfl

/-! ## The masks -/

/-- Same label: row `p`'s label against column `j`'s. -/
theorem pay3_apply (x2 : Vec Ideal S64x1 .i32) (x3 : Vec Ideal S1x8192 .i32) (p : Fin 64) (j : Fin 8192) :
    k0_pay3 x2 x3 (ix2 p j) = IntOp.cmpi .eq (x2 (ix2 p (0 : Fin 1))) (x3 (ix2 (0 : Fin 1) j)) := by
  unfold k0_pay3
  rw [shapeCast_self, shapeCast_self]
  show IntOp.cmpi .eq (broadcastTo S64x8192 x2 _ (ix2 p j)) (broadcastTo S64x8192 x3 _ (ix2 p j)) = _
  rw [broadcastTo_a1_ab_apply, broadcastTo_1b_ab_apply]

/-- The number of row `p` of the tile at grid coordinate `i`, as the body computes it in 32-bit words. -/
def rowNo (i : grid0.Coords) (p : Fin 64) : BitVec 32 :=
  IntOp.addi (Scalar.muli (BitVec.ofNat 32 (i 0).val) 64#32) (BitVec.ofNat 32 p.val)

/-- The positives' mask at (p, j): same label, and the row's number is not `j`. -/
theorem pay4_apply (i : grid0.Coords) (x2 : Vec Ideal S64x1 .i32) (x3 : Vec Ideal S1x8192 .i32) (p : Fin 64) (j : Fin 8192) :
    k0_pay4 i x2 x3 (ix2 p j)
      = IntOp.andi (IntOp.cmpi .eq (x2 (ix2 p (0 : Fin 1))) (x3 (ix2 (0 : Fin 1) j)))
          (IntOp.xori (IntOp.cmpi .eq (rowNo i p) (BitVec.ofNat 32 j.val)) 1#1) := by
  unfold k0_pay4
  show IntOp.andi (k0_pay3 x2 x3 (ix2 p j))
      (IntOp.xori (IntOp.cmpi .eq
        (broadcastTo S64x8192 (addi (broadcast S64x1 (Scalar.muli (BitVec.ofNat 32 (i 0).val) 64#32)) (iota .tc S64x1 32 [0] _)) _ (ix2 p j))
        (broadcastTo S64x8192 (iota .tc S1x8192 32 [1] _) _ (ix2 p j))) 1#1) = _
  rw [pay3_apply, broadcastTo_a1_ab_apply, broadcastTo_1b_ab_apply]
  show IntOp.andi _ (IntOp.xori (IntOp.cmpi .eq
      (IntOp.addi (Scalar.muli (BitVec.ofNat 32 (i 0).val) 64#32) (iota .tc S64x1 32 [0] _ (ix2 p (0 : Fin 1))))
      (iota .tc S1x8192 32 [1] _ (ix2 (0 : Fin 1) j))) 1#1) = _
  rw [iota_single_apply, iota_single_apply]
  rfl

/-- The negatives' mask at (p, j): the labels differ. -/
theorem pay5_apply (x2 : Vec Ideal S64x1 .i32) (x3 : Vec Ideal S1x8192 .i32) (p : Fin 64) (j : Fin 8192) :
    k0_pay5 x2 x3 (ix2 p j) = IntOp.xori (IntOp.cmpi .eq (x2 (ix2 p (0 : Fin 1))) (x3 (ix2 (0 : Fin 1) j))) 1#1 := by
  unfold k0_pay5
  show IntOp.xori (k0_pay3 x2 x3 (ix2 p j)) 1#1 = _
  rw [pay3_apply]

/-! ## A row's log-sum-exp and counts -/

/-- The stable log-sum-exp of every row of a tile, as the body spells it: the lane maximum as a column, the tile less
    that column spread back over the lanes, exponentials, the lane sum as a column, its logarithm, plus the maximum. -/
def lseTile (t : FVec Ideal S64x8192 .f32) : FVec Ideal S64x1 .f32 :=
  addf (shapeCast S64x1 (multiReduction .maximumf [1] S64 t 0xFF800000#32 reduces_S64x8192_S64 (.inl rfl) rfl) shapeCasts_S64_S64x1)
    (log (shapeCast S64x1 (multiReduction .add [1] S64
      (exp (subf t (broadcastTo S64x8192
        (shapeCast S64x1 (multiReduction .maximumf [1] S64 t 0xFF800000#32 reduces_S64x8192_S64 (.inl rfl) rfl) shapeCasts_S64_S64x1)
        broadcasts_S64x1_S64x8192)))
      0x00000000#32 reduces_S64x8192_S64 (.inl rfl) rfl) shapeCasts_S64_S64x1))

/-- At row `p` it is Spec's log-sum-exp of the row. -/
theorem lseTile_apply (t : FVec Ideal S64x8192 .f32) (p : Fin 64) :
    lseTile t (ix2 p (0 : Fin 1)) = lseK (fun j => t (ix2 p j)) := by
  have hm : ∀ u : Fin 1, shapeCast S64x1 (multiReduction .maximumf [1] S64 t 0xFF800000#32 reduces_S64x8192_S64 (.inl rfl) rfl) shapeCasts_S64_S64x1 (ix2 p u)
      = rowMax (fun j => t (ix2 p j)) :=
    fun u => (shapeCast_a_a1_apply _ _ p u).trans (laneMax_apply t _ _ _ p)
  unfold lseTile lseK
  rw [addf_apply, hm 0]
  refine congrArg (fun s => rowMax (fun j => t (ix2 p j)) + s) ?_
  show Ideal.log (shapeCast S64x1 _ shapeCasts_S64_S64x1 (ix2 p (0 : Fin 1))) = _
  rw [shapeCast_a_a1_apply, laneSum_apply]
  refine congrArg Ideal.log (Finset.sum_congr rfl fun k _ => ?_)
  show Ideal.exp (t (ix2 p k) - broadcastTo S64x8192 _ broadcasts_S64x1_S64x8192 (ix2 p k)) = _
  rw [broadcastTo_a1_ab_apply, hm 0]

/-- The float count of the ones in every row of a mask tile, as a column. -/
def cntTile (v : IVec S64x8192 1) : FVec Ideal S64x1 .f32 :=
  shapeCast S64x1 (multiReduction .add [1] S64 (sitofp .f32 (extui 32 v natLt_1_32)) 0x00000000#32 reduces_S64x8192_S64 (.inl rfl) rfl) shapeCasts_S64_S64x1

/-- At row `p` it is Spec's float count of the row. -/
theorem cntTile_apply (v : IVec S64x8192 1) (p : Fin 64) (u : Fin 1) :
    cntTile v (ix2 p u) = cntK (fun j => v (ix2 p j)) :=
  (shapeCast_a_a1_apply _ _ p u).trans (laneSum_apply _ _ _ _ p)

theorem pay10_eq (v16 : IVec S64x8192 1) (v37 : FVec Ideal S64x8192 .f32) :
    k0_pay10 (F := Ideal) v16 v37 = lseTile (select v16 v37 (broadcast S64x8192 (Scalar.ofBits .f32 0xF149F2CA#32))) := rfl

theorem pay11_eq (v17 : IVec S64x8192 1) (v22 v30 v38 : FVec Ideal S64x8192 .f32) :
    k0_pay11 (F := Ideal) v17 v22 v30 v38
      = lseTile (select v17 (mulf (mulf v38 v30) (subf v22 (broadcast S64x8192 (Scalar.ofBits .f32 0x3ECCCCCD#32))))
          (broadcast S64x8192 (Scalar.ofBits .f32 0xF149F2CA#32))) := rfl

theorem pay12_eq (v16 : IVec S64x8192 1) : k0_pay12 (F := Ideal) v16 = cntTile v16 := rfl
theorem pay13_eq (v17 : IVec S64x8192 1) : k0_pay13 (F := Ideal) v17 = cntTile v17 := rfl

/-- The row is valid: both float counts are positive. -/
theorem pay14_apply (v16 v17 : IVec S64x8192 1) (p : Fin 64) (u : Fin 1) :
    k0_pay14 (F := Ideal) v16 v17 (ix2 p u) = validK (fun j => v16 (ix2 p j)) (fun j => v17 (ix2 p j)) := by
  unfold k0_pay14
  show IntOp.andi (Ideal.cmp .ogt (k0_pay12 (F := Ideal) v16 (ix2 p u)) (lit 0x00000000#32))
      (Ideal.cmp .ogt (k0_pay13 (F := Ideal) v17 (ix2 p u)) (lit 0x00000000#32)) = _
  rw [pay12_eq, pay13_eq, cntTile_apply, cntTile_apply]
  rfl

/-- The guarded logarithm of the positives' count. -/
theorem pay15_apply (v16 v17 : IVec S64x8192 1) (p : Fin 64) (u : Fin 1) :
    k0_pay15 (F := Ideal) v16 v17 (ix2 p u)
      = Scalar.select (validK (fun j => v16 (ix2 p j)) (fun j => v17 (ix2 p j)))
          (Ideal.log (max (cntK (fun j => v16 (ix2 p j))) (lit 0x3F800000#32))) (lit 0x00000000#32) := by
  unfold k0_pay15
  show Scalar.select (k0_pay14 (F := Ideal) v16 v17 (ix2 p u))
      (Ideal.log (max (k0_pay12 (F := Ideal) v16 (ix2 p u)) (lit 0x3F800000#32))) (lit 0x00000000#32) = _
  rw [pay14_apply, pay12_eq, cntTile_apply]

/-- The negatives' count, floored at one. -/
theorem pay16_apply (v17 : IVec S64x8192 1) (p : Fin 64) (u : Fin 1) :
    k0_pay16 (F := Ideal) v17 (ix2 p u) = max (cntK (fun j => v17 (ix2 p j))) (lit 0x3F800000#32) := by
  unfold k0_pay16
  show max (k0_pay13 (F := Ideal) v17 (ix2 p u)) (lit 0x3F800000#32) = _
  rw [pay13_eq, cntTile_apply]

/-- The stored loss column, entry by entry, from the columns it is computed from. -/
theorem pay1_apply (v53 v64 : FVec Ideal S64x1 .f32) (v77 : IVec S64x1 1) (v82 v84 : FVec Ideal S64x1 .f32) (i : S64x1.Idx) :
    k0_pay1 (F := Ideal) v53 v64 v77 v82 v84 i
      = Scalar.select (v77 i)
          (softplusK (((v53 i + Scalar.select (v77 i) (Ideal.log (v84 i)) (lit 0x00000000#32)) + v64 i) + v82 i))
          (lit 0x00000000#32) := rfl

/-- The stored validity column, entry by entry. -/
theorem pay2_apply (v77 : IVec S64x1 1) (i : S64x1.Idx) : k0_pay2 (F := Ideal) v77 i = one01 (v77 i) := rfl

/-! ## The two stored columns from the four loaded blocks -/

/-- The loss column at row `p`: Spec's `lossK` of the row's inner products and mask rows. -/
theorem out4_apply (i : grid0.Coords) (x0 : Vec Ideal S64x128 .bf16) (x1 : Vec Ideal S128x8192 .bf16)
    (x2 : Vec Ideal S64x1 .i32) (x3 : Vec Ideal S1x8192 .i32) (p : Fin 64) (u : Fin 1) :
    k0_pay1 (k0_pay10 (k0_pay4 i x2 x3) (k0_pay8 x0 x1))
        (k0_pay11 (k0_pay5 x2 x3) (k0_pay6 x0 x1) (k0_pay7 x0 x1) (k0_pay9 (F := Ideal)))
        (k0_pay14 (F := Ideal) (k0_pay4 i x2 x3) (k0_pay5 x2 x3)) (k0_pay15 (F := Ideal) (k0_pay4 i x2 x3) (k0_pay5 x2 x3))
        (k0_pay16 (F := Ideal) (k0_pay5 x2 x3)) (ix2 p u)
      = lossK (fun j => ∑ k : Fin 128, x0 (ix2 p k) * x1 (ix2 k j)) (fun j => k0_pay4 i x2 x3 (ix2 p j))
          (fun j => k0_pay5 x2 x3 (ix2 p j)) := by
  obtain rfl : u = 0 := Subsingleton.elim _ _
  have hP : (fun j : Fin 8192 => select (k0_pay4 i x2 x3) (k0_pay8 (F := Ideal) x0 x1) (broadcast S64x8192 (Scalar.ofBits .f32 0xF149F2CA#32)) (ix2 p j))
      = masked (fun j => k0_pay4 i x2 x3 (ix2 p j)) (fun j => apTerm (∑ k : Fin 128, x0 (ix2 p k) * x1 (ix2 k j))) :=
    funext fun j => by
      show Scalar.select (k0_pay4 i x2 x3 (ix2 p j)) (k0_pay8 (F := Ideal) x0 x1 (ix2 p j)) (lit 0xF149F2CA#32) = _
      rw [pay8_apply, pay6_apply]; rfl
  have hN : (fun j : Fin 8192 => select (k0_pay5 x2 x3)
        (mulf (mulf (k0_pay9 (F := Ideal)) (k0_pay7 (F := Ideal) x0 x1)) (subf (k0_pay6 (F := Ideal) x0 x1) (broadcast S64x8192 (Scalar.ofBits .f32 0x3ECCCCCD#32))))
        (broadcast S64x8192 (Scalar.ofBits .f32 0xF149F2CA#32)) (ix2 p j))
      = masked (fun j => k0_pay5 x2 x3 (ix2 p j)) (fun j => anTerm (∑ k : Fin 128, x0 (ix2 p k) * x1 (ix2 k j))) :=
    funext fun j => by
      show Scalar.select (k0_pay5 x2 x3 (ix2 p j))
        ((lit 0x42A00000#32 * k0_pay7 (F := Ideal) x0 x1 (ix2 p j)) * (k0_pay6 (F := Ideal) x0 x1 (ix2 p j) - lit 0x3ECCCCCD#32)) (lit 0xF149F2CA#32) = _
      rw [pay7_apply, pay6_apply]; rfl
  rw [pay1_apply, pay10_eq, lseTile_apply, pay11_eq, lseTile_apply, pay14_apply, pay15_apply, pay16_apply, hP, hN]
  rfl

/-- The validity column at row `p`: the 0/1 float of Spec's `validK` of the row's masks. -/
theorem out5_apply (i : grid0.Coords) (x2 : Vec Ideal S64x1 .i32) (x3 : Vec Ideal S1x8192 .i32) (p : Fin 64) (u : Fin 1) :
    k0_pay2 (F := Ideal) (k0_pay14 (F := Ideal) (k0_pay4 i x2 x3) (k0_pay5 x2 x3)) (ix2 p u)
      = one01 (validK (fun j => k0_pay4 i x2 x3 (ix2 p j)) (fun j => k0_pay5 x2 x3 (ix2 p j))) := by
  rw [pay2_apply, pay14_apply]

end Cert.KernelIdeal.KPay

end
-- ==== Proof.KBlocks.lean ====
/-
  From the grid's blocks to the two result columns.

  Grid point `t` (of 128) stages rows `64 t … 64 t + 63` of the normalised embeddings and of the labels, the whole
  transposed table and the whole label row, and writes back rows `64 t … 64 t + 63` of the two [8192, 1] result
  columns. So what point `t` writes at row `p` of its block is the row function of Spec at array row `64 t + p`
  (`flushed4_eq`, `flushed5_eq`), the 128 blocks cover the columns (`cover4`, `cover5`: row `r` lies in block
  `r / 64`), and each column ends holding the row function at every row (`final4`, `final5`).
-/
import proofs.«151346_j80951543595535_1_alg».proof.Proof.KernelIdealFrame
import proofs.«151346_j80951543595535_1_alg».proof.Proof.KPay
import Idealize.ShloMosaic.Lib.Pipeline.Value

noncomputable section

namespace Cert.KernelIdeal.KBlocks

open Cert.KernelIdeal Cert.KernelIdeal.Gen Cert.KernelIdeal.GenP Cert.KernelIdeal.KPay Cert.CircleLoss
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The printed index maps, decided over the 128 grid points: windows 0, 2, 4, 5 are at block row `t`, windows 1
    and 3 at their one block, and the grid coordinate of point `t` is `t`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ (grid0.coords t (0 : Fin 1)).val = t.val :=
  (by decide +kernel : ∀ t : Fin grid0.N, _)

theorem lt_N (t : Fin cfg0.N) : t.val < 128 := lt_of_lt_of_eq t.isLt N_0

/-- The array row under row `p` of point `t`'s blocks. -/
def rowOf (t : Fin cfg0.N) (p : Fin 64) : Fin 8192 := ⟨64 * t.val + p.val, by have := lt_N t; omega⟩

/-! ## The staged blocks are rows of the arrays -/

theorem iblk0_apply (c : Dev nD) (t : Fin cfg0.N) (p : Fin 64) (k : Fin 128) :
    iblk m c 0 t (ix2 p k) = V m c main_v5 (ix2 (rowOf t p) k) := by
  obtain ⟨e0, e1, -⟩ := idx_facts t
  show V m c main_v5 (((cfg0.win 0).blk t).view.emb (ix2 p k)) = V m c main_v5 (ix2 (rowOf t p) k)
  refine congrArg (V m c main_v5) (funext fun a => Fin.ext ?_)
  match a with
  | ⟨0, _⟩ => show win0_0.index t (0 : Fin 2) * 64 + 1 * p.val = 64 * t.val + p.val; omega
  | ⟨1, _⟩ => show win0_0.index t (1 : Fin 2) * 128 + 1 * k.val = k.val; omega

theorem iblk1_apply (c : Dev nD) (t : Fin cfg0.N) (k : Fin 128) (j : Fin 8192) :
    iblk m c 1 t (ix2 k j) = V m c main_v7 (ix2 k j) := by
  obtain ⟨-, -, e0, e1, -⟩ := idx_facts t
  show V m c main_v7 (((cfg0.win 1).blk t).view.emb (ix2 k j)) = V m c main_v7 (ix2 k j)
  refine congrArg (V m c main_v7) (funext fun a => Fin.ext ?_)
  match a with
  | ⟨0, _⟩ => show win0_1.index t (0 : Fin 2) * 128 + 1 * k.val = k.val; omega
  | ⟨1, _⟩ => show win0_1.index t (1 : Fin 2) * 8192 + 1 * j.val = j.val; omega

theorem iblk2_apply (c : Dev nD) (t : Fin cfg0.N) (p : Fin 64) (u : Fin 1) :
    iblk m c 2 t (ix2 p u) = V m c main_v8 (ix2 (rowOf t p) u) := by
  obtain ⟨-, -, -, -, e0, e1, -⟩ := idx_facts t
  show V m c main_v8 (((cfg0.win 2).blk t).view.emb (ix2 p u)) = V m c main_v8 (ix2 (rowOf t p) u)
  refine congrArg (V m c main_v8) (funext fun a => Fin.ext ?_)
  match a with
  | ⟨0, _⟩ => show win0_2.index t (0 : Fin 2) * 64 + 1 * p.val = 64 * t.val + p.val; omega
  | ⟨1, _⟩ => show win0_2.index t (1 : Fin 2) * 1 + 1 * u.val = u.val; omega

theorem iblk3_apply (c : Dev nD) (t : Fin cfg0.N) (u : Fin 1) (j : Fin 8192) :
    iblk m c 3 t (ix2 u j) = V m c main_v9 (ix2 u j) := by
  obtain ⟨-, -, -, -, -, -, e0, e1, -⟩ := idx_facts t
  show V m c main_v9 (((cfg0.win 3).blk t).view.emb (ix2 u j)) = V m c main_v9 (ix2 u j)
  refine congrArg (V m c main_v9) (funext fun a => Fin.ext ?_)
  match a with
  | ⟨0, _⟩ => show win0_3.index t (0 : Fin 2) * 1 + 1 * u.val = u.val; omega
  | ⟨1, _⟩ => show win0_3.index t (1 : Fin 2) * 8192 + 1 * j.val = j.val; omega

/-- The body's 32-bit row number `64 · t + p` is the array row's number: no wrap, the products and sums of words being
    those of the naturals modulo 2^32. -/
theorem rowNo_eq (t : Fin cfg0.N) (p : Fin 64) : rowNo (grid0.coords t) p = BitVec.ofNat 32 (rowOf t p).val := by
  have e : (grid0.coords t (0 : Fin 1)).val = t.val := (idx_facts t).2.2.2.2.2.2.2.2.2.2.2.2
  unfold rowNo
  show BitVec.ofNat 32 (grid0.coords t (0 : Fin 1)).val * BitVec.ofNat 32 64 + BitVec.ofNat 32 p.val = BitVec.ofNat 32 (64 * t.val + p.val)
  rw [e, BitVec.ofNat_add, BitVec.ofNat_mul, BitVec.mul_comm]

/-! ## The row function over the staged arrays -/

/-- The four staged arrays as the region finds them, at their element types. -/
abbrev A5 (c : Dev nD) : S8192x128.Idx → EReal := V m c main_v5
abbrev A7 (c : Dev nD) : S128x8192.Idx → EReal := V m c main_v7
abbrev A8 (c : Dev nD) : S8192x1.Idx → BitVec 32 := V m c main_v8
abbrev A9 (c : Dev nD) : S1x8192.Idx → BitVec 32 := V m c main_v9

/-- Similarity of rows `r` and `j` from the two staged tables. -/
def simV (c : Dev nD) (r j : Fin 8192) : EReal := ∑ k : Fin 128, A5 m c (ix2 r k) * A7 m c (ix2 k j)

/-- Inner products of a block's row with a table's columns, when the block's row is a row of an array and the table is
    an array. -/
theorem sim_rows (x0 : Vec Ideal S64x128 .bf16) (x1 : Vec Ideal S128x8192 .bf16) (a5 : S8192x128.Idx → EReal)
    (a7 : S128x8192.Idx → EReal) (p : Fin 64) (r : Fin 8192) (h0 : ∀ k : Fin 128, x0 (ix2 p k) = a5 (ix2 r k))
    (h1 : ∀ (k : Fin 128) (j : Fin 8192), x1 (ix2 k j) = a7 (ix2 k j)) :
    (fun j : Fin 8192 => ∑ k : Fin 128, x0 (ix2 p k) * x1 (ix2 k j)) = fun j => ∑ k : Fin 128, a5 (ix2 r k) * a7 (ix2 k j) :=
  funext fun j => Finset.sum_congr rfl fun k _ => by rw [h0, h1]
/-- The positives' mask from the two staged label arrays. -/
def posV (c : Dev nD) (r j : Fin 8192) : BitVec 1 :=
  IntOp.andi (IntOp.cmpi .eq (A8 m c (ix2 r (0 : Fin 1))) (A9 m c (ix2 (0 : Fin 1) j)))
    (IntOp.xori (IntOp.cmpi .eq (BitVec.ofNat 32 r.val) (BitVec.ofNat 32 j.val)) 1#1)
/-- The negatives' mask. -/
def negV (c : Dev nD) (r j : Fin 8192) : BitVec 1 :=
  IntOp.xori (IntOp.cmpi .eq (A8 m c (ix2 r (0 : Fin 1))) (A9 m c (ix2 (0 : Fin 1) j))) 1#1

/-- The loss column. -/
def G4 (c : Dev nD) : S8192x1.Idx → EReal := fun i =>
  lossK (simV m c ⟨(i 0).val, (i 0).isLt⟩) (posV m c ⟨(i 0).val, (i 0).isLt⟩) (negV m c ⟨(i 0).val, (i 0).isLt⟩)
/-- The validity column. -/
def G5 (c : Dev nD) : S8192x1.Idx → EReal := fun i =>
  one01 (validK (posV m c ⟨(i 0).val, (i 0).isLt⟩) (negV m c ⟨(i 0).val, (i 0).isLt⟩))

theorem G4_apply (c : Dev nD) (r : Fin 8192) (u : Fin 1) :
    G4 m c (ix2 r u) = lossK (simV m c r) (posV m c r) (negV m c r) := rfl
theorem G5_apply (c : Dev nD) (r : Fin 8192) (u : Fin 1) :
    G5 m c (ix2 r u) = one01 (validK (posV m c r) (negV m c r)) := rfl

/-- The two staged float blocks of point `t`, at their vector types. -/
abbrev B0 (c : Dev nD) (t : Fin cfg0.N) : Vec Ideal S64x128 .bf16 := iblk m c 0 t
abbrev B1 (c : Dev nD) (t : Fin cfg0.N) : Vec Ideal S128x8192 .bf16 := iblk m c 1 t

/-- Row `p` of point `t`'s blocks gives the staged arrays' row `64 t + p`: the inner products … -/
theorem rows_sim (c : Dev nD) (t : Fin cfg0.N) (p : Fin 64) :
    (fun j : Fin 8192 => ∑ k : Fin 128, B0 m c t (ix2 p k) * B1 m c t (ix2 k j)) = simV m c (rowOf t p) :=
  sim_rows (B0 m c t) (B1 m c t) (A5 m c) (A7 m c) p (rowOf t p) (fun k => iblk0_apply m c t p k)
    (fun k j => iblk1_apply m c t k j)
/-- … the positives' mask … -/
theorem rows_pos (c : Dev nD) (t : Fin cfg0.N) (p : Fin 64) :
    (fun j : Fin 8192 => k0_pay4 (grid0.coords t) (iblk m c 2 t) (iblk m c 3 t) (ix2 p j)) = posV m c (rowOf t p) :=
  funext fun j => by rw [pay4_apply, iblk2_apply, iblk3_apply, rowNo_eq]; rfl
/-- … and the negatives'. -/
theorem rows_neg (c : Dev nD) (t : Fin cfg0.N) (p : Fin 64) :
    (fun j : Fin 8192 => k0_pay5 (iblk m c 2 t) (iblk m c 3 t) (ix2 p j)) = negV m c (rowOf t p) :=
  funext fun j => by rw [pay5_apply, iblk2_apply, iblk3_apply]; rfl

/-! ## What a point writes back, the cover, and the columns after the run -/

/-- WHAT POINT `t` WRITES BACK to the loss column is block `t` of `G4`. -/
theorem flushed4_eq (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  unfold out0_4
  rw [View.canon_unit_zero hz]
  simp only [View.ld_unit_zero (S := S64x1) hz, View.ld_unit_zero (S := S1x8192) hz, View.ld_unit_zero (S := S64x128) hz,
    View.ld_unit_zero (S := S128x8192) hz]
  refine funext fun (y : S64x1.Idx) => ?_
  obtain ⟨p, u, rfl⟩ : ∃ (p : Fin 64) (u : Fin 1), y = ix2 p u := ⟨y 0, y 1, eq_ix2 y⟩
  obtain ⟨-, -, -, -, -, -, -, -, e0, e1, -⟩ := idx_facts t
  have hemb : ((cfg0.win 4).blk t).view.emb (ix2 p u) = ix2 (rowOf t p) u := funext fun a => Fin.ext (by
    match a with
    | ⟨0, _⟩ => show win0_4.index t (0 : Fin 2) * 64 + 1 * p.val = 64 * t.val + p.val; omega
    | ⟨1, _⟩ => show win0_4.index t (1 : Fin 2) * 1 + 1 * u.val = u.val; omega)
  refine (out4_apply (grid0.coords t) (iblk m c 0 t) (iblk m c 1 t) (iblk m c 2 t) (iblk m c 3 t) p u).trans ?_
  show _ = G4 m c (((cfg0.win 4).blk t).view.emb (ix2 p u))
  rw [hemb, G4_apply]
  exact congr (congr (congrArg lossK (rows_sim m c t p)) (rows_pos m c t p)) (rows_neg m c t p)

/-- WHAT POINT `t` WRITES BACK to the validity column is block `t` of `G5`. -/
theorem flushed5_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  unfold out0_5
  rw [View.canon_unit_zero hz]
  simp only [View.ld_unit_zero (S := S64x1) hz, View.ld_unit_zero (S := S1x8192) hz]
  refine funext fun (y : S64x1.Idx) => ?_
  obtain ⟨p, u, rfl⟩ : ∃ (p : Fin 64) (u : Fin 1), y = ix2 p u := ⟨y 0, y 1, eq_ix2 y⟩
  obtain ⟨-, -, -, -, -, -, -, -, -, -, e0, e1, -⟩ := idx_facts t
  have hemb : ((cfg0.win 5).blk t).view.emb (ix2 p u) = ix2 (rowOf t p) u := funext fun a => Fin.ext (by
    match a with
    | ⟨0, _⟩ => show win0_5.index t (0 : Fin 2) * 64 + 1 * p.val = 64 * t.val + p.val; omega
    | ⟨1, _⟩ => show win0_5.index t (1 : Fin 2) * 1 + 1 * u.val = u.val; omega)
  refine (out5_apply (grid0.coords t) (iblk m c 2 t) (iblk m c 3 t) p u).trans ?_
  show _ = G5 m c (((cfg0.win 5).blk t).view.emb (ix2 p u))
  rw [hemb, G5_apply]
  exact congrArg one01 (congr (congrArg validK (rows_pos m c t p)) (rows_neg m c t p))

/-- An index of a result column is in point `t`'s block iff each coordinate is in the block's range on its axis. -/
theorem mem_blk4 (t : Fin cfg0.N) (i : S8192x1.Idx) :
    i ∈ ((cfg0.win 4).blk t).view.set ↔ ∀ a : Fin 2, win0_4.index t a * S64x1.size a ≤ (i a).val ∧ (i a).val < win0_4.index t a * S64x1.size a + S64x1.size a := by
  show i ∈ ((View.whole main_v10_0).slice (win0_4.rect t)).set ↔ _
  rw [View.set_slice_whole, Rect.mem_set_unit]
  exact Iff.rfl
theorem mem_blk5 (t : Fin cfg0.N) (i : S8192x1.Idx) :
    i ∈ ((cfg0.win 5).blk t).view.set ↔ ∀ a : Fin 2, win0_5.index t a * S64x1.size a ≤ (i a).val ∧ (i a).val < win0_5.index t a * S64x1.size a + S64x1.size a := by
  show i ∈ ((View.whole main_v10_1).slice (win0_5.rect t)).set ↔ _
  rw [View.set_slice_whole, Rect.mem_set_unit]
  exact Iff.rfl

/-- Row `r` of a result column lies in the block of point `r / 64`. -/
theorem cover4 (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 128 := N_0
  let t : Fin cfg0.N := ⟨(i 0).val / 64, by rw [hN]; omega⟩
  have ht : t.val = (i 0).val / 64 := rfl
  obtain ⟨-, -, -, -, -, -, -, -, e0, e1, -⟩ := idx_facts t
  refine ⟨t, flush0_4 t, ?_⟩
  rw [mem_blk4]
  intro a
  match a with
  | ⟨0, _⟩ => show win0_4.index t (0 : Fin 2) * 64 ≤ (i 0).val ∧ (i 0).val < win0_4.index t (0 : Fin 2) * 64 + 64; omega
  | ⟨1, _⟩ => show win0_4.index t (1 : Fin 2) * 1 ≤ (i 1).val ∧ (i 1).val < win0_4.index t (1 : Fin 2) * 1 + 1; omega
theorem cover5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  have hN : cfg0.N = 128 := N_0
  let t : Fin cfg0.N := ⟨(i 0).val / 64, by rw [hN]; omega⟩
  have ht : t.val = (i 0).val / 64 := rfl
  obtain ⟨-, -, -, -, -, -, -, -, -, -, e0, e1, -⟩ := idx_facts t
  refine ⟨t, flush0_5 t, ?_⟩
  rw [mem_blk5]
  intro a
  match a with
  | ⟨0, _⟩ => show win0_5.index t (0 : Fin 2) * 64 ≤ (i 0).val ∧ (i 0).val < win0_5.index t (0 : Fin 2) * 64 + 64; omega
  | ⟨1, _⟩ => show win0_5.index t (1 : Fin 2) * 1 ≤ (i 1).val ∧ (i 1).val < win0_5.index t (1 : Fin 2) * 1 + 1; omega

/-- THE LOSS COLUMN after the run is `G4`. -/
theorem final4 (c : Dev nD) : (dats m 0 c).arrAt 4 cfg0.N = G4 m c :=
  (dats m 0 c).arrAt_eq_of_cover 4 (G4 m c) (fun t _ => flushed4_eq m c t) cover4
/-- THE VALIDITY COLUMN after the run is `G5`. -/
theorem final5 (c : Dev nD) : (dats m 0 c).arrAt 5 cfg0.N = G5 m c :=
  (dats m 0 c).arrAt_eq_of_cover 5 (G5 m c) (fun t _ => flushed5_eq m c t) cover5

end Cert.KernelIdeal.KBlocks

end
-- ==== Proof.KHost.lean ====
/-
  What the kernel's host operations before the region leave in the arrays its four input windows stage.

  The program first normalises the embeddings: with `n r = max (sqrt (∑ k, x r k * x r k)) 1e-12`, the normalised array
  is `x r k / n r` (`normed`). The four staged arrays are then: that array converted to the narrow format (on the
  extended reals a conversion is the identity); its transpose, converted; and the label vector viewed as a column
  and as a row.
-/
import proofs.«151346_j80951543595535_1_alg».proof.Proof.KernelIdealFrame
import proofs.«151346_j80951543595535_1_alg».proof.Proof.KLayout
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-! ## The normalisation chain -/

/-- The normalised embeddings as the program computes them from the argument `x0`: the product `x0 * x0` summed along
    each row from `0`, the square root, the maximum with the constant `1e-12` spread over the column, and `x0` divided
    by that column spread over the rows. -/
def normed (x0 : FVec Ideal S8192x128 .f32) : FVec Ideal S8192x128 .f32 :=
  Host.divf (F := Ideal) x0
    (broadcastInDim S8192x128 ![0, 1] bcast_S8192x1_S8192x128_0_1
      (maximumf (F := Ideal)
        (Host.sqrt (F := Ideal)
          (broadcastInDim S8192x1 ![0] bcast_S8192_S8192x1_0
            (Host.reduceAdd (F := Ideal) (mulf (F := Ideal) x0 x0) (constant (F := Ideal) S_ .f32 0x00000000#32)
              reducesTo_S8192x128_S8192_d1 h_S_)))
        (broadcastInDim S8192x1 ![] bcast_S_S8192x1 (constant (F := Ideal) S_ .f32 0x2B8CBCCC#32))))

/-- The normalised array is the chain applied to the embeddings argument. -/
theorem V_v4 : (GenP.V m c main_v4 : FVec Ideal S8192x128 .f32) = normed (m ((c : Thread nD τ).loc main_arg0)) := by
  dsimp only [GenP.V, GenP.V0]
  simp only [hostOps0, hostOps0_1, List.flatten_cons, List.flatten_nil, List.append_nil, List.cons_append, List.nil_append]
  after_results
  rfl

/-! ## The staged arrays whole -/

/-- Window 0's array: the normalised array converted to the narrow format. -/
theorem V_v5_whole : (GenP.V m c main_v5 : FVec Ideal S8192x128 .bf16)
    = truncf .bf16 (normed (m ((c : Thread nD τ).loc main_arg0))) bitsLt_bf16_f32 := by
  dsimp only [GenP.V, GenP.V0]
  simp only [hostOps0, hostOps0_1, List.flatten_cons, List.flatten_nil, List.append_nil, List.cons_append, List.nil_append]
  after_results
  rfl

/-- Window 1's array: the normalised array transposed, then converted. -/
theorem V_v7_whole : (GenP.V m c main_v7 : FVec Ideal S128x8192 .bf16)
    = truncf .bf16 (transpose S128x8192 [1, 0] (normed (m ((c : Thread nD τ).loc main_arg0)))
        transposes_S8192x128_S128x8192_1_0) bitsLt_bf16_f32 := by
  dsimp only [GenP.V, GenP.V0]
  simp only [hostOps0, hostOps0_1, List.flatten_cons, List.flatten_nil, List.append_nil, List.cons_append, List.nil_append]
  after_results
  rfl

/-- Window 2's array: the label vector viewed as a column. -/
theorem V_v8_whole : (GenP.V m c main_v8 : S8192x1.Idx → BitVec 32)
    = shapeCast S8192x1 (m ((c : Thread nD τ).loc main_arg1)) shapeCasts_S8192_S8192x1 := by
  dsimp only [GenP.V, GenP.V0]
  simp only [hostOps0, hostOps0_1, List.flatten_cons, List.flatten_nil, List.append_nil, List.cons_append, List.nil_append]
  after_results
  rfl

/-- Window 3's array: the label vector viewed as a row. -/
theorem V_v9_whole : (GenP.V m c main_v9 : S1x8192.Idx → BitVec 32)
    = shapeCast S1x8192 (m ((c : Thread nD τ).loc main_arg1)) shapeCasts_S8192_S1x8192 := by
  dsimp only [GenP.V, GenP.V0]
  simp only [hostOps0, hostOps0_1, List.flatten_cons, List.flatten_nil, List.append_nil, List.cons_append, List.nil_append]
  after_results
  rfl

/-! ## The staged arrays at an index -/

/-- The converted array reads what the normalised array reads: a conversion is the identity on the extended reals. -/
theorem V_v5 (r : Fin 8192) (k : Fin 128) : GenP.V m c main_v5 (ix2 r k) = GenP.V m c main_v4 (ix2 r k) :=
  (congrFun (V_v5_whole m c) (ix2 r k)).trans (congrFun (V_v4 m c) (ix2 r k)).symm

/-- The transposed and converted array reads, at `(k, j)`, the normalised array at `(j, k)`. -/
theorem V_v7 (k : Fin 128) (j : Fin 8192) : GenP.V m c main_v7 (ix2 k j) = GenP.V m c main_v4 (ix2 j k) :=
  (congrFun (V_v7_whole m c) (ix2 k j)).trans
    ((transpose_ix2_apply (normed (m ((c : Thread nD τ).loc main_arg0))) transposes_S8192x128_S128x8192_1_0 k j).trans
      (congrFun (V_v4 m c) (ix2 j k)).symm)

/-- The label column reads, at `(r, u)`, the label of row `r`. -/
theorem V_v8 (r : Fin 8192) (u : Fin 1) : GenP.V m c main_v8 (ix2 r u) = m ((c : Thread nD τ).loc main_arg1) (ix1 r) :=
  (congrFun (V_v8_whole m c) (ix2 r u)).trans
    (Cert.CircleLoss.Layout.shapeCast_a_a1_apply (m ((c : Thread nD τ).loc main_arg1)) shapeCasts_S8192_S8192x1 r u)

/-- The label row reads, at `(u, j)`, the label of row `j`. -/
theorem V_v9 (u : Fin 1) (j : Fin 8192) : GenP.V m c main_v9 (ix2 u j) = m ((c : Thread nD τ).loc main_arg1) (ix1 j) :=
  (congrFun (V_v9_whole m c) (ix2 u j)).trans
    (shapeCast_a_1a_apply (m ((c : Thread nD τ).loc main_arg1)) shapeCasts_S8192_S1x8192 u j)

end Cert.KernelIdeal.KHost

end
-- ==== Proof.KTail.lean ====
/-
  The seven host operations after the region: the mean of the per-row losses over the number of valid rows.

  The region leaves two column arrays of 8192 entries, the per-row losses and the per-row validity indicators. The
  host then sums each over all its entries from the initial value `0`, guards the second sum from below by `1`,
  and divides the first by it. A sum over the index set of an `[8192, 1]` array is the sum over its 8192 rows.
-/
import proofs.«151346_j80951543595535_1_alg».proof.Proof.KernelIdealFrame
import proofs.«151346_j80951543595535_1_alg».proof.Proof.Spec
import Idealize.ShloMosaic.PureOps.Ideal.Laws
import Idealize.ShloMosaic.Lib.ValueIdx
import Idealize.ShloMosaic.Lib.StableHlo.Run

set_option maxRecDepth 16384

noncomputable section

namespace Cert.KernelIdeal.KTail

open Cert.KernelIdeal Cert.KernelIdeal.Gen
open Idealize.ShloMosaic Idealize.ShloMosaic.TcCoe Idealize.ShloMosaic.ValueIdx

/-! ## The tail as a function of the two arrays -/

/-- The seven operations applied to the two arrays the region leaves: each summed over every entry from `0`, the
    second sum guarded by the maximum with `1`, and the quotient. -/
def tail (A4 A5 : FVec Ideal S8192x1 .f32) : FVec Ideal S_ .f32 :=
  Host.divf (F := Ideal)
    (Host.reduceAdd (F := Ideal) A4 (constant (F := Ideal) S_ .f32 0x00000000#32) reducesTo_S8192x1_S_d0_1 h_S_)
    (maximumf (F := Ideal)
      (Host.reduceAdd (F := Ideal) A5 (constant (F := Ideal) S_ .f32 0x00000000#32) reducesTo_S8192x1_S_d0_1 h_S_)
      (constant (F := Ideal) S_ .f32 0x3F800000#32))

/-- A column array summed over every entry from the initial value `0` is `0` plus the sum of its rows: the reduction
    keeps no axis, so every entry falls in the one fibre, and the index set of an `[8192, 1]` array is its 8192 rows
    times the one column. -/
theorem reduce_total (A : FVec Ideal S8192x1 .f32) (L : Fin 8192 → EReal)
    (h : ∀ (r : Fin 8192) (u : Fin 1), A (ix2 r u) = L r) (i : S_.Idx) :
    Host.reduceAdd (F := Ideal) A (constant (F := Ideal) S_ .f32 0x00000000#32) reducesTo_S8192x1_S_d0_1 h_S_ i
      = Cert.CircleLoss.lit 0x00000000#32 + ∑ r : Fin 8192, L r := by
  simp only [Host.reduceAdd, Ideal.hostReduceAdd_def]
  rw [Ideal.hostReduceAdd_total reducesTo_S8192x1_S_d0_1 (fun b => b.elim0), sum_idx2]
  refine congrArg₂ (· + ·) rfl (Finset.sum_congr rfl fun r _ => ?_)
  rw [Fin.sum_univ_one]
  exact h r 0

/-- The tail read at its one index, in terms of the rows of the two arrays. -/
theorem tail_apply (A4 A5 : FVec Ideal S8192x1 .f32) (L Vd : Fin 8192 → EReal)
    (h4 : ∀ (r : Fin 8192) (u : Fin 1), A4 (ix2 r u) = L r)
    (h5 : ∀ (r : Fin 8192) (u : Fin 1), A5 (ix2 r u) = Vd r) (i : S_.Idx) :
    tail A4 A5 i
      = Ideal.div (Cert.CircleLoss.lit 0x00000000#32 + ∑ r : Fin 8192, L r)
          (max (Cert.CircleLoss.lit 0x00000000#32 + ∑ r : Fin 8192, Vd r) (Cert.CircleLoss.lit 0x3F800000#32)) := by
  show Ideal.div
      (Host.reduceAdd (F := Ideal) A4 (constant (F := Ideal) S_ .f32 0x00000000#32) reducesTo_S8192x1_S_d0_1 h_S_ i)
      (max (Host.reduceAdd (F := Ideal) A5 (constant (F := Ideal) S_ .f32 0x00000000#32) reducesTo_S8192x1_S_d0_1 h_S_ i)
        (Ideal.ofBits .f32 0x3F800000#32)) = _
  rw [reduce_total A4 L h4 i, reduce_total A5 Vd h5 i]

/-! ## The tail of the program -/

variable (m : (ℓ : Loc nD τ sig) → Buf (Elt Ideal) ℓ) (c : Dev nD)

/-- What the program's result buffer holds after the tail is the tail of the two arrays the region leaves. -/
theorem afterTail_v14 :
    (Pipeline.afterTail₀ cfgs (GenP.dats m) 0 (GenP.V0 m) [hostOps1] c main_v14 : FVec Ideal S_ .f32)
      = tail ((GenP.dats m 0 c).arrAt 4 cfg0.N) ((GenP.dats m 0 c).arrAt 5 cfg0.N) := by
  unfold Pipeline.afterTail₀
  show StableHlo.after hostOps1 _ (Proc.devRef .tc main_v14) = _
  after_results
  exact congrArg₂ tail
    (Pipeline.withArrays_arr spec0 launch0.win.arr_inj c (GenP.V0 m c) (fun w => (GenP.dats m 0 c).arrAt w cfg0.N) 4)
    (Pipeline.withArrays_arr spec0 launch0.win.arr_inj c (GenP.V0 m c) (fun w => (GenP.dats m 0 c).arrAt w cfg0.N) 5)

/-- The program's result: the sum of the per-row losses over the number of valid rows guarded by `1`. -/
theorem tail_value (L Vd : Fin 8192 → EReal)
    (h4 : ∀ (r : Fin 8192) (u : Fin 1), (GenP.dats m 0 c).arrAt 4 cfg0.N (ix2 r u) = L r)
    (h5 : ∀ (r : Fin 8192) (u : Fin 1), (GenP.dats m 0 c).arrAt 5 cfg0.N (ix2 r u) = Vd r) (i : S_.Idx) :
    Pipeline.afterTail₀ cfgs (GenP.dats m) 0 (GenP.V0 m) [hostOps1] c main_v14 i
      = Ideal.div (Cert.CircleLoss.lit 0x00000000#32 + ∑ r : Fin 8192, L r)
          (max (Cert.CircleLoss.lit 0x00000000#32 + ∑ r : Fin 8192, Vd r) (Cert.CircleLoss.lit 0x3F800000#32)) :=
  (congrFun (afterTail_v14 m c) i).trans
    (tail_apply ((GenP.dats m 0 c).arrAt 4 cfg0.N) ((GenP.dats m 0 c).arrAt 5 cfg0.N) L Vd h4 h5 i)

end Cert.KernelIdeal.KTail

end
-- ==== Proof.KValue.lean ====
/-
  The kernel program's result.

  The four staged arrays are the normalised embeddings `e` (row blocks), their transpose (whole), and the labels as
  a column and as a row; so the row function over the staged arrays is Spec's row function of `e` and the labels
  (`simV_eq`, `posV_eq`, `negV_eq`), the two result columns hold `lossK` and the 0/1 float of `validK` of every row,
  and the seven host operations after the region — the two column sums, `max · 1`, the quotient — give `resultK`.
-/
import proofs.«151346_j80951543595535_1_alg».proof.Proof.KBlocks
import proofs.«151346_j80951543595535_1_alg».proof.Proof.KHost
import proofs.«151346_j80951543595535_1_alg».proof.Proof.KTail

noncomputable section

namespace Cert.KernelIdeal.KValue

open Cert.KernelIdeal Cert.KernelIdeal.Gen Cert.KernelIdeal.GenP Cert.KernelIdeal.KBlocks Cert.KernelIdeal.KHost Cert.CircleLoss
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The normalised embeddings as the region finds them, by row and feature. -/
def E (c : Dev nD) : Fin 8192 → Fin 128 → EReal := fun r k => V m c main_v4 (ix2 r k)
/-- The labels, by row. -/
def lab (c : Dev nD) : Fin 8192 → BitVec 32 := fun r => m ((c : Thread nD τ).loc main_arg1) (ix1 r)

theorem simV_eq (c : Dev nD) (r : Fin 8192) : simV m c r = sim (E m c) r :=
  funext fun j => Finset.sum_congr rfl fun k _ =>
    congrArg₂ (fun a b : EReal => a * b) (V_v5 m c r k) (V_v7 m c k j)
theorem posV_eq (c : Dev nD) (r : Fin 8192) : posV m c r = posM (lab m c) r :=
  funext fun j => by
    have h8 : A8 m c (ix2 r (0 : Fin 1)) = lab m c r := V_v8 m c r 0
    have h9 : A9 m c (ix2 (0 : Fin 1) j) = lab m c j := V_v9 m c 0 j
    unfold posV posM
    rw [h8, h9]
theorem negV_eq (c : Dev nD) (r : Fin 8192) : negV m c r = negM (lab m c) r :=
  funext fun j => by
    have h8 : A8 m c (ix2 r (0 : Fin 1)) = lab m c r := V_v8 m c r 0
    have h9 : A9 m c (ix2 (0 : Fin 1) j) = lab m c j := V_v9 m c 0 j
    unfold negV negM
    rw [h8, h9]

/-- The loss column after the run, row by row. -/
theorem col4 (c : Dev nD) (r : Fin 8192) (u : Fin 1) :
    (dats m 0 c).arrAt 4 cfg0.N (ix2 r u) = lossK (sim (E m c) r) (posM (lab m c) r) (negM (lab m c) r) := by
  rw [final4, G4_apply, simV_eq, posV_eq, negV_eq]
/-- The validity column after the run, row by row. -/
theorem col5 (c : Dev nD) (r : Fin 8192) (u : Fin 1) :
    (dats m 0 c).arrAt 5 cfg0.N (ix2 r u) = one01 (validK (posM (lab m c) r) (negM (lab m c) r)) := by
  rw [final5, G5_apply, posV_eq, negV_eq]

/-- The program's result after the host operations that follow the region. -/
theorem result_eq (c : Dev nD) (i : S_.Idx) :
    Pipeline.afterTail₀ cfgs (dats m) 0 (V0 m) [hostOps1] c main_v14 i = resultK (E m c) (lab m c) :=
  KTail.tail_value m c _ _ (col4 m c) (col5 m c) i

/-- THE RUN, READ: every weakly fair execution of the kernel's program ends with its result at `resultK` of the normalised
    embeddings and the labels, the arguments unchanged. -/
theorem run : θ_run defs (onTc (τ := τ) (main (F := Ideal))) ⟨m, fun _ => 0, ρ⟩ fun r => ∀ c : Dev nD,
      r.2.mem ((c.tc : Thread nD τ).loc main_v14) = (fun _ => resultK (E m c) (lab m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v14 (Pipeline.mem_restRefs_of main_v14 (by decide) (by decide))).trans (funext fun i => result_eq m c i),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KValue

end
-- ==== Proof.KNorm.lean ====
/-
  The kernel's normalised embeddings are the reference's.

  Both programs normalise their embeddings argument by the same nine operations in the same order: the product of the
  argument with itself, its sum along each row from `0`, that vector spread into a column, the square root, the constant
  `1e-12` spread into a column, the maximum of the two columns, that column spread over the rows, and the argument
  divided by it. The shapes are the same literals in both programs and the side conditions are propositions, so the
  two composed terms are the same term.
-/
import proofs.«151346_j80951543595535_1_alg».proof.Proof.KHost
import proofs.«151346_j80951543595535_1_alg».proof.Proof.RefRead

set_option maxRecDepth 16384

noncomputable section

namespace Cert.KernelIdeal.KNorm

open Cert.KernelIdeal Cert.KernelIdeal.Gen
open Idealize.ShloMosaic Idealize.ShloMosaic.TcCoe

/-- The kernel's normalisation chain is the reference's stage of the same argument: the same operations of the same
    operands, stage by stage. -/
theorem normed_eq_ref (x0 : FVec Ideal Cert.KernelIdeal.S8192x128 .f32) :
    KHost.normed x0 = Cert.ReferenceIdeal.Read.val_main_v4 (F := Ideal) x0 := rfl

variable (m : (ℓ : Loc nD τ sig) → Buf (Elt Ideal) ℓ) (c : Dev nD)

/-- The array the kernel's input windows are cut from is the reference's normalised array of the embeddings argument. -/
theorem V_v4_eq_ref :
    (GenP.V m c main_v4 : Cert.KernelIdeal.S8192x128.Idx → EReal)
      = Cert.ReferenceIdeal.Read.val_main_v4 (F := Ideal) (m ((c : Thread nD τ).loc main_arg0)) :=
  (KHost.V_v4 m c).trans (normed_eq_ref _)

end Cert.KernelIdeal.KNorm

end
-- ==== Proof.RefValueAux.lean ====
/-
  Small facts the reference side's reading uses: complementing a one-bit word, a rank-1 index set as its
  coordinate range, and three operations of the extended-real instance at a point.
-/
import Idealize.ShloMosaic.Lib.ValueIdx
import Idealize.ShloMosaic.PureOps.Ideal
import Idealize.ShloMosaic.PureOps.Ideal.Laws

noncomputable section

namespace Cert.ReferenceIdeal.RefValue

open Idealize.ShloMosaic

/-- The complement of a one-bit word is its exclusive-or with one. -/
theorem not_eq_xori_one (b : BitVec 1) : ~~~b = IntOp.xori b 1#1 := by
  rcases BitVec.eq_zero_or_eq_one b with h | h <;> subst h <;> rfl

/-- Adding the zero word changes nothing. -/
theorem addi_zero (x : BitVec 32) : IntOp.addi x 0#32 = x := BitVec.add_zero x

/-- A rank-1 index set is its coordinate's range … -/
def idxEquiv1 {n : Nat} : (⟨1, ![n]⟩ : Shape).Idx ≃ Fin n where
  toFun i := i 0
  invFun a := ValueIdx.ix1 a
  left_inv i := (ValueIdx.eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ValueIdx.ix1 a) := by
  rw [← Equiv.sum_comp (idxEquiv1 (n := n)).symm f]
  rfl

/-- A fold over a rank-1 index set is the fold over the coordinate. -/
theorem fold_idx1 {α : Type} (f : α → α → α) [Std.Commutative f] [Std.Associative f] {n : Nat} (b : α)
    (x : (⟨1, ![n]⟩ : Shape).Idx → α) :
    (Finset.univ : Finset (⟨1, ![n]⟩ : Shape).Idx).fold f b x
      = (Finset.univ : Finset (Fin n)).fold f b (fun a => x (ValueIdx.ix1 a)) := by
  rw [← Finset.map_univ_equiv (idxEquiv1 (n := n)).symm, Finset.fold_map]
  rfl

/-- On the extended reals a float comparison is the order's comparison. -/
theorem cmpf_ideal {φ : FTy} (p : CmpFPredicate) (x y : Ideal φ) : FloatOps.cmpf p x y = Ideal.cmp p x y := rfl

/-- A signed integer converts to itself. -/
theorem sitofp_ideal {w : Nat} (φ : FTy) (b : BitVec w) :
    (FloatOps.sitofp φ b : Ideal φ) = (((b.toInt : ℝ) : EReal)) := rfl

/-- The absolute value is the larger of a value and its negation. -/
theorem absf_ideal {φ : FTy} (x : Ideal φ) : FloatOps.absf x = max x (-x) := rfl

end Cert.ReferenceIdeal.RefValue

end
-- ==== Proof.RefValueA.lean ====
/-
  The reference program's square arrays read at an entry (r, j): the similarity, the two masks, the two terms and the
  two masked terms are the ones the specification names, as functions of the normalised embeddings and the labels.
-/
import proofs.«151346_j80951543595535_1_alg».proof.Proof.Spec
import proofs.«151346_j80951543595535_1_alg».proof.Proof.RefRead
import proofs.«151346_j80951543595535_1_alg».proof.Proof.RefValueAux
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Cert.CircleLoss

/-- The normalised embeddings as a function of row and coordinate. -/
abbrev emb (x0 : (⟨S8192x128, .f32⟩ : BufTy).Contents (Elt Ideal)) : Fin 8192 → Fin 128 → EReal :=
  fun r k => val_main_v4 (F := Ideal) x0 (ValueIdx.ix2 r k)

/-- The labels as a function of the row. -/
abbrev labs (x1 : (⟨S8192, .i32⟩ : BufTy).Contents (Elt Ideal)) : Fin 8192 → BitVec 32 :=
  fun r => x1 (ValueIdx.ix1 r)

/-! ## Index arithmetic at literal coordinates -/

theorem lidx_v6_ix2 (r j : Fin 8192) (k : Fin 128) : lidx_main_v6 (ValueIdx.ix2 r j) k = ValueIdx.ix2 r k := by
  funext a; match a with | ⟨0, _⟩ => rfl | ⟨1, _⟩ => rfl

theorem idx_v5_ridx_v6_ix2 (r j : Fin 8192) (k : Fin 128) :
    idx_main_v5 (ridx_main_v6 (ValueIdx.ix2 r j) k) = ValueIdx.ix2 j k := by
  funext a; match a with | ⟨0, _⟩ => rfl | ⟨1, _⟩ => rfl

theorem idx_v7_v9_ix2 (r j : Fin 8192) : idx_main_v7 (idx_main_v9 (ValueIdx.ix2 r j)) = ValueIdx.ix1 r := by
  funext a; match a with | ⟨0, _⟩ => rfl

theorem idx_v8_v10_ix2 (r j : Fin 8192) : idx_main_v8 (idx_main_v10 (ValueIdx.ix2 r j)) = ValueIdx.ix1 j := by
  funext a; match a with | ⟨0, _⟩ => rfl

/-! ## The similarity -/

/-- The `dot_general` of the embeddings with their transpose is the inner product of two rows. -/
theorem v6_at (x0 : (⟨S8192x128, .f32⟩ : BufTy).Contents (Elt Ideal)) (r j : Fin 8192) :
    val_main_v6 (F := Ideal) x0 (ValueIdx.ix2 r j) = sim (emb x0) r j := by
  rw [val_main_v6_apply]
  unfold sim
  refine Finset.sum_congr rfl fun k _ => ?_
  rw [val_main_v5_apply, lidx_v6_ix2, idx_v5_ridx_v6_ix2]

/-! ## The masks -/

theorem v11_at (x1 : (⟨S8192, .i32⟩ : BufTy).Contents (Elt Ideal)) (r j : Fin 8192) :
    val_main_v11 (F := Ideal) x1 (ValueIdx.ix2 r j) = IntOp.cmpi .eq (labs x1 r) (labs x1 j) := by
  rw [val_main_v11_apply, val_main_v9_apply, val_main_v7_apply, val_main_v10_apply, val_main_v8_apply,
    idx_v7_v9_ix2, idx_v8_v10_ix2]

theorem v17_at (r j : Fin 8192) :
    val_main_v17 (F := Ideal) (ValueIdx.ix2 r j)
      = IntOp.xori (IntOp.cmpi .eq (BitVec.ofNat 32 r.val) (BitVec.ofNat 32 j.val)) 1#1 := by
  rw [val_main_v17_apply, val_main_v16_apply, val_main_v15_apply, val_main_v12_apply, val_main_v13_apply,
    val_main_v14_apply, val_main_c_apply, addi_zero, not_eq_xori_one]

/-- The positives' mask. -/
theorem v18_at (x1 : (⟨S8192, .i32⟩ : BufTy).Contents (Elt Ideal)) (r j : Fin 8192) :
    val_main_v18 (F := Ideal) x1 (ValueIdx.ix2 r j) = posM (labs x1) r j := by
  rw [val_main_v18_apply, v11_at, v17_at]
  rfl

/-- The negatives' mask. -/
theorem v19_at (x1 : (⟨S8192, .i32⟩ : BufTy).Contents (Elt Ideal)) (r j : Fin 8192) :
    val_main_v19 (F := Ideal) x1 (ValueIdx.ix2 r j) = negM (labs x1) r j := by
  rw [val_main_v19_apply, v11_at, not_eq_xori_one]
  rfl

/-! ## The terms -/

/-- The positive term of an entry. -/
theorem v32_at (x0 : (⟨S8192x128, .f32⟩ : BufTy).Contents (Elt Ideal)) (r j : Fin 8192) :
    val_main_v32 (F := Ideal) x0 (ValueIdx.ix2 r j) = apTerm (sim (emb x0) r j) := by
  rw [val_main_v32_apply, val_main_v27_apply, val_main_v31_apply, val_main_v26_apply, val_main_cst_2_apply,
    val_main_v22_apply, val_main_v21_apply, val_main_v20_apply, val_main_cst_0_apply, val_main_call1_v0_apply,
    val_main_call1_cst_apply, val_main_v29_apply, val_main_v28_apply, val_main_cst_3_apply, val_main_v30_apply,
    val_main_cst_4_apply, v6_at]
  rfl

/-- The negative term of an entry. -/
theorem v37_at (x0 : (⟨S8192x128, .f32⟩ : BufTy).Contents (Elt Ideal)) (r j : Fin 8192) :
    val_main_v37 (F := Ideal) x0 (ValueIdx.ix2 r j) = anTerm (sim (emb x0) r j) := by
  rw [val_main_v37_apply, val_main_v34_apply, val_main_v36_apply, val_main_v33_apply, val_main_cst_5_apply,
    val_main_v25_apply, val_main_v24_apply, val_main_v23_apply, val_main_cst_1_apply, val_main_call2_v0_apply,
    val_main_call2_cst_apply, val_main_v35_apply, val_main_cst_6_apply, v6_at]
  rfl

/-! ## The masked terms -/

/-- The positive terms with the other entries filled. -/
theorem v47_at (x0 : (⟨S8192x128, .f32⟩ : BufTy).Contents (Elt Ideal)) (x1 : (⟨S8192, .i32⟩ : BufTy).Contents (Elt Ideal))
    (r j : Fin 8192) :
    val_main_v47 (F := Ideal) x0 x1 (ValueIdx.ix2 r j)
      = masked (posM (labs x1) r) (fun j => apTerm (sim (emb x0) r j)) j := by
  rw [val_main_v47_apply, v18_at, v32_at, val_main_call3_v1_apply, val_main_call3_v0_apply, val_main_cst_11_apply]
  rfl

/-- The negative terms with the other entries filled. -/
theorem v57_at (x0 : (⟨S8192x128, .f32⟩ : BufTy).Contents (Elt Ideal)) (x1 : (⟨S8192, .i32⟩ : BufTy).Contents (Elt Ideal))
    (r j : Fin 8192) :
    val_main_v57 (F := Ideal) x0 x1 (ValueIdx.ix2 r j)
      = masked (negM (labs x1) r) (fun j => anTerm (sim (emb x0) r j)) j := by
  rw [val_main_v57_apply, v19_at, v37_at, val_main_call4_v1_apply, val_main_call4_v0_apply, val_main_cst_14_apply]
  rfl

end Cert.ReferenceIdeal.RefValue

end
-- ==== Proof.RefValueB.lean ====
/-
  The reference program's per-row arrays read at a row r: the row maxima and the sums under the logarithms give the
  stable log-sum-exps of the masked terms, the integer reductions give the counts and the validity bit, and the
  inlined softplus of their combination, kept only on valid rows, is the row's loss as the specification writes it.
-/
import proofs.«151346_j80951543595535_1_alg».proof.Proof.Spec
import proofs.«151346_j80951543595535_1_alg».proof.Proof.RefRead
import proofs.«151346_j80951543595535_1_alg».proof.Proof.RefValueAux
import proofs.«151346_j80951543595535_1_alg».proof.Proof.RefValueA
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Cert.CircleLoss

/-! ## A reduction along a row is a fold over the row's entries -/

theorem red_d1 : S8192x8192.Reduces [1] S8192 := by decide

theorem lift_d1 (r k : Fin 8192) : red_d1.lift (ValueIdx.ix1 r) k = ValueIdx.ix2 r k := by
  funext c; apply Fin.ext; match c with | ⟨0, _⟩ => rfl | ⟨1, _⟩ => rfl

/-- For a commutative associative body, the reduction of a square array along its second axis is, at row `r`, the
    fold from the initial value over the row's entries. -/
theorem reduce_row {α : Type} (f : α → α → α) [Std.Commutative f] [Std.Associative f] (x : S8192x8192.Idx → α)
    (init : S_.Idx → α) (r : Fin 8192) :
    Host.reduce f x init reducesTo_S8192x8192_S8192_d1 h_S_ (ValueIdx.ix1 r)
      = (Finset.univ : Finset (Fin 8192)).fold f (init (Shape.Idx.first h_S_)) (fun k => x (ValueIdx.ix2 r k)) := by
  have e : (x ∘ red_d1.lift (ValueIdx.ix1 r)) = fun k : Fin 8192 => x (ValueIdx.ix2 r k) :=
    funext fun k => congrArg x (lift_d1 r k)
  rw [Host.reduce_eq_fold_single f x init reducesTo_S8192x8192_S8192_d1 red_d1 h_S_, e]
  rfl

/-! ## Index arithmetic at literal coordinates -/

theorem idx_v49_v50_ix1 (r : Fin 8192) : idx_main_v49 (idx_main_v50 (ValueIdx.ix1 r)) = ValueIdx.ix1 r := by
  funext a; match a with | ⟨0, _⟩ => exact Fin.ext (Nat.div_one r.val)

theorem idx_v49_v51_ix2 (r k : Fin 8192) : idx_main_v49 (idx_main_v51 (ValueIdx.ix2 r k)) = ValueIdx.ix1 r := by
  funext a; match a with | ⟨0, _⟩ => rfl

theorem idx_v54_ix1 (r k : Fin 8192) : idx_main_v54 (ValueIdx.ix1 r) k = ValueIdx.ix2 r k := by
  funext a; match a with | ⟨0, _⟩ => rfl | ⟨1, _⟩ => rfl

theorem idx_v59_v60_ix1 (r : Fin 8192) : idx_main_v59 (idx_main_v60 (ValueIdx.ix1 r)) = ValueIdx.ix1 r := by
  funext a; match a with | ⟨0, _⟩ => exact Fin.ext (Nat.div_one r.val)

theorem idx_v59_v61_ix2 (r k : Fin 8192) : idx_main_v59 (idx_main_v61 (ValueIdx.ix2 r k)) = ValueIdx.ix1 r := by
  funext a; match a with | ⟨0, _⟩ => rfl

theorem idx_v64_ix1 (r k : Fin 8192) : idx_main_v64 (ValueIdx.ix1 r) k = ValueIdx.ix2 r k := by
  funext a; match a with | ⟨0, _⟩ => rfl | ⟨1, _⟩ => rfl

/-! ## Row maxima -/

/-- The row maximum of the masked positive terms. -/
theorem v48_at (x0 : (⟨S8192x128, .f32⟩ : BufTy).Contents (Elt Ideal)) (x1 : (⟨S8192, .i32⟩ : BufTy).Contents (Elt Ideal)) (r : Fin 8192) :
    val_main_v48 (F := Ideal) x0 x1 (ValueIdx.ix1 r)
      = rowMax (masked (posM (labs x1) r) (fun j => apTerm (sim (emb x0) r j))) := by
  have e : (fun k => val_main_v47 (F := Ideal) x0 x1 (ValueIdx.ix2 r k))
      = masked (posM (labs x1) r) (fun j => apTerm (sim (emb x0) r j)) := funext fun k => v47_at x0 x1 r k
  unfold val_main_v48
  rw [reduce_row, e]
  rfl

/-- The row maximum of the masked negative terms. -/
theorem v58_at (x0 : (⟨S8192x128, .f32⟩ : BufTy).Contents (Elt Ideal)) (x1 : (⟨S8192, .i32⟩ : BufTy).Contents (Elt Ideal)) (r : Fin 8192) :
    val_main_v58 (F := Ideal) x0 x1 (ValueIdx.ix1 r)
      = rowMax (masked (negM (labs x1) r) (fun j => anTerm (sim (emb x0) r j))) := by
  have e : (fun k => val_main_v57 (F := Ideal) x0 x1 (ValueIdx.ix2 r k))
      = masked (negM (labs x1) r) (fun j => anTerm (sim (emb x0) r j)) := funext fun k => v57_at x0 x1 r k
  unfold val_main_v58
  rw [reduce_row, e]
  rfl

/-! ## Log-sum-exps -/

/-- The stable log-sum-exp of the masked positive terms. -/
theorem v56_at (x0 : (⟨S8192x128, .f32⟩ : BufTy).Contents (Elt Ideal)) (x1 : (⟨S8192, .i32⟩ : BufTy).Contents (Elt Ideal)) (r : Fin 8192) :
    val_main_v56 (F := Ideal) x0 x1 (ValueIdx.ix1 r)
      = lseR (masked (posM (labs x1) r) (fun j => apTerm (sim (emb x0) r j))) := by
  have e : ∀ k : Fin 8192, val_main_v53 (F := Ideal) x0 x1 (idx_main_v54 (ValueIdx.ix1 r) k)
      = Ideal.exp (masked (posM (labs x1) r) (fun j => apTerm (sim (emb x0) r j)) k
          - rowMax (masked (posM (labs x1) r) (fun j => apTerm (sim (emb x0) r j)))) := by
    intro k
    rw [idx_v54_ix1, val_main_v53_apply, val_main_v52_apply, v47_at, val_main_v51_apply, val_main_v49_apply,
      idx_v49_v51_ix2, v48_at]
    rfl
  rw [val_main_v56_apply, val_main_v50_apply, val_main_v49_apply, idx_v49_v50_ix1, v48_at, val_main_v55_apply,
    val_main_v54_apply, val_main_cst_13_apply, Finset.sum_congr rfl fun k _ => e k]
  rfl

/-- The stable log-sum-exp of the masked negative terms. -/
theorem v66_at (x0 : (⟨S8192x128, .f32⟩ : BufTy).Contents (Elt Ideal)) (x1 : (⟨S8192, .i32⟩ : BufTy).Contents (Elt Ideal)) (r : Fin 8192) :
    val_main_v66 (F := Ideal) x0 x1 (ValueIdx.ix1 r)
      = lseR (masked (negM (labs x1) r) (fun j => anTerm (sim (emb x0) r j))) := by
  have e : ∀ k : Fin 8192, val_main_v63 (F := Ideal) x0 x1 (idx_main_v64 (ValueIdx.ix1 r) k)
      = Ideal.exp (masked (negM (labs x1) r) (fun j => anTerm (sim (emb x0) r j)) k
          - rowMax (masked (negM (labs x1) r) (fun j => anTerm (sim (emb x0) r j)))) := by
    intro k
    rw [idx_v64_ix1, val_main_v63_apply, val_main_v62_apply, v57_at, val_main_v61_apply, val_main_v59_apply,
      idx_v59_v61_ix2, v58_at]
    rfl
  rw [val_main_v66_apply, val_main_v60_apply, val_main_v59_apply, idx_v59_v60_ix1, v58_at, val_main_v65_apply,
    val_main_v64_apply, val_main_cst_16_apply, Finset.sum_congr rfl fun k _ => e k]
  rfl

/-! ## Counts and validity -/

/-- The number of positives of a row. -/
theorem v39_at (x1 : (⟨S8192, .i32⟩ : BufTy).Contents (Elt Ideal)) (r : Fin 8192) :
    val_main_v39 (F := Ideal) x1 (ValueIdx.ix1 r) = cntR (posM (labs x1) r) := by
  have e : (fun k => val_main_v38 (F := Ideal) x1 (ValueIdx.ix2 r k))
      = fun j => (posM (labs x1) r j).setWidth 32 := funext fun k => by rw [val_main_v38_apply, v18_at]
  unfold val_main_v39
  rw [reduce_row, e]
  rfl

/-- The number of negatives of a row. -/
theorem v41_at (x1 : (⟨S8192, .i32⟩ : BufTy).Contents (Elt Ideal)) (r : Fin 8192) :
    val_main_v41 (F := Ideal) x1 (ValueIdx.ix1 r) = cntR (negM (labs x1) r) := by
  have e : (fun k => val_main_v40 (F := Ideal) x1 (ValueIdx.ix2 r k))
      = fun j => (negM (labs x1) r j).setWidth 32 := funext fun k => by rw [val_main_v40_apply, v19_at]
  unfold val_main_v41
  rw [reduce_row, e]
  rfl

/-- The row has a positive and a negative. -/
theorem v46_at (x1 : (⟨S8192, .i32⟩ : BufTy).Contents (Elt Ideal)) (r : Fin 8192) :
    val_main_v46 (F := Ideal) x1 (ValueIdx.ix1 r) = validR (posM (labs x1) r) (negM (labs x1) r) := by
  rw [val_main_v46_apply, val_main_v43_apply, val_main_v45_apply, v39_at, v41_at, val_main_v42_apply,
    val_main_v44_apply, val_main_c_9_apply, val_main_c_10_apply]
  rfl

/-- The logarithm of the number of positives, on valid rows. -/
theorem v69_at (x1 : (⟨S8192, .i32⟩ : BufTy).Contents (Elt Ideal)) (r : Fin 8192) :
    val_main_v69 (F := Ideal) x1 (ValueIdx.ix1 r)
      = Scalar.select (validR (posM (labs x1) r) (negM (labs x1) r))
          (Ideal.log ((((cntR (posM (labs x1) r)).toInt : ℝ) : EReal))) (lit 0x00000000#32) := by
  rw [val_main_v69_apply, v46_at, val_main_v68_apply, val_main_v67_apply, v39_at, val_main_call5_v1_apply,
    val_main_call5_v0_apply, val_main_cst_17_apply]
  rfl

/-- The logarithm of the number of negatives, on valid rows. -/
theorem v72_at (x1 : (⟨S8192, .i32⟩ : BufTy).Contents (Elt Ideal)) (r : Fin 8192) :
    val_main_v72 (F := Ideal) x1 (ValueIdx.ix1 r)
      = Scalar.select (validR (posM (labs x1) r) (negM (labs x1) r))
          (Ideal.log ((((cntR (negM (labs x1) r)).toInt : ℝ) : EReal))) (lit 0x00000000#32) := by
  rw [val_main_v72_apply, v46_at, val_main_v71_apply, val_main_v70_apply, v41_at, val_main_call6_v1_apply,
    val_main_call6_v0_apply, val_main_cst_18_apply]
  rfl

/-! ## The row's loss -/

/-- The inlined softplus at a point: the operations of the extended-real instance, unfolded, spell `softplusR`. -/
theorem softplus_pt (X : Ideal .f32) :
    Scalar.select
        (FloatOps.cmpf .une (FloatOps.subf X (FloatOps.ofBits .f32 0x00000000#32))
          (FloatOps.subf X (FloatOps.ofBits .f32 0x00000000#32)))
        (FloatOps.addf X (FloatOps.ofBits .f32 0x00000000#32))
        (FloatOps.addf (FloatOps.maximumf X (FloatOps.ofBits .f32 0x00000000#32))
          (FloatOps.hostUnary .log1p (FloatOps.hostUnary .exp
            (FloatOps.hostNegf (FloatOps.hostAbsf (FloatOps.subf X (FloatOps.ofBits .f32 0x00000000#32)))))))
      = softplusR X := by
  unfold softplusR
  simp only [Ideal.ofBits_def, Ideal.subf_def, Ideal.addf_def, Ideal.maximumf_def, Ideal.hostUnary_log1p_def,
    Ideal.hostUnary_exp_def, Ideal.hostNegf_def, Ideal.hostAbsf_def, Ideal.negf_def, absf_ideal, cmpf_ideal]

/-- The inlined softplus. -/
theorem v76_at (x0 : (⟨S8192x128, .f32⟩ : BufTy).Contents (Elt Ideal)) (x1 : (⟨S8192, .i32⟩ : BufTy).Contents (Elt Ideal)) (i : S8192.Idx) :
    val_main_v76 (F := Ideal) x0 x1 i = softplusR (val_main_v75 (F := Ideal) x0 x1 i) := by
  rw [val_main_v76_apply, val_main_call7_v4_apply, val_main_call7_v6_apply, val_main_call7_v11_apply,
    val_main_call7_v1_apply, val_main_call7_v10_apply, val_main_call7_v9_apply, val_main_call7_v8_apply,
    val_main_call7_v7_apply, val_main_call7_v3_apply, val_main_call7_v0_apply, val_main_call7_v2_apply,
    val_main_call7_v5_apply]
  generalize val_main_v75 (F := Ideal) x0 x1 i = X
  repeat rw [val_main_call7_cst_apply]
  exact softplus_pt X

/-- The select that keeps the softplus on valid rows, at a point. -/
theorem loss_pt (v : BitVec 1) (a b c d : Ideal .f32) :
    Scalar.select v (softplusR (FloatOps.addf (FloatOps.addf (FloatOps.addf a b) c) d))
        (FloatOps.ofBits (F := Ideal) .f32 0x00000000#32)
      = Scalar.select v (softplusR (((a + b) + c) + d)) (lit 0x00000000#32) := by
  simp only [Ideal.ofBits_def, Ideal.addf_def]

/-- A row's loss. -/
theorem v77_at (x0 : (⟨S8192x128, .f32⟩ : BufTy).Contents (Elt Ideal)) (x1 : (⟨S8192, .i32⟩ : BufTy).Contents (Elt Ideal)) (r : Fin 8192) :
    val_main_v77 (F := Ideal) x0 x1 (ValueIdx.ix1 r)
      = lossR (sim (emb x0) r) (posM (labs x1) r) (negM (labs x1) r) := by
  rw [val_main_v77_apply, v46_at, v76_at, val_main_v75_apply, val_main_v74_apply, val_main_v73_apply, v56_at, v66_at,
    v72_at, v69_at, val_main_call8_v1_apply, val_main_call8_v0_apply, val_main_cst_19_apply]
  unfold lossR
  generalize validR (posM (labs x1) r) (negM (labs x1) r) = v
  generalize lseR (masked (posM (labs x1) r) fun j => apTerm (sim (emb x0) r j)) = a
  generalize lseR (masked (negM (labs x1) r) fun j => anTerm (sim (emb x0) r j)) = c
  generalize cntR (negM (labs x1) r) = kn
  generalize cntR (posM (labs x1) r) = kp
  exact loss_pt v a _ c _

end Cert.ReferenceIdeal.RefValue

end
-- ==== Proof.RefValue.lean ====
/-
  The reference program's scalar result: the rows' losses summed from the initial value, over the larger of the
  converted number of valid rows and one, is the specification's `resultR` of the normalised embeddings and the labels.
-/
import proofs.«151346_j80951543595535_1_alg».proof.Proof.Spec
import proofs.«151346_j80951543595535_1_alg».proof.Proof.RefRead
import proofs.«151346_j80951543595535_1_alg».proof.Proof.RefValueAux
import proofs.«151346_j80951543595535_1_alg».proof.Proof.RefValueB
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Cert.CircleLoss

/-! ## A reduction of a vector to a scalar is a fold over its entries -/

/-- For a commutative associative body, the reduction of a vector over its one axis is the fold from the initial value
    over all its entries: every index drops to the scalar's one index. -/
theorem reduce_all {α : Type} (f : α → α → α) [Std.Commutative f] [Std.Associative f] (x : S8192.Idx → α)
    (init : S_.Idx → α) (i : S_.Idx) :
    Host.reduce f x init reducesTo_S8192_S_d0 h_S_ i
      = (Finset.univ : Finset (Fin 8192)).fold f (init (Shape.Idx.first h_S_)) (fun k => x (ValueIdx.ix1 k)) := by
  rw [Host.reduce_eq_fold, Finset.filter_true_of_mem (fun _ _ => funext fun b => b.elim0), fold_idx1]

/-- The number of valid rows, as a 32-bit sum. -/
theorem v80_at (x1 : (⟨S8192, .i32⟩ : BufTy).Contents (Elt Ideal)) (i : S_.Idx) :
    val_main_v80 (F := Ideal) x1 i
      = Finset.univ.fold IntOp.addi 0#32
          (fun r : Fin 8192 => (validR (posM (labs x1) r) (negM (labs x1) r)).setWidth 32) := by
  have e : (fun k => val_main_v79 (F := Ideal) x1 (ValueIdx.ix1 k))
      = fun r : Fin 8192 => (validR (posM (labs x1) r) (negM (labs x1) r)).setWidth 32 := funext fun k => by
    rw [val_main_v79_apply, v46_at]
  unfold val_main_v80
  rw [reduce_all, e]
  rfl

/-- The sum of the rows' losses, from the initial value. -/
theorem v78_at (x0 : (⟨S8192x128, .f32⟩ : BufTy).Contents (Elt Ideal)) (x1 : (⟨S8192, .i32⟩ : BufTy).Contents (Elt Ideal)) (i : S_.Idx) :
    val_main_v78 (F := Ideal) x0 x1 i
      = lit 0x00000000#32 + ∑ r : Fin 8192, lossR (sim (emb x0) r) (posM (labs x1) r) (negM (labs x1) r) := by
  rw [val_main_v78_apply, val_main_cst_20_apply, sum_idx1, Finset.sum_congr rfl fun r _ => v77_at x0 x1 r]
  rfl

/-- The quotient at a point: the operations of the extended-real instance, unfolded. -/
theorem result_pt (s : Ideal .f32) (n : BitVec 32) :
    FloatOps.hostDivf s (FloatOps.maximumf (FloatOps.sitofp .f32 n) (FloatOps.ofBits (F := Ideal) .f32 0x3F800000#32))
      = Ideal.div s (max ((((n.toInt : ℝ) : EReal))) (lit 0x3F800000#32)) := by
  rw [Ideal.hostDivf_def, Ideal.maximumf_def, Ideal.ofBits_def, sitofp_ideal]

/-- The reference program's result is the specification's mean loss over the valid rows, the rows counted in integers. -/
theorem ref_result (x0 : (⟨S8192x128, .f32⟩ : BufTy).Contents (Elt Ideal)) (x1 : (⟨S8192, .i32⟩ : BufTy).Contents (Elt Ideal)) (i : S_.Idx) :
    Cert.ReferenceIdeal.Read.val_main_v83 (F := Ideal) x0 x1 i
      = Cert.CircleLoss.resultR (fun r k => Cert.ReferenceIdeal.Read.val_main_v4 (F := Ideal) x0 (ValueIdx.ix2 r k))
          (fun r => x1 (ValueIdx.ix1 r)) := by
  show val_main_v83 (F := Ideal) x0 x1 i = resultR (emb x0) (labs x1)
  rw [val_main_v83_apply, v78_at, val_main_v82_apply, val_main_v81_apply, v80_at, val_main_cst_22_apply]
  unfold resultR
  generalize (lit 0x00000000#32 + ∑ r : Fin 8192, lossR (sim (emb x0) r) (posM (labs x1) r) (negM (labs x1) r)) = s
  generalize (Finset.univ.fold IntOp.addi 0#32
    (fun r : Fin 8192 => (validR (posM (labs x1) r) (negM (labs x1) r)).setWidth 32)) = n
  exact result_pt s n

end Cert.ReferenceIdeal.RefValue

end
-- ==== Proof.lean ====
/-
  The certificate: a circle-loss kernel against its jnp reference, over the extended reals.

  Both programs L2-normalise the 8192 embeddings on the host (`x / max ‖x‖ 1e-12`, the same nine operations) and then
  compute, for every row, `softplus` of the sum of two masked log-sum-exps of the similarity terms and the logarithms of
  the two counts, averaged over the rows that have a positive and a negative. The kernel forms the similarities tile by
  tile — 128 grid points, each a [64, 128] × [128, 8192] product reduced along its lanes — and leaves a loss column and a
  validity column that the host sums; the reference forms the whole [8192, 8192] similarity matrix. At the ideal values
  a change of float format is the identity and a sum does not depend on its grouping, so the two are one function:

  * the kernel's run ends at `CircleLoss.resultK` of the normalised embeddings and the labels (KValue: the body's
    arithmetic at a row, KPay; the blocks covering the columns, KBlocks; the host operations around the region, KHost and
    KTail);
  * the reference's run ends at `CircleLoss.resultR` of the same (RefRun: the run read back stage by stage; RefValue: the stages read at an index);
  * `resultK = resultR` (Bridge): counting 0/1 indicators in floats or in 32-bit integers gives the same number below
    2^31, a count that is positive is at least one, a host sum's initial value is zero, and `0 - y = -y`.

  The three frames are the programs' runs with the results dropped; the idealization rewrote nothing.
-/
import proofs.«151346_j80951543595535_1_alg».proof.Defs
import proofs.«151346_j80951543595535_1_alg».proof.Proof.Gen.Kernel
import proofs.«151346_j80951543595535_1_alg».proof.Proof.Gen.Kernel.Skeleton
import proofs.«151346_j80951543595535_1_alg».proof.Proof.Gen.Kernel.Launch
import proofs.«151346_j80951543595535_1_alg».proof.Proof.Gen.Kernel.Points
import proofs.«151346_j80951543595535_1_alg».proof.Proof.KernelFrame
import proofs.«151346_j80951543595535_1_alg».proof.Proof.Gen.KernelIdeal
import proofs.«151346_j80951543595535_1_alg».proof.Proof.Gen.KernelIdeal.Skeleton
import proofs.«151346_j80951543595535_1_alg».proof.Proof.Gen.KernelIdeal.Launch
import proofs.«151346_j80951543595535_1_alg».proof.Proof.Gen.KernelIdeal.Points
import proofs.«151346_j80951543595535_1_alg».proof.Proof.KernelIdealFrame
import proofs.«151346_j80951543595535_1_alg».proof.Proof.Gen.ReferenceIdeal
import proofs.«151346_j80951543595535_1_alg».proof.Proof.RefRead
import proofs.«151346_j80951543595535_1_alg».proof.Proof.RefRun
import proofs.«151346_j80951543595535_1_alg».proof.Proof.Gen.Pre_finite_inputs
import proofs.«151346_j80951543595535_1_alg».proof.Proof.Bridge
import proofs.«151346_j80951543595535_1_alg».proof.Proof.KValue
import proofs.«151346_j80951543595535_1_alg».proof.Proof.KNorm
import proofs.«151346_j80951543595535_1_alg».proof.Proof.RefValue
import Idealize.ShloMosaic.Adequacy
import Idealize.ShloMosaic.Init

noncomputable section

namespace Cert.Proof

open Idealize.ShloMosaic Idealize.SL.Sem Idealize.ShloMosaic.TcCoe

/-- The kernel's program as printed runs, and keeps its arguments. -/
theorem frame_k : Cert.frame_Kernel := fun m ρ _ => Cert.Kernel.GenP.frame m ρ
/-- So does its idealization. -/
theorem frame_ki : Cert.frame_KernelIdeal := fun m ρ _ => Cert.KernelIdeal.GenP.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the embeddings and the labels both programs end at the same extended real: the kernel at
    `resultK`, the reference at `resultR`, of the same normalised embeddings and labels. -/
theorem algebraic : Cert.algebraic_KernelIdeal_ReferenceIdeal := by
  intro m ρ m' ρ' _ hagree
  refine ⟨fun c => (fun _ => Cert.CircleLoss.resultK (Cert.KernelIdeal.KValue.E m c) (Cert.KernelIdeal.KValue.lab m c)),
    Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  funext i
  rw [Cert.ReferenceIdeal.RefValue.ref_result, ← Cert.CircleLoss.resultK_eq_resultR]
  exact congrArg
    (fun (e : Cert.KernelIdeal.S8192x128.Idx → EReal) =>
      Cert.CircleLoss.resultK (fun r k => e (ValueIdx.ix2 r k)) (Cert.KernelIdeal.KValue.lab m c))
    (Cert.KernelIdeal.KNorm.V_v4_eq_ref m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
